-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S8192x8192 .f32) (main_arg1 : FVec F S8192x64 .f32) (main_arg2 : FVec F S64x32 .f32) (main_arg3 : FVec F S64x64 .f32) (main_arg4 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S_ : Shape := ⟨0, ![]⟩
abbrev S64x128 : Shape := ⟨2, ![64, 128]⟩
abbrev S8192x128 : Shape := ⟨2, ![8192, 128]⟩
abbrev S2048x1024 : Shape := ⟨2, ![2048, 1024]⟩
abbrev S1024x64 : Shape := ⟨2, ![1024, 64]⟩
abbrev S2048x128 : Shape := ⟨2, ![2048, 128]⟩
abbrev S1024x128 : Shape := ⟨2, ![1024, 128]⟩
abbrev S2048x32 : Shape := ⟨2, ![2048, 32]⟩
abbrev S2048x64 : Shape := ⟨2, ![2048, 64]⟩
abbrev S2048 : Shape := ⟨1, ![2048]⟩
abbrev S2048x1 : Shape := ⟨2, ![2048, 1]⟩
abbrev S8192x32 : Shape := ⟨2, ![8192, 32]⟩
abbrev S32x32x32 : Shape := ⟨3, ![32, 32, 32]⟩
abbrev S1024x32 : Shape := ⟨2, ![1024, 32]⟩
abbrev S1024x1024 : Shape := ⟨2, ![1024, 1024]⟩
abbrev S128x64 : Shape := ⟨2, ![128, 64]⟩
abbrev S4x32x32 : Shape := ⟨3, ![4, 32, 32]⟩
abbrev S256x32 : Shape := ⟨2, ![256, 32]⟩
abbrev S256x64 : Shape := ⟨2, ![256, 64]⟩
abbrev S256x256 : Shape := ⟨2, ![256, 256]⟩
abbrev S32x64 : Shape := ⟨2, ![32, 64]⟩
abbrev S32x32 : Shape := ⟨2, ![32, 32]⟩
abbrev S1x32x32 : Shape := ⟨3, ![1, 32, 32]⟩
abbrev S32 : Shape := ⟨1, ![32]⟩
abbrev S32x32x32x32 : Shape := ⟨4, ![32, 32, 32, 32]⟩
abbrev S32x1 : Shape := ⟨2, ![32, 1]⟩
abbrev S32x2 : Shape := ⟨2, ![32, 2]⟩
abbrev S1024 : Shape := ⟨1, ![1024]⟩

abbrev nBuf : Space → Nat
  | .hbm => 38
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x32, .f32⟩
  | .hbm, ⟨3, _⟩ => ⟨S64x64, .f32⟩
  | .hbm, ⟨4, _⟩ => ⟨S8192, .i32⟩
  | .hbm, ⟨5, _⟩ => ⟨S_, .f32⟩
  | .hbm, ⟨6, _⟩ => ⟨S64x32, .f32⟩
  | .hbm, ⟨7, _⟩ => ⟨S64x128, .f32⟩
  | .hbm, ⟨8, _⟩ => ⟨S8192x128, .f32⟩
  | .hbm, ⟨9, _⟩ => ⟨S8192x32, .f32⟩
  | .hbm, ⟨10, _⟩ => ⟨S8192x64, .f32⟩
  | .hbm, ⟨11, _⟩ => ⟨S1024x64, .f32⟩
  | .hbm, ⟨12, _⟩ => ⟨S32x32x32, .f32⟩
  | .hbm, ⟨13, _⟩ => ⟨S32, .i32⟩
  | .hbm, ⟨14, _⟩ => ⟨S_, .f32⟩
  | .hbm, ⟨15, _⟩ => ⟨S32x32x32x32, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S32x1, .i32⟩
  | .hbm, ⟨31, _⟩ => ⟨S32x1, .i32⟩
  | .hbm, ⟨32, _⟩ => ⟨S32x2, .i32⟩
  | .hbm, ⟨33, _⟩ => ⟨S32x32x32x32, .f32⟩
  | .hbm, ⟨34, _⟩ => ⟨S1024x1024, .f32⟩
  | .hbm, ⟨35, _⟩ => ⟨S32, .i32⟩
  | .hbm, ⟨36, _⟩ => ⟨S32x32, .i32⟩
  | .hbm, ⟨37, _⟩ => ⟨S1024, .i32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S64x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1024x32, .f32⟩
  | .local _ .vmem, ⟨9, _⟩ => ⟨S1024x32, .f32⟩
  | .local _ .vmem, ⟨10, _⟩ => ⟨S1024x64, .f32⟩
  | .local _ .vmem, ⟨11, _⟩ => ⟨S1024x64, .f32⟩
  | .local _ .vmem, ⟨12, _⟩ => ⟨S1024x1024, .f32⟩
  | .local _ .vmem, ⟨13, _⟩ => ⟨S1024x1024, .f32⟩
  | .local _ .vmem, ⟨14, _⟩ => ⟨S128x64, .f32⟩
  | .local _ .vmem, ⟨15, _⟩ => ⟨S128x64, .f32⟩
  | .local _ .vmem, ⟨16, _⟩ => ⟨S4x32x32, .f32⟩
  | .local _ .vmem, ⟨17, _⟩ => ⟨S4x32x32, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  ![arg0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x32x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S64x32 : S_.BroadcastsInDim S64x32 (![] : Fin 0 → Fin S64x32.rank)
  concatenates_S64x32_S64x64_S64x32_S64x128_d1 : Shape.Concatenates [S64x32, S64x64, S64x32] S64x128 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2048x1024_S2048x1024_0_0 : ∀ a, (![0, 0] : Fin 2 → Nat) a + S2048x1024.size a ≤ S2048x1024.size a
  h_S2048x1024 : 0 < S2048x1024.numel
  slices_S2048x128_o0_0_S2048x32 : S2048x128.Slices ![0, 0] S2048x32
  slices_S2048x128_o0_32_S2048x64 : S2048x128.Slices ![0, 32] S2048x64
  reduces_S2048x32_S2048 : S2048x32.Reduces [1] S2048
  shapeCasts_S2048_S2048x1 : S2048.ShapeCasts S2048x1
  broadcasts_S2048x1_S2048x32 : S2048x1.Broadcasts S2048x32
  concatenates_S2048x32_S2048x64_S2048x32_S2048x128_d1 : Shape.Concatenates [S2048x32, S2048x64, S2048x32] S2048x128 1
  slices_S8192x128_S8192x32_0_0 : S8192x128.Slices ![0, 0] S8192x32
  slices_S8192x128_S8192x64_0_32 : S8192x128.Slices ![0, 32] S8192x64
  inb_S1024x32_S256x32_0_0 : ∀ a, (![0, 0] : Fin 2 → Nat) a + S256x32.size a ≤ S1024x32.size a
  h_S256x32 : 0 < S256x32.numel
  shapeCasts_S256x32_S256x32 : S256x32.ShapeCasts S256x32
  inb_S1024x64_S256x64_0_0 : ∀ a, (![0, 0] : Fin 2 → Nat) a + S256x64.size a ≤ S1024x64.size a
  h_S256x64 : 0 < S256x64.numel
  shapeCasts_S256x64_S256x64 : S256x64.ShapeCasts S256x64
  inb_S1024x1024_S256x256_0_0 : ∀ a, (![0, 0] : Fin 2 → Nat) a + S256x256.size a ≤ S1024x1024.size a
  h_S256x256 : 0 < S256x256.numel
  inb_S128x64_S32x64_0_0 : ∀ a, (![0, 0] : Fin 2 → Nat) a + S32x64.size a ≤ S128x64.size a
  h_S32x64 : 0 < S32x64.numel
  inb_S4x32x32_S1x32x32_0_0_0 : ∀ a, (![0, 0, 0] : Fin 3 → Nat) a + S1x32x32.size a ≤ S4x32x32.size a
  h_S1x32x32 : 0 < S1x32x32.numel
  shapeCasts_S1x32x32_S32x32 : S1x32x32.ShapeCasts S32x32
  shapeCasts_S32x32_S1x32x32 : S32x32.ShapeCasts S1x32x32
  inb_S1024x32_S256x32_256_0 : ∀ a, (![256, 0] : Fin 2 → Nat) a + S256x32.size a ≤ S1024x32.size a
  inb_S1024x64_S256x64_256_0 : ∀ a, (![256, 0] : Fin 2 → Nat) a + S256x64.size a ≤ S1024x64.size a
  inb_S1024x1024_S256x256_256_256 : ∀ a, (![256, 256] : Fin 2 → Nat) a + S256x256.size a ≤ S1024x1024.size a
  inb_S128x64_S32x64_32_0 : ∀ a, (![32, 0] : Fin 2 → Nat) a + S32x64.size a ≤ S128x64.size a
  inb_S4x32x32_S1x32x32_1_0_0 : ∀ a, (![1, 0, 0] : Fin 3 → Nat) a + S1x32x32.size a ≤ S4x32x32.size a
  inb_S1024x32_S256x32_512_0 : ∀ a, (![512, 0] : Fin 2 → Nat) a + S256x32.size a ≤ S1024x32.size a
  inb_S1024x64_S256x64_512_0 : ∀ a, (![512, 0] : Fin 2 → Nat) a + S256x64.size a ≤ S1024x64.size a
  inb_S1024x1024_S256x256_512_512 : ∀ a, (![512, 512] : Fin 2 → Nat) a + S256x256.size a ≤ S1024x1024.size a
  inb_S128x64_S32x64_64_0 : ∀ a, (![64, 0] : Fin 2 → Nat) a + S32x64.size a ≤ S128x64.size a
  inb_S4x32x32_S1x32x32_2_0_0 : ∀ a, (![2, 0, 0] : Fin 3 → Nat) a + S1x32x32.size a ≤ S4x32x32.size a
  inb_S1024x32_S256x32_768_0 : ∀ a, (![768, 0] : Fin 2 → Nat) a + S256x32.size a ≤ S1024x32.size a
  inb_S1024x64_S256x64_768_0 : ∀ a, (![768, 0] : Fin 2 → Nat) a + S256x64.size a ≤ S1024x64.size a
  inb_S1024x1024_S256x256_768_768 : ∀ a, (![768, 768] : Fin 2 → Nat) a + S256x256.size a ≤ S1024x1024.size a
  inb_S128x64_S32x64_96_0 : ∀ a, (![96, 0] : Fin 2 → Nat) a + S32x64.size a ≤ S128x64.size a
  inb_S4x32x32_S1x32x32_3_0_0 : ∀ a, (![3, 0, 0] : Fin 3 → Nat) a + S1x32x32.size a ≤ S4x32x32.size a
  bcast_S_S32x32x32x32 : S_.BroadcastsInDim S32x32x32x32 (![] : Fin 0 → Fin S32x32x32x32.rank)
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S32x32x32x32_S1024x1024 : S32x32x32x32.ShapeCasts S1024x1024
  bcast_S32_S32x32_0 : S32.BroadcastsInDim S32x32 (![0] : Fin 1 → Fin S32x32.rank)
  shapeCasts_S32x32_S1024 : S32x32.ShapeCasts S1024
  dot_S1024x64_S64x128_S1024x128_1_0_0_1_n_n_wf : DotDims.WF S1024x64 S64x128 S1024x128 [1] [0] [0] [1] [] []
  dot_S2048x1024_S1024x128_S2048x128_1_0_0_1_n_n_wf : DotDims.WF S2048x1024 S1024x128 S2048x128 [1] [0] [0] [1] [] []
  dot_S256x32_S256x64_S32x64_0_0_1_1_n_n_wf : DotDims.WF S256x32 S256x64 S32x64 [0] [0] [1] [1] [] []
  dot_S256x256_S256x32_S256x32_1_0_0_1_n_n_wf : DotDims.WF S256x256 S256x32 S256x32 [1] [0] [0] [1] [] []
  dot_S256x32_S256x32_S32x32_0_0_1_1_n_n_wf : DotDims.WF S256x32 S256x32 S32x32 [0] [0] [1] [1] [] []
  scatter_S32x32x32x32_S32x2_S32x32x32_12_02_02_1_wf : ScatterDims.WF S32x32x32x32 S32x2 S32x32x32 [1, 2] [0, 2] [0, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S8192x32.size a
  hwx1_0 : ∀ i : grid1.Coords, EltTy.bits .f32 = 32 ∨ (Rect.block (s := S8192x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S1024x64.size a
  hwx1_3 : ∀ i : grid1.Coords, EltTy.bits .f32 = 32 ∨ (Rect.block (s := S1024x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x32x32.size a ≤ S32x32x32.size a
  hwx1_4 : ∀ i : grid1.Coords, EltTy.bits .f32 = 32 ∨ (Rect.block (s := S32x32x32) S4x32x32.size (cc1_transform_4 i) (hinb1_4 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S256x32_S256x64_S32x64_0_0_1_1_n_n : DotDims S256x32 S256x64 S32x64 where
  lhsContracting := [0]
  rhsContracting := [0]
  lhsNonContracting := [1]
  rhsNonContracting := [1]
  lhsBatch := []
  rhsBatch := []
  wf := dot_S256x32_S256x64_S32x64_0_0_1_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S256x32_S256x32_S32x32_0_0_1_1_n_n : DotDims S256x32 S256x32 S32x32 where
  lhsContracting := [0]
  rhsContracting := [0]
  lhsNonContracting := [1]
  rhsNonContracting := [1]
  lhsBatch := []
  rhsBatch := []
  wf := dot_S256x32_S256x32_S32x32_0_0_1_1_n_n_wf
def scatter_S32x32x32x32_S32x2_S32x32x32_12_02_02_1 : ScatterDims S32x32x32x32 S32x2 S32x32x32 where
  updateWindowDims := [1, 2]
  insertedWindowDims := [0, 2]
  scatterDimsToOperandDims := [0, 2]
  indexVectorDim := 1
  wf := scatter_S32x32x32x32_S32x2_S32x32x32_12_02_02_1_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S128x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S4x32x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S64x32 : Shape := ⟨2, ![64, 32]⟩
abbrev S64x64 : Shape := ⟨2, ![64, 64]⟩
abbrev S8192 : Shape := ⟨1, ![8192]⟩
abbrev S8192x32 : Shape := ⟨2, ![8192, 32]⟩
abbrev S_ : Shape := ⟨0, ![]⟩
abbrev S8192x1 : Shape := ⟨2, ![8192, 1]⟩
abbrev S32x256x32 : Shape := ⟨3, ![32, 256, 32]⟩
abbrev S32x256x64 : Shape := ⟨3, ![32, 256, 64]⟩
abbrev S32 : Shape := ⟨1, ![32]⟩
abbrev S32x256x32x256 : Shape := ⟨4, ![32, 256, 32, 256]⟩
abbrev S32x1 : Shape := ⟨2, ![32, 1]⟩
abbrev S32x2 : Shape := ⟨2, ![32, 2]⟩
abbrev S32x256x256 : Shape := ⟨3, ![32, 256, 256]⟩
abbrev S32x32x64 : Shape := ⟨3, ![32, 32, 64]⟩
abbrev S1024x64 : Shape := ⟨2, ![1024, 64]⟩
abbrev S32x32x32 : Shape := ⟨3, ![32, 32, 32]⟩
abbrev S32x32x32x32 : Shape := ⟨4, ![32, 32, 32, 32]⟩
abbrev S1024x1024 : Shape := ⟨2, ![1024, 1024]⟩
abbrev S32x32 : Shape := ⟨2, ![32, 32]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x32, .f32⟩
  | .hbm, ⟨3, _⟩ => ⟨S64x64, .f32⟩
  | .hbm, ⟨4, _⟩ => ⟨S8192, .i32⟩
  | .hbm, ⟨5, _⟩ => ⟨S8192x32, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x32, .f32⟩
  | .hbm, ⟨28, _⟩ => ⟨S8192x32, .f32⟩
  | .hbm, ⟨29, _⟩ => ⟨S32x256x32, .f32⟩
  | .hbm, ⟨30, _⟩ => ⟨S32x256x64, .f32⟩
  | .hbm, ⟨31, _⟩ => ⟨S32, .i32⟩
  | .hbm, ⟨32, _⟩ => ⟨S32x256x32x256, .f32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S32x1, .i32⟩
  | .hbm, ⟨48, _⟩ => ⟨S32x1, .i32⟩
  | .hbm, ⟨49, _⟩ => ⟨S32x2, .i32⟩
  | .hbm, ⟨50, _⟩ => ⟨S32x256x256, .f32⟩
  | .hbm, ⟨51, _⟩ => ⟨S32x32x64, .f32⟩
  | .hbm, ⟨52, _⟩ => ⟨S1024x64, .f32⟩
  | .hbm, ⟨53, _⟩ => ⟨S32x256x32, .f32⟩
  | .hbm, ⟨54, _⟩ => ⟨S32x32x32, .f32⟩
  | .hbm, ⟨55, _⟩ => ⟨S_, .f32⟩
  | .hbm, ⟨56, _⟩ => ⟨S32x32x32x32, .f32⟩
  | .hbm, ⟨57, _⟩ => ⟨S_, .i32⟩
  | .hbm, ⟨58, _⟩ => ⟨S32, .i32⟩
  | .hbm, ⟨59, _⟩ => ⟨S32, .i1⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S32, .i32⟩
  | .hbm, ⟨64, _⟩ => ⟨S_, .i32⟩
  | .hbm, ⟨65, _⟩ => ⟨S32, .i32⟩
  | .hbm, ⟨66, _⟩ => ⟨S32, .i1⟩
  | .hbm, ⟨67, _⟩ => ⟨S_, .i32⟩
  | .hbm, ⟨68, _⟩ => ⟨S32, .i32⟩
  | .hbm, ⟨69, _⟩ => ⟨S32, .i32⟩
  | .hbm, ⟨70, _⟩ => ⟨S32, .i32⟩
  | .hbm, ⟨71, _⟩ => ⟨S32x1, .i32⟩
  | .hbm, ⟨72, _⟩ => ⟨S32x1, .i32⟩
  | .hbm, ⟨73, _⟩ => ⟨S32x2, .i32⟩
  | .hbm, ⟨74, _⟩ => ⟨S32x32x32x32, .f32⟩
  | .hbm, ⟨75, _⟩ => ⟨S1024x1024, .f32⟩
  | .hbm, ⟨76, _⟩ => ⟨S32, .i32⟩
  | .hbm, ⟨77, _⟩ => ⟨S32x32, .i32⟩
  | .hbm, ⟨78, _⟩ => ⟨S1024, .i32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S_S8192x64 : S_.BroadcastsInDim S8192x64 (![] : Fin 0 → Fin S8192x64.rank)
  reducesTo_S8192x32_S8192_d1 : S8192x32.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  shapeCasts_S8192x32_S32x256x32 : S8192x32.ShapeCasts S32x256x32
  shapeCasts_S8192x64_S32x256x64 : S8192x64.ShapeCasts S32x256x64
  shapeCasts_S8192x8192_S32x256x32x256 : S8192x8192.ShapeCasts S32x256x32x256
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S32x32x64_S1024x64 : S32x32x64.ShapeCasts S1024x64
  bcast_S_S32x32x32x32 : S_.BroadcastsInDim S32x32x32x32 (![] : Fin 0 → Fin S32x32x32x32.rank)
  shapeCasts_S32x32x32x32_S1024x1024 : S32x32x32x32.ShapeCasts S1024x1024
  bcast_S32_S32x32_0 : S32.BroadcastsInDim S32x32 (![0] : Fin 1 → Fin S32x32.rank)
  shapeCasts_S32x32_S1024 : S32x32.ShapeCasts S1024
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  gather_S32x256x32x256_S32x2_S32x256x256_12_02_n_n_02_1_12561256_wf : GatherDims.WF S32x256x32x256 S32x2 S32x256x256 [1, 2] [0, 2] [] [0, 2] [] 1 ![1, 256, 1, 256]
  dot_S32x256x32_S32x256x64_S32x32x64_1_1_2_2_0_0_wf : DotDims.WF S32x256x32 S32x256x64 S32x32x64 [1] [1] [2] [2] [0] [0]
  dot_S32x256x256_S32x256x32_S32x256x32_1_1_2_2_0_0_wf : DotDims.WF S32x256x256 S32x256x32 S32x256x32 [1] [1] [2] [2] [0] [0]
  dot_S32x256x32_S32x256x32_S32x32x32_1_1_2_2_0_0_wf : DotDims.WF S32x256x32 S32x256x32 S32x32x32 [1] [1] [2] [2] [0] [0]
  scatter_S32x32x32x32_S32x2_S32x32x32_12_02_02_1_wf : ScatterDims.WF S32x32x32x32 S32x2 S32x32x32 [1, 2] [0, 2] [0, 2] 1

variable [Facts₀]

def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S32x256x32x256_S32x2_S32x256x256_12_02_n_n_02_1_12561256 : GatherDims S32x256x32x256 S32x2 S32x256x256 where
  offsetDims := [1, 2]
  collapsedSliceDims := [0, 2]
  operandBatchingDims := []
  startIndicesBatchingDims := []
  startIndexMap := [0, 2]
  indexVectorDim := 1
  sliceSizes := ![1, 256, 1, 256]
  wf := gather_S32x256x32x256_S32x2_S32x256x256_12_02_n_n_02_1_12561256_wf
def dot_S32x256x32_S32x256x64_S32x32x64_1_1_2_2_0_0 : DotDims S32x256x32 S32x256x64 S32x32x64 where
  lhsContracting := [1]
  rhsContracting := [1]
  lhsNonContracting := [2]
  rhsNonContracting := [2]
  lhsBatch := [0]
  rhsBatch := [0]
  wf := dot_S32x256x32_S32x256x64_S32x32x64_1_1_2_2_0_0_wf
def dot_S32x256x256_S32x256x32_S32x256x32_1_1_2_2_0_0 : DotDims S32x256x256 S32x256x32 S32x256x32 where
  lhsContracting := [1]
  rhsContracting := [1]
  lhsNonContracting := [2]
  rhsNonContracting := [2]
  lhsBatch := [0]
  rhsBatch := [0]
  wf := dot_S32x256x256_S32x256x32_S32x256x32_1_1_2_2_0_0_wf
def dot_S32x256x32_S32x256x32_S32x32x32_1_1_2_2_0_0 : DotDims S32x256x32 S32x256x32 S32x32x32 where
  lhsContracting := [1]
  rhsContracting := [1]
  lhsNonContracting := [2]
  rhsNonContracting := [2]
  lhsBatch := [0]
  rhsBatch := [0]
  wf := dot_S32x256x32_S32x256x32_S32x32x32_1_1_2_2_0_0_wf
def scatter_S32x32x32x32_S32x2_S32x32x32_12_02_02_1 : ScatterDims S32x32x32x32 S32x2 S32x32x32 where
  updateWindowDims := [1, 2]
  insertedWindowDims := [0, 2]
  scatterDimsToOperandDims := [0, 2]
  indexVectorDim := 1
  wf := scatter_S32x32x32x32_S32x2_S32x32x32_12_02_02_1_wf

class Facts : Prop extends Facts₀ where

variable [Facts]
-- ==== Proof.KB.R0Shared.lean ====
/-
  Region 0 (the tiled graph-convolution matmul with its softmax epilogue), the part every case of its body shares.

  The grid is 4 row tiles × 8 column tiles; point `t` is row tile `t / 8`, column tile `t % 8`. The body clears its
  2048 × 128 accumulator (a scratch buffer it keeps between points) at column tile 0, adds one tile product at every
  point, and at column tile 7 turns the accumulator into the output block. So there are three kinds of point: the
  first column tile, a middle one, the last one. Stated here: a window's block of its array at a point; that an input
  window's staging buffer holds that block when the body runs; the two branch conditions in closed form; where the
  output window is idle and where it is written back; and the region's resting invariant with the accumulator split
  off from the other scoped buffers.
-/
import proofs.«124585_j89764816486779_2_alg».proof.Proof.Gen.Kernel.Launch
import proofs.«124585_j89764816486779_2_alg».proof.Proof.Gen.Kernel.Skeleton
import proofs.«124585_j89764816486779_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the unscoped buffers hold when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (where it is not
    fetched its index has not moved), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions -/

/-- "This is the first column tile", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile the output window is live. -/
theorem liveAt0_3 : ∀ t : Fin cfg0.N, cond0_1 (grid0.coords t) → cfg0.idle 3 (grid0.coords t) = false := by decide +kernel

/-! ## The memrefs the body is called with -/

abbrev VO0_3 : View sig .tc .vmem S2048x128 .f32 := (Memref.whole cc0_stg3_0 : Memref sig .tc .vmem S2048x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x128 .f32 := Memref.whole cc0_scratch0
abbrev VS0_0 : View sig .tc .vmem S2048x128 .f32 := scM0_0.view

/-- The scoped buffers region 0 neither stages nor uses (the other region's staging buffers), each whole at something. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's resting invariant with the accumulator split off: the accumulator at something, the other scoped
    buffers at something, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Fr

end
-- ==== Proof.KB.R0RunA.lean ====
/-
  Region 0's body run from start to return at a point of the FIRST column tile (the accumulator is cleared, one tile product added; nothing stored into the output): from the staging buffers of the three inputs at
  given contents, the output's buffer and the accumulator as the case finds them, to the same inputs and the list of
  stores each written buffer ends with. That list is a witness determined by the body's text; nothing the body computes is
  restated here.
-/
import proofs.«124585_j89764816486779_2_alg».proof.Proof.KB.R0Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x1024 .f32) (x1 : Vec F S1024x64 .f32) (x2 : Vec F S64x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.R0RunB.lean ====
/-
  Region 0's body run from start to return at a point of a MIDDLE column tile (one tile product added to the accumulator the point before left; nothing stored into the output): from the staging buffers of the three inputs at
  given contents, the output's buffer and the accumulator as the case finds them, to the same inputs and the list of
  stores each written buffer ends with. That list is a witness determined by the body's text; nothing the body computes is
  restated here.
-/
import proofs.«124585_j89764816486779_2_alg».proof.Proof.KB.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x1024 .f32) (x1 : Vec F S1024x64 .f32) (x2 : Vec F S64x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.R0RunC.lean ====
/-
  Region 0's body run from start to return at a point of the LAST column tile (the last tile product added, then the accumulator's clamp, row softmax and zero padding stored into the output block): from the staging buffers of the three inputs at
  given contents, the output's buffer and the accumulator as the case finds them, to the same inputs and the list of
  stores each written buffer ends with. That list is a witness determined by the body's text; nothing the body computes is
  restated here.
-/
import proofs.«124585_j89764816486779_2_alg».proof.Proof.KB.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x1024 .f32) (x1 : Vec F S1024x64 .f32) (x2 : Vec F S64x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KB.R0.lean ====
/-
  Region 0, put together: what each kind of point leaves in the accumulator and in the output block; the accumulation
  over the points (the accumulator after point `t` is what the point's kind makes of the point's input blocks and, past
  a row tile's first column tile, of what the point before left); the invariant between points (the accumulator at
  that value, the scoped buffers the region does not use at anything, the generator register at some state); the
  pipeline's proof data; and the body obligation at every point, by cases on the point's kind.
-/
import proofs.«124585_j89764816486779_2_alg».proof.Proof.KB.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

theorem scover0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x1024 .f32) (x1 : Vec F S1024x64 .f32) (x2 : Vec F S64x128 .f32) (y : S2048x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S2048x128.size (by sl_kernel_rfl) y
theorem scover0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x1024 .f32) (x1 : Vec F S1024x64 .f32) (x2 : Vec F S64x128 .f32) (xs0 : Vec F S2048x128 .f32) (y : S2048x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S2048x128.size (by sl_kernel_rfl) y
theorem scover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x128.size (by sl_kernel_rfl) y
theorem cover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x128.size (by sl_kernel_rfl) y

/-- The accumulator after a first-column-tile point, a middle point, a last-column-tile point: the case's stores read back. -/
def sout0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x1024 .f32) (x1 : Vec F S1024x64 .f32) (x2 : Vec F S64x128 .f32) : Vec F S2048x128 .f32 :=
  VS0_0.read (Elt F) (VS0_0.writes (Elt F) VS0_0.junk (kernelRun0_A c i arg2 harg2 arg3 harg3 arg4 harg4 arg5 harg5 arg6 harg6 hc0 hc1 x0 x1 x2).2.1)
def sout0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x1024 .f32) (x1 : Vec F S1024x64 .f32) (x2 : Vec F S64x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).2.1)
def sout0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)
/-- The output block after a last-column-tile point. -/
def out0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) : Vec F S2048x128 .f32 :=
  VO0_3.read (Elt F) (VO0_3.writes (Elt F) VO0_3.junk (kernelRun0_C c i arg2 harg2 arg3 harg3 arg4 harg4 arg5 harg5 arg6 harg6 hc0 hc1 x0 x1 x2 xs0).1)
/-- At the other points nothing is stored into the output block; a placeholder that nothing consults (there the block
    is neither written back nor read at the next point). -/
def out0_idle : Vec F S2048x128 .f32 := VO0_3.read (Elt F) VO0_3.junk

section
variable (V : (c : Dev nD) → (b : Ref sig .tc) → Buf (Elt F) ((c : Thread nD τ).loc b))

/-! ## The accumulation over the points -/

/-- What the output block and the accumulator hold after the body at position `n`. -/
def outsAt0 (c : Dev nD) : (n : ℕ) → n < cfg0.N → Vec F S2048x128 .f32 × Vec F S2048x128 .f32
  | 0, hn => (out0_idle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_idle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_idle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_idle, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_idle, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's resting invariant; afterwards the accumulator at what the point before left,
    the scoped buffers the region does not use at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the point's kind is decided from its position; the
    invariant hands the body the accumulator (at anything at the very first point, else at what the point before left)
    and takes it back at this point's value; away from the last column tile the output buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives the resting one back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]
    · iexists _; iexact HS0
    iexact Hoth
  iexact Hg

end

end Cert.Kernel.Fr

end
-- ==== Proof.KB.R1.lean ====
/-
  Region 1 (the per-graph coarsening), whole: at each of its 8 grid points the body handles four graphs, for each of
  them loading the graph's 256 rows of the two node matrices and its own 256 × 256 diagonal block of the propagation
  matrix, and storing a 32 × 64 block of coarse features and a 32 × 32 block of coarse adjacency. Every window is
  fetched or written back at every point and nothing is kept between points.

  Stated here, at the contents `V` the region is entered from: a window's block of its array at a point; that an input
  window's staging buffer holds that block when the body runs; the body run from start to return, with the list of
  stores each output buffer ends with (a witness determined by the body's text); that those stores tile each output block; the proof data
  of the pipeline; and the body obligation at every point.
-/
import proofs.«124585_j89764816486779_2_alg».proof.Proof.Gen.Kernel.Launch
import proofs.«124585_j89764816486779_2_alg».proof.Proof.Gen.Kernel.Skeleton
import proofs.«124585_j89764816486779_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run -/

set_option maxHeartbeats 4000000 in
/-- From the three inputs' staging buffers at given contents and the two outputs' at anything, the body runs to its
    return holding the inputs' as they were and each output's with a list of stores written (the lists are witnesses determined
    by the body's text). -/
noncomputable def kernelRun1 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole)
    (x0 : Vec F S1024x32 .f32) (x1 : Vec F S1024x64 .f32) (x2 : Vec F S1024x1024 .f32) :
    Σ' (L3 : List (View.Piece (Elt F) S128x64 .f32)), { L4 : List (View.Piece (Elt F) S4x32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__coarsen_kernel i arg1 harg1 arg2 harg2 arg3 harg3 arg4 harg4 arg5 harg5) K } := by
  refine ⟨?_, ?_, fun E K => ?run⟩
  case run =>
    simp only [cc1__coarsen_kernel_eq_skeleton]; unfold cc1__coarsen_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The stores into the coarse-feature block tile it (four 32 × 64 row slabs of the 128 × 64 block), -/
theorem cover1_3 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) (y : S128x64.Idx) :
    ∃ pc ∈ (kernelRun1 c i arg1 harg1 arg2 harg2 arg3 harg3 arg4 harg4 arg5 harg5 x0 x1 x2).1, y ∈ pc.1.set :=
  View.cover_of_tiledL (kernelRun1 c i arg1 harg1 arg2 harg2 arg3 harg3 arg4 harg4 arg5 harg5 x0 x1 x2).1 S32x64.size (by sl_kernel_rfl) y
/-- and the stores into the coarse-adjacency block tile it (four 1 × 32 × 32 slabs of the 4 × 32 × 32 block). -/
theorem cover1_4 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) (y : S4x32x32.Idx) :
    ∃ pc ∈ (kernelRun1 c i arg1 harg1 arg2 harg2 arg3 harg3 arg4 harg4 arg5 harg5 x0 x1 x2).2.1, y ∈ pc.1.set :=
  View.cover_of_tiledL (kernelRun1 c i arg1 harg1 arg2 harg2 arg3 harg3 arg4 harg4 arg5 harg5 x0 x1 x2).2.1 S1x32x32.size (by sl_kernel_rfl) y

abbrev VO1_3 : View sig .tc .vmem S128x64 .f32 := (Memref.whole cc1_stg3_0 : Memref sig .tc .vmem S128x64 .f32).view
abbrev VO1_4 : View sig .tc .vmem S4x32x32 .f32 := (Memref.whole cc1_stg4_0 : Memref sig .tc .vmem S4x32x32 .f32).view

/-- What the body leaves in each output's staging buffer: its stores read back. -/
def out1_3 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) : Vec F S128x64 .f32 :=
  VO1_3.read (Elt F) (VO1_3.writes (Elt F) VO1_3.junk (kernelRun1 c i arg1 harg1 arg2 harg2 arg3 harg3 arg4 harg4 arg5 harg5 x0 x1 x2).1)
def out1_4 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) : Vec F S4x32x32 .f32 :=
  VO1_4.read (Elt F) (VO1_4.writes (Elt F) VO1_4.junk (kernelRun1 c i arg1 harg1 arg2 harg2 arg3 harg3 arg4 harg4 arg5 harg5 x0 x1 x2).2.1)

section
-- what the unscoped buffers hold when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x32x32 .f32 := win1_4.stage (cfg1.slots t 4)
abbrev hs1_4 (t : Fin cfg1.N) : (ms1_4 t).IsWhole := hstage1_4 ((cfg1.slots t 4).cast nbuf1_4)

/-- What point `t` leaves in each output's staging buffer, from the point's input blocks. -/
def outAt1_3 (c : Dev nD) (t : Fin cfg1.N) : Vec F S128x64 .f32 :=
  out1_3 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)
def outAt1_4 (c : Dev nD) (t : Fin cfg1.N) : Vec F S4x32x32 .f32 :=
  out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)

/-- The proof data of pipeline 1 on core `c`: the arrays as the region finds them; after the body at point `t` each
    input's buffer at its block and each output's at what the point's stores leave; the resting invariant (the scoped
    buffers the pipeline does not stage and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1_3 V c t
    | ⟨4, _⟩ => outAt1_4 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1_3 V c t := by dsimp only [dat1]
theorem after1_4 (c : Dev nD) (t : Fin cfg1.N) : (dat1 V c).after 4 t = outAt1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks, so the run applies; the invariant and the core's dues
    pass through unread; each output's buffer ends at its stores read back, because they tile it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1_3 outAt1_4 out1_3 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_3 c _ _ _ _ _ _ _ _ _ _ _ _ _ _)
  unfold owns; iexists _; isplitr
  swap; · iexact H4
  ipureintro; exact View.read_writes_of_cover _ _ _ _ _ (cover1_4 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.KB.Run.lean ====
/-
  The whole program's run. @main is five stretches in order: the host lines that build the concatenated weight
  matrix, region 0, the two host slices that cut the two heads out of region 0's result, region 1, and the host lines
  that scatter the per-graph blocks onto the block diagonal and build the coarse node indicator.

  The contents of the unscoped buffers are followed through the five stretches as a fold from the launch memory: a
  host stretch applies its operations; a region leaves its input arrays as entered and each output array at what its
  written-back blocks make of it. Each region is entered from the thread state "every unscoped buffer at the current
  contents, the generator register at some state, nothing owed" and left at the same with the contents advanced.
  The run: every weakly fair execution terminates, and at the end EVERY unscoped buffer holds the fold's last value —
  the arguments (which nothing writes) and the results alike.
-/
import proofs.«124585_j89764816486779_2_alg».proof.Proof.KB.R0
import proofs.«124585_j89764816486779_2_alg».proof.Proof.KB.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)

abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)

abbrev Wt5 : Dev nD → Valuation τ sig (Elt F) := fun c => StableHlo.after hostOps2 (Wt4 m ρ c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (Vt1 m ρ) c
  | ⟨1, _⟩ => fun c => dat1 (Vt3 m ρ) c
abbrev 𝒱₀' : Variants := Variants.none
abbrev L' : GSem nD τ sig → Finset Unit := fun _ => ∅
abbrev lv' : GSem nD τ sig → Unit → ℕ := fun _ _ => 0
/-- What rides beside the buffers through every stretch: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wt5 m ρ c) ∗ ∃ r, prngReg c r)

/-! ## The regions as segments -/

set_option backward.isDefEq.respectTransparency.types false in
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L' lv' 0 fun _ _ => rfl
  pre c := iprop(StableHlo.held (c : Thread nD τ) (Pipeline.ucRefs τ sig) (Wt1 m ρ c) ∗ Rr c)
  post c := iprop(StableHlo.held (c : Thread nD τ) (Pipeline.ucRefs τ sig) (Wt2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (Vt1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L' lv' 1 fun _ _ => rfl
  pre c := iprop(StableHlo.held (c : Thread nD τ) (Pipeline.ucRefs τ sig) (Wt3 m ρ c) ∗ Rr c)
  post c := iprop(StableHlo.held (c : Thread nD τ) (Pipeline.ucRefs τ sig) (Wt4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀' L' lv') :=
  [ .host (hseg hostOps0 hostOps0_sub hostOps0_fresh' (Wt0 m ρ)),
    .region (reg0 m ρ),
    .host (hseg hostOps1 hostOps1_sub hostOps1_fresh' (Wt2 m ρ)),
    .region (reg1 m ρ),
    .host (hseg hostOps2 hostOps2_sub hostOps2_fresh' (Wt4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the fold's last value. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wt5 m ρ c (Proc.devRef .tc b)) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rr c)) (Tₙ := Tn m ρ)
    (hch := ⟨fun _ => .rfl, fun _ => .rfl, fun _ => .rfl, fun _ => .rfl, fun _ => .rfl, fun c => by
      show iprop(StableHlo.held (c : Thread nD τ) (Pipeline.ucRefs τ sig) (Wt5 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt5 m ρ c) s')
      isplitl [Hh] <;> iassumption)
    (hQ := fun s h c b hb => h c _ (mem_uc b hb))

end Cert.Kernel.Fr

end
-- ==== Proof.KB.Kept.lean ====
/-
  Nothing writes an argument: followed back through the five stretches of @main, each argument's buffer at the end holds
  its launch contents. With the run this is the frame claim.
-/
import proofs.«124585_j89764816486779_2_alg».proof.Proof.KB.Run
import proofs.«124585_j89764816486779_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A host stretch leaves a buffer it does not write as it was. -/
theorem keep0 (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

variable (m : (ℓ : Loc nD τ sig) → Buf (Elt F) ℓ) (ρ : Dev nD → PrngReg)

/-- Argument 0 reaches the end as launched: no host line writes it and a region only reads it (or does not touch it). -/
theorem kept_arg0 (c : Dev nD) : Wt5 m ρ c (Proc.devRef .tc main_arg0) = m ((c : Thread nD τ).loc main_arg0) :=
  calc Wt5 m ρ c (Proc.devRef .tc main_arg0)
    _ = Wt4 m ρ c (Proc.devRef .tc main_arg0) := keep2 _ main_arg0 (by decide)
    _ = Wt3 m ρ c (Proc.devRef .tc main_arg0) := (Wt4_arr m ρ c 2).trans (((dat1 (Vt3 m ρ) c).arrAt_in 2 rfl _).trans (A_eq1 (Vt3 m ρ) c 2))
    _ = Wt2 m ρ c (Proc.devRef .tc main_arg0) := keep1 _ main_arg0 (by decide)
    _ = Wt1 m ρ c (Proc.devRef .tc main_arg0) := (Wt2_arr m ρ c 0).trans (((dat0 (Vt1 m ρ) c).arrAt_in 0 rfl _).trans (A_eq0 (Vt1 m ρ) c 0))
    _ = Wt0 m ρ c (Proc.devRef .tc main_arg0) := keep0 _ main_arg0 (by decide)
    _ = m ((c : Thread nD τ).loc main_arg0) := rfl

/-- Argument 1 reaches the end as launched: no host line writes it and a region only reads it (or does not touch it). -/
theorem kept_arg1 (c : Dev nD) : Wt5 m ρ c (Proc.devRef .tc main_arg1) = m ((c : Thread nD τ).loc main_arg1) :=
  calc Wt5 m ρ c (Proc.devRef .tc main_arg1)
    _ = Wt4 m ρ c (Proc.devRef .tc main_arg1) := keep2 _ main_arg1 (by decide)
    _ = Wt3 m ρ c (Proc.devRef .tc main_arg1) := Wt4_of_ne m ρ c main_arg1 (by decide)
    _ = Wt2 m ρ c (Proc.devRef .tc main_arg1) := keep1 _ main_arg1 (by decide)
    _ = Wt1 m ρ c (Proc.devRef .tc main_arg1) := (Wt2_arr m ρ c 1).trans (((dat0 (Vt1 m ρ) c).arrAt_in 1 rfl _).trans (A_eq0 (Vt1 m ρ) c 1))
    _ = Wt0 m ρ c (Proc.devRef .tc main_arg1) := keep0 _ main_arg1 (by decide)
    _ = m ((c : Thread nD τ).loc main_arg1) := rfl

/-- Argument 2 reaches the end as launched: no host line writes it and a region only reads it (or does not touch it). -/
theorem kept_arg2 (c : Dev nD) : Wt5 m ρ c (Proc.devRef .tc main_arg2) = m ((c : Thread nD τ).loc main_arg2) :=
  calc Wt5 m ρ c (Proc.devRef .tc main_arg2)
    _ = Wt4 m ρ c (Proc.devRef .tc main_arg2) := keep2 _ main_arg2 (by decide)
    _ = Wt3 m ρ c (Proc.devRef .tc main_arg2) := Wt4_of_ne m ρ c main_arg2 (by decide)
    _ = Wt2 m ρ c (Proc.devRef .tc main_arg2) := keep1 _ main_arg2 (by decide)
    _ = Wt1 m ρ c (Proc.devRef .tc main_arg2) := Wt2_of_ne m ρ c main_arg2 (by decide)
    _ = Wt0 m ρ c (Proc.devRef .tc main_arg2) := keep0 _ main_arg2 (by decide)
    _ = m ((c : Thread nD τ).loc main_arg2) := rfl

/-- Argument 3 reaches the end as launched: no host line writes it and a region only reads it (or does not touch it). -/
theorem kept_arg3 (c : Dev nD) : Wt5 m ρ c (Proc.devRef .tc main_arg3) = m ((c : Thread nD τ).loc main_arg3) :=
  calc Wt5 m ρ c (Proc.devRef .tc main_arg3)
    _ = Wt4 m ρ c (Proc.devRef .tc main_arg3) := keep2 _ main_arg3 (by decide)
    _ = Wt3 m ρ c (Proc.devRef .tc main_arg3) := Wt4_of_ne m ρ c main_arg3 (by decide)
    _ = Wt2 m ρ c (Proc.devRef .tc main_arg3) := keep1 _ main_arg3 (by decide)
    _ = Wt1 m ρ c (Proc.devRef .tc main_arg3) := Wt2_of_ne m ρ c main_arg3 (by decide)
    _ = Wt0 m ρ c (Proc.devRef .tc main_arg3) := keep0 _ main_arg3 (by decide)
    _ = m ((c : Thread nD τ).loc main_arg3) := rfl

/-- Argument 4 reaches the end as launched: no host line writes it and a region only reads it (or does not touch it). -/
theorem kept_arg4 (c : Dev nD) : Wt5 m ρ c (Proc.devRef .tc main_arg4) = m ((c : Thread nD τ).loc main_arg4) :=
  calc Wt5 m ρ c (Proc.devRef .tc main_arg4)
    _ = Wt4 m ρ c (Proc.devRef .tc main_arg4) := keep2 _ main_arg4 (by decide)
    _ = Wt3 m ρ c (Proc.devRef .tc main_arg4) := Wt4_of_ne m ρ c main_arg4 (by decide)
    _ = Wt2 m ρ c (Proc.devRef .tc main_arg4) := keep1 _ main_arg4 (by decide)
    _ = Wt1 m ρ c (Proc.devRef .tc main_arg4) := Wt2_of_ne m ρ c main_arg4 (by decide)
    _ = Wt0 m ρ c (Proc.devRef .tc main_arg4) := keep0 _ main_arg4 (by decide)
    _ = m ((c : Thread nD τ).loc main_arg4) := rfl

/-- THE FRAME: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 (by decide)).trans (kept_arg0 m ρ c), (h c main_arg1 (by decide)).trans (kept_arg1 m ρ c),
     (h c main_arg2 (by decide)).trans (kept_arg2 m ρ c), (h c main_arg3 (by decide)).trans (kept_arg3 m ρ c),
     (h c main_arg4 (by decide)).trans (kept_arg4 m ρ c)⟩) (run m ρ)

end Cert.Kernel.Fr

end
-- ==== Proof.KI.R0Shared.lean ====
/-
  Region 0 (the tiled graph-convolution matmul with its softmax epilogue), the part every case of its body shares.

  The grid is 4 row tiles × 8 column tiles; point `t` is row tile `t / 8`, column tile `t % 8`. The body clears its
  2048 × 128 accumulator (a scratch buffer it keeps between points) at column tile 0, adds one tile product at every
  point, and at column tile 7 turns the accumulator into the output block. So there are three kinds of point: the
  first column tile, a middle one, the last one. Stated here: a window's block of its array at a point; that an input
  window's staging buffer holds that block when the body runs; the two branch conditions in closed form; where the
  output window is idle and where it is written back; and the region's resting invariant with the accumulator split
  off from the other scoped buffers.
-/
import proofs.«124585_j89764816486779_2_alg».proof.Proof.Gen.KernelIdeal.Launch
import proofs.«124585_j89764816486779_2_alg».proof.Proof.Gen.KernelIdeal.Skeleton
import proofs.«124585_j89764816486779_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the unscoped buffers hold when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not (where it is not
    fetched its index has not moved), for any proof data whose array is the entry contents and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions -/

/-- "This is the first column tile", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column tile". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column tile the body stores nothing into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column tile the output window is live. -/
theorem liveAt0_3 : ∀ t : Fin cfg0.N, cond0_1 (grid0.coords t) → cfg0.idle 3 (grid0.coords t) = false := by decide +kernel

/-! ## The memrefs the body is called with -/

abbrev VO0_3 : View sig .tc .vmem S2048x128 .f32 := (Memref.whole cc0_stg3_0 : Memref sig .tc .vmem S2048x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x128 .f32 := Memref.whole cc0_scratch0
abbrev VS0_0 : View sig .tc .vmem S2048x128 .f32 := scM0_0.view

/-- The scoped buffers region 0 neither stages nor uses (the other region's staging buffers), each whole at something. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's resting invariant with the accumulator split off: the accumulator at something, the other scoped
    buffers at something, the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Fr

end
-- ==== Proof.KI.R0RunA.lean ====
/-
  Region 0's body run from start to return at a point of the FIRST column tile (the accumulator is cleared, one tile product added; nothing stored into the output): from the staging buffers of the three inputs at
  given contents, the output's buffer and the accumulator as the case finds them, to the same inputs and the list of
  stores each written buffer ends with. That list is a witness determined by the body's text; nothing the body computes is
  restated here.
-/
import proofs.«124585_j89764816486779_2_alg».proof.Proof.KI.R0Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x1024 .f32) (x1 : Vec F S1024x64 .f32) (x2 : Vec F S64x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunB.lean ====
/-
  Region 0's body run from start to return at a point of a MIDDLE column tile (one tile product added to the accumulator the point before left; nothing stored into the output): from the staging buffers of the three inputs at
  given contents, the output's buffer and the accumulator as the case finds them, to the same inputs and the list of
  stores each written buffer ends with. That list is a witness determined by the body's text; nothing the body computes is
  restated here.
-/
import proofs.«124585_j89764816486779_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x1024 .f32) (x1 : Vec F S1024x64 .f32) (x2 : Vec F S64x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨[], ?_, fun xi3 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R0RunC.lean ====
/-
  Region 0's body run from start to return at a point of the LAST column tile (the last tile product added, then the accumulator's clamp, row softmax and zero padding stored into the output block): from the staging buffers of the three inputs at
  given contents, the output's buffer and the accumulator as the case finds them, to the same inputs and the list of
  stores each written buffer ends with. That list is a witness determined by the body's text; nothing the body computes is
  restated here.
-/
import proofs.«124585_j89764816486779_2_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x1024 .f32) (x1 : Vec F S1024x64 .f32) (x2 : Vec F S64x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.R0.lean ====
/-
  Region 0, put together: what each kind of point leaves in the accumulator and in the output block; the accumulation
  over the points (the accumulator after point `t` is what the point's kind makes of the point's input blocks and, past
  a row tile's first column tile, of what the point before left); the invariant between points (the accumulator at
  that value, the scoped buffers the region does not use at anything, the generator register at some state); the
  pipeline's proof data; and the body obligation at every point, by cases on the point's kind.
-/
import proofs.«124585_j89764816486779_2_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

theorem scover0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x1024 .f32) (x1 : Vec F S1024x64 .f32) (x2 : Vec F S64x128 .f32) (y : S2048x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S2048x128.size (by sl_kernel_rfl) y
theorem scover0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x1024 .f32) (x1 : Vec F S1024x64 .f32) (x2 : Vec F S64x128 .f32) (xs0 : Vec F S2048x128 .f32) (y : S2048x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S2048x128.size (by sl_kernel_rfl) y
theorem scover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x128.size (by sl_kernel_rfl) y
theorem cover0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) (y : S2048x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x128.size (by sl_kernel_rfl) y

/-- The accumulator after a first-column-tile point, a middle point, a last-column-tile point: the case's stores read back. -/
def sout0_A (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x1024 .f32) (x1 : Vec F S1024x64 .f32) (x2 : Vec F S64x128 .f32) : Vec F S2048x128 .f32 :=
  VS0_0.read (Elt F) (VS0_0.writes (Elt F) VS0_0.junk (kernelRun0_A c i arg2 harg2 arg3 harg3 arg4 harg4 arg5 harg5 arg6 harg6 hc0 hc1 x0 x1 x2).2.1)
def sout0_B (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x1024 .f32) (x1 : Vec F S1024x64 .f32) (x2 : Vec F S64x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 arg6 harg6 hc0 hc1 x0 x1 x2 xs0).2.1)
def sout0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 arg6 harg6 hc0 hc1 x0 x1 x2 xs0).2.1)
/-- The output block after a last-column-tile point. -/
def out0_C (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) : Vec F S2048x128 .f32 :=
  VO0_3.read (Elt F) (VO0_3.writes (Elt F) VO0_3.junk (kernelRun0_C c i arg2 harg2 arg3 harg3 arg4 harg4 arg5 harg5 arg6 harg6 hc0 hc1 x0 x1 x2 xs0).1)
/-- At the other points nothing is stored into the output block; a placeholder that nothing consults (there the block
    is neither written back nor read at the next point). -/
def out0_idle : Vec F S2048x128 .f32 := VO0_3.read (Elt F) VO0_3.junk

section
variable (V : (c : Dev nD) → (b : Ref sig .tc) → Buf (Elt F) ((c : Thread nD τ).loc b))

/-! ## The accumulation over the points -/

/-- What the output block and the accumulator hold after the body at position `n`. -/
def outsAt0 (c : Dev nD) : (n : ℕ) → n < cfg0.N → Vec F S2048x128 .f32 × Vec F S2048x128 .f32
  | 0, hn => (out0_idle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_idle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_idle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_idle, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_idle, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's resting invariant; afterwards the accumulator at what the point before left,
    the scoped buffers the region does not use at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' buffers hold their blocks; the point's kind is decided from its position; the
    invariant hands the body the accumulator (at anything at the very first point, else at what the point before left)
    and takes it back at this point's value; away from the last column tile the output buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives the resting one back: the accumulator's value is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hoth⟩, Hg⟩
  isplitl [HS0 Hoth]
  · isplitl [HS0]
    · iexists _; iexact HS0
    iexact Hoth
  iexact Hg

end

end Cert.KernelIdeal.Fr

end
-- ==== Proof.KI.R1.lean ====
/-
  Region 1 (the per-graph coarsening), whole: at each of its 8 grid points the body handles four graphs, for each of
  them loading the graph's 256 rows of the two node matrices and its own 256 × 256 diagonal block of the propagation
  matrix, and storing a 32 × 64 block of coarse features and a 32 × 32 block of coarse adjacency. Every window is
  fetched or written back at every point and nothing is kept between points.

  Stated here, at the contents `V` the region is entered from: a window's block of its array at a point; that an input
  window's staging buffer holds that block when the body runs; the body run from start to return, with the list of
  stores each output buffer ends with (a witness determined by the body's text); that those stores tile each output block; the proof data
  of the pipeline; and the body obligation at every point.
-/
import proofs.«124585_j89764816486779_2_alg».proof.Proof.Gen.KernelIdeal.Launch
import proofs.«124585_j89764816486779_2_alg».proof.Proof.Gen.KernelIdeal.Skeleton
import proofs.«124585_j89764816486779_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run -/

set_option maxHeartbeats 4000000 in
/-- From the three inputs' staging buffers at given contents and the two outputs' at anything, the body runs to its
    return holding the inputs' as they were and each output's with a list of stores written (the lists are witnesses determined
    by the body's text). -/
noncomputable def kernelRun1 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole)
    (x0 : Vec F S1024x32 .f32) (x1 : Vec F S1024x64 .f32) (x2 : Vec F S1024x1024 .f32) :
    Σ' (L3 : List (View.Piece (Elt F) S128x64 .f32)), { L4 : List (View.Piece (Elt F) S4x32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__coarsen_kernel i arg1 harg1 arg2 harg2 arg3 harg3 arg4 harg4 arg5 harg5) K } := by
  refine ⟨?_, ?_, fun E K => ?run⟩
  case run =>
    simp only [cc1__coarsen_kernel_eq_skeleton]; unfold cc1__coarsen_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The stores into the coarse-feature block tile it (four 32 × 64 row slabs of the 128 × 64 block), -/
theorem cover1_3 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) (y : S128x64.Idx) :
    ∃ pc ∈ (kernelRun1 c i arg1 harg1 arg2 harg2 arg3 harg3 arg4 harg4 arg5 harg5 x0 x1 x2).1, y ∈ pc.1.set :=
  View.cover_of_tiledL (kernelRun1 c i arg1 harg1 arg2 harg2 arg3 harg3 arg4 harg4 arg5 harg5 x0 x1 x2).1 S32x64.size (by sl_kernel_rfl) y
/-- and the stores into the coarse-adjacency block tile it (four 1 × 32 × 32 slabs of the 4 × 32 × 32 block). -/
theorem cover1_4 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) (y : S4x32x32.Idx) :
    ∃ pc ∈ (kernelRun1 c i arg1 harg1 arg2 harg2 arg3 harg3 arg4 harg4 arg5 harg5 x0 x1 x2).2.1, y ∈ pc.1.set :=
  View.cover_of_tiledL (kernelRun1 c i arg1 harg1 arg2 harg2 arg3 harg3 arg4 harg4 arg5 harg5 x0 x1 x2).2.1 S1x32x32.size (by sl_kernel_rfl) y

abbrev VO1_3 : View sig .tc .vmem S128x64 .f32 := (Memref.whole cc1_stg3_0 : Memref sig .tc .vmem S128x64 .f32).view
abbrev VO1_4 : View sig .tc .vmem S4x32x32 .f32 := (Memref.whole cc1_stg4_0 : Memref sig .tc .vmem S4x32x32 .f32).view

/-- What the body leaves in each output's staging buffer: its stores read back. -/
def out1_3 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) : Vec F S128x64 .f32 :=
  VO1_3.read (Elt F) (VO1_3.writes (Elt F) VO1_3.junk (kernelRun1 c i arg1 harg1 arg2 harg2 arg3 harg3 arg4 harg4 arg5 harg5 x0 x1 x2).1)
def out1_4 (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec F S1024x32 .f32) (x1 : Vec F S1024x64 .f32) (x2 : Vec F S1024x1024 .f32) : Vec F S4x32x32 .f32 :=
  VO1_4.read (Elt F) (VO1_4.writes (Elt F) VO1_4.junk (kernelRun1 c i arg1 harg1 arg2 harg2 arg3 harg3 arg4 harg4 arg5 harg5 x0 x1 x2).2.1)

section
-- what the unscoped buffers hold when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x32x32 .f32 := win1_4.stage (cfg1.slots t 4)
abbrev hs1_4 (t : Fin cfg1.N) : (ms1_4 t).IsWhole := hstage1_4 ((cfg1.slots t 4).cast nbuf1_4)

/-- What point `t` leaves in each output's staging buffer, from the point's input blocks. -/
def outAt1_3 (c : Dev nD) (t : Fin cfg1.N) : Vec F S128x64 .f32 :=
  out1_3 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)
def outAt1_4 (c : Dev nD) (t : Fin cfg1.N) : Vec F S4x32x32 .f32 :=
  out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)

/-- The proof data of pipeline 1 on core `c`: the arrays as the region finds them; after the body at point `t` each
    input's buffer at its block and each output's at what the point's stores leave; the resting invariant (the scoped
    buffers the pipeline does not stage and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1_3 V c t
    | ⟨4, _⟩ => outAt1_4 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1_3 V c t := by dsimp only [dat1]
theorem after1_4 (c : Dev nD) (t : Fin cfg1.N) : (dat1 V c).after 4 t = outAt1_4 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks, so the run applies; the invariant and the core's dues
    pass through unread; each output's buffer ends at its stores read back, because they tile it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  unfold outAt1_3 outAt1_4 out1_3 out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_3 c _ _ _ _ _ _ _ _ _ _ _ _ _ _)
  unfold owns; iexists _; isplitr
  swap; · iexact H4
  ipureintro; exact View.read_writes_of_cover _ _ _ _ _ (cover1_4 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Run.lean ====
/-
  The whole program's run. @main is five stretches in order: the host lines that build the concatenated weight
  matrix, region 0, the two host slices that cut the two heads out of region 0's result, region 1, and the host lines
  that scatter the per-graph blocks onto the block diagonal and build the coarse node indicator.

  The contents of the unscoped buffers are followed through the five stretches as a fold from the launch memory: a
  host stretch applies its operations; a region leaves its input arrays as entered and each output array at what its
  written-back blocks make of it. Each region is entered from the thread state "every unscoped buffer at the current
  contents, the generator register at some state, nothing owed" and left at the same with the contents advanced.
  The run: every weakly fair execution terminates, and at the end EVERY unscoped buffer holds the fold's last value —
  the arguments (which nothing writes) and the results alike.
-/
import proofs.«124585_j89764816486779_2_alg».proof.Proof.KI.R0
import proofs.«124585_j89764816486779_2_alg».proof.Proof.KI.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev Wt0 : Dev nD → Valuation τ sig (Elt F) := fun c b => (s₀ m ρ).mem ((c : Dev nD), b)
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)

abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)

abbrev Wt5 : Dev nD → Valuation τ sig (Elt F) := fun c => StableHlo.after hostOps2 (Wt4 m ρ c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (Vt1 m ρ) c
  | ⟨1, _⟩ => fun c => dat1 (Vt3 m ρ) c
abbrev 𝒱₀' : Variants := Variants.none
abbrev L' : GSem nD τ sig → Finset Unit := fun _ => ∅
abbrev lv' : GSem nD τ sig → Unit → ℕ := fun _ _ => 0
/-- What rides beside the buffers through every stretch: the generator register at some state and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (Wt5 m ρ c) ∗ ∃ r, prngReg c r)

/-! ## The regions as segments -/

set_option backward.isDefEq.respectTransparency.types false in
def reg0 : Pipeline.RegionSeg (pcfgs (F := F)) adm' (pdats m ρ) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L' lv' 0 fun _ _ => rfl
  pre c := iprop(StableHlo.held (c : Thread nD τ) (Pipeline.ucRefs τ sig) (Wt1 m ρ c) ∗ Rr c)
  post c := iprop(StableHlo.held (c : Thread nD τ) (Pipeline.ucRefs τ sig) (Wt2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (Vt1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L' lv' 1 fun _ _ => rfl
  pre c := iprop(StableHlo.held (c : Thread nD τ) (Pipeline.ucRefs τ sig) (Wt3 m ρ c) ∗ Rr c)
  post c := iprop(StableHlo.held (c : Thread nD τ) (Pipeline.ucRefs τ sig) (Wt4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀' L' lv') :=
  [ .host (hseg hostOps0 hostOps0_sub hostOps0_fresh' (Wt0 m ρ)),
    .region (reg0 m ρ),
    .host (hseg hostOps1 hostOps1_sub hostOps1_fresh' (Wt2 m ρ)),
    .region (reg1 m ρ),
    .host (hseg hostOps2 hostOps2_sub hostOps2_fresh' (Wt4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the fold's last value. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wt5 m ρ c (Proc.devRef .tc b)) :=
  Pipeline.θ_run_regions_kit (pcfgs (F := F)) adm' (pdats m ρ) () cellOf_inj emb₁ defs₀ 𝒱₀' L' lv' m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ Rr c)) (Tₙ := Tn m ρ)
    (hch := ⟨fun _ => .rfl, fun _ => .rfl, fun _ => .rfl, fun _ => .rfl, fun _ => .rfl, fun c => by
      show iprop(StableHlo.held (c : Thread nD τ) (Pipeline.ucRefs τ sig) (Wt5 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wt5 m ρ c) s')
      isplitl [Hh] <;> iassumption)
    (hQ := fun s h c b hb => h c _ (mem_uc b hb))

end Cert.KernelIdeal.Fr

end
-- ==== Proof.KI.Kept.lean ====
/-
  Nothing writes an argument: followed back through the five stretches of @main, each argument's buffer at the end holds
  its launch contents. With the run this is the frame claim.
-/
import proofs.«124585_j89764816486779_2_alg».proof.Proof.KI.Run
import proofs.«124585_j89764816486779_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A host stretch leaves a buffer it does not write as it was. -/
theorem keep0 (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

variable (m : (ℓ : Loc nD τ sig) → Buf (Elt F) ℓ) (ρ : Dev nD → PrngReg)

/-- Argument 0 reaches the end as launched: no host line writes it and a region only reads it (or does not touch it). -/
theorem kept_arg0 (c : Dev nD) : Wt5 m ρ c (Proc.devRef .tc main_arg0) = m ((c : Thread nD τ).loc main_arg0) :=
  calc Wt5 m ρ c (Proc.devRef .tc main_arg0)
    _ = Wt4 m ρ c (Proc.devRef .tc main_arg0) := keep2 _ main_arg0 (by decide)
    _ = Wt3 m ρ c (Proc.devRef .tc main_arg0) := (Wt4_arr m ρ c 2).trans (((dat1 (Vt3 m ρ) c).arrAt_in 2 rfl _).trans (A_eq1 (Vt3 m ρ) c 2))
    _ = Wt2 m ρ c (Proc.devRef .tc main_arg0) := keep1 _ main_arg0 (by decide)
    _ = Wt1 m ρ c (Proc.devRef .tc main_arg0) := (Wt2_arr m ρ c 0).trans (((dat0 (Vt1 m ρ) c).arrAt_in 0 rfl _).trans (A_eq0 (Vt1 m ρ) c 0))
    _ = Wt0 m ρ c (Proc.devRef .tc main_arg0) := keep0 _ main_arg0 (by decide)
    _ = m ((c : Thread nD τ).loc main_arg0) := rfl

/-- Argument 1 reaches the end as launched: no host line writes it and a region only reads it (or does not touch it). -/
theorem kept_arg1 (c : Dev nD) : Wt5 m ρ c (Proc.devRef .tc main_arg1) = m ((c : Thread nD τ).loc main_arg1) :=
  calc Wt5 m ρ c (Proc.devRef .tc main_arg1)
    _ = Wt4 m ρ c (Proc.devRef .tc main_arg1) := keep2 _ main_arg1 (by decide)
    _ = Wt3 m ρ c (Proc.devRef .tc main_arg1) := Wt4_of_ne m ρ c main_arg1 (by decide)
    _ = Wt2 m ρ c (Proc.devRef .tc main_arg1) := keep1 _ main_arg1 (by decide)
    _ = Wt1 m ρ c (Proc.devRef .tc main_arg1) := (Wt2_arr m ρ c 1).trans (((dat0 (Vt1 m ρ) c).arrAt_in 1 rfl _).trans (A_eq0 (Vt1 m ρ) c 1))
    _ = Wt0 m ρ c (Proc.devRef .tc main_arg1) := keep0 _ main_arg1 (by decide)
    _ = m ((c : Thread nD τ).loc main_arg1) := rfl

/-- Argument 2 reaches the end as launched: no host line writes it and a region only reads it (or does not touch it). -/
theorem kept_arg2 (c : Dev nD) : Wt5 m ρ c (Proc.devRef .tc main_arg2) = m ((c : Thread nD τ).loc main_arg2) :=
  calc Wt5 m ρ c (Proc.devRef .tc main_arg2)
    _ = Wt4 m ρ c (Proc.devRef .tc main_arg2) := keep2 _ main_arg2 (by decide)
    _ = Wt3 m ρ c (Proc.devRef .tc main_arg2) := Wt4_of_ne m ρ c main_arg2 (by decide)
    _ = Wt2 m ρ c (Proc.devRef .tc main_arg2) := keep1 _ main_arg2 (by decide)
    _ = Wt1 m ρ c (Proc.devRef .tc main_arg2) := Wt2_of_ne m ρ c main_arg2 (by decide)
    _ = Wt0 m ρ c (Proc.devRef .tc main_arg2) := keep0 _ main_arg2 (by decide)
    _ = m ((c : Thread nD τ).loc main_arg2) := rfl

/-- Argument 3 reaches the end as launched: no host line writes it and a region only reads it (or does not touch it). -/
theorem kept_arg3 (c : Dev nD) : Wt5 m ρ c (Proc.devRef .tc main_arg3) = m ((c : Thread nD τ).loc main_arg3) :=
  calc Wt5 m ρ c (Proc.devRef .tc main_arg3)
    _ = Wt4 m ρ c (Proc.devRef .tc main_arg3) := keep2 _ main_arg3 (by decide)
    _ = Wt3 m ρ c (Proc.devRef .tc main_arg3) := Wt4_of_ne m ρ c main_arg3 (by decide)
    _ = Wt2 m ρ c (Proc.devRef .tc main_arg3) := keep1 _ main_arg3 (by decide)
    _ = Wt1 m ρ c (Proc.devRef .tc main_arg3) := Wt2_of_ne m ρ c main_arg3 (by decide)
    _ = Wt0 m ρ c (Proc.devRef .tc main_arg3) := keep0 _ main_arg3 (by decide)
    _ = m ((c : Thread nD τ).loc main_arg3) := rfl

/-- Argument 4 reaches the end as launched: no host line writes it and a region only reads it (or does not touch it). -/
theorem kept_arg4 (c : Dev nD) : Wt5 m ρ c (Proc.devRef .tc main_arg4) = m ((c : Thread nD τ).loc main_arg4) :=
  calc Wt5 m ρ c (Proc.devRef .tc main_arg4)
    _ = Wt4 m ρ c (Proc.devRef .tc main_arg4) := keep2 _ main_arg4 (by decide)
    _ = Wt3 m ρ c (Proc.devRef .tc main_arg4) := Wt4_of_ne m ρ c main_arg4 (by decide)
    _ = Wt2 m ρ c (Proc.devRef .tc main_arg4) := keep1 _ main_arg4 (by decide)
    _ = Wt1 m ρ c (Proc.devRef .tc main_arg4) := Wt2_of_ne m ρ c main_arg4 (by decide)
    _ = Wt0 m ρ c (Proc.devRef .tc main_arg4) := keep0 _ main_arg4 (by decide)
    _ = m ((c : Thread nD τ).loc main_arg4) := rfl

/-- THE FRAME: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 (by decide)).trans (kept_arg0 m ρ c), (h c main_arg1 (by decide)).trans (kept_arg1 m ρ c),
     (h c main_arg2 (by decide)).trans (kept_arg2 m ρ c), (h c main_arg3 (by decide)).trans (kept_arg3 m ρ c),
     (h c main_arg4 (by decide)).trans (kept_arg4 m ρ c)⟩) (run m ρ)

end Cert.KernelIdeal.Fr

end
-- ==== Proof.KI.Glue.lean ====
/-
  What the host lines compute from what they are given: the weight matrix region 0 is entered with is the three-piece
  concatenation [Wp | We | zeros]; the two arrays region 1 is entered with are column slices [0, 32) and [32, 96) of
  region 0's result; the first result is the scatter of region 1's per-graph blocks onto the block diagonal of a zero
  array, reshaped; the second result is region 1's coarse features untouched; the third is a constant.
-/
import proofs.«124585_j89764816486779_2_alg».proof.Proof.KI.Kept
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The last host stretch's first result as ONE function of the per-graph blocks. -/
def tailK (blocks : (⟨S32x32x32, .f32⟩ : BufTy).Contents (Elt F)) : (⟨S1024x1024, .f32⟩ : BufTy).Contents (Elt F) :=
  shapeCast _ (Host.scatter scatter_S32x32x32x32_S32x2_S32x32x32_12_02_02_1 (fun _ b => b)
    (broadcastInDim S32x32x32x32 ![] bcast_S_S32x32x32x32 (constant S_ .f32 0x00000000#32))
    (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩] concatenates_S32x1_S32x1_S32x2_d1)
    blocks) shapeCasts_S32x32x32x32_S1024x1024

/-- The coarse node indicator: a constant. -/
def indK : (⟨S1024, .i32⟩ : BufTy).Contents (Elt F) :=
  shapeCast _ (broadcastInDim S32x32 ![0] bcast_S32_S32x32_0 (iotaInDim S32 32 0)) shapeCasts_S32x32_S1024

variable (m : (ℓ : Loc nD τ sig) → Buf (Elt F) ℓ) (ρ : Dev nD → PrngReg)

theorem Wt1_v1 (c : Dev nD) : Wt1 m ρ c (Proc.devRef .tc main_v1)
    = concatenate S64x128 1 [⟨S64x32, m ((c : Thread nD τ).loc main_arg2)⟩, ⟨S64x64, m ((c : Thread nD τ).loc main_arg3)⟩,
        ⟨S64x32, broadcastInDim S64x32 ![] bcast_S_S64x32 (constant S_ .f32 0x00000000#32)⟩] concatenates_S64x32_S64x64_S64x32_S64x128_d1 := by
  show StableHlo.after hostOps0 _ (Proc.devRef .tc main_v1) = _
  after_results
  rfl

theorem Wt3_v3 (c : Dev nD) : Wt3 m ρ c (Proc.devRef .tc main_v3)
    = extractStridedSlice S8192x32 ![0, 0] (Wt2 m ρ c (Proc.devRef .tc main_v2)) slices_S8192x128_S8192x32_0_0 := by
  show StableHlo.after hostOps1 _ (Proc.devRef .tc main_v3) = _
  after_results

theorem Wt3_v4 (c : Dev nD) : Wt3 m ρ c (Proc.devRef .tc main_v4)
    = extractStridedSlice S8192x64 ![0, 32] (Wt2 m ρ c (Proc.devRef .tc main_v2)) slices_S8192x128_S8192x64_0_32 := by
  show StableHlo.after hostOps1 _ (Proc.devRef .tc main_v4) = _
  after_results

set_option maxHeartbeats 4000000 in
theorem Wt5_v22 (c : Dev nD) : Wt5 m ρ c (Proc.devRef .tc main_v22) = tailK (Wt4 m ρ c (Proc.devRef .tc main_v5_1)) := by
  show StableHlo.after hostOps2 _ (Proc.devRef .tc main_v22) = _
  after_results_simp
  try rfl

set_option maxHeartbeats 4000000 in
theorem Wt5_v25 (c : Dev nD) : Wt5 m ρ c (Proc.devRef .tc main_v25) = indK (F := F) := by
  show StableHlo.after hostOps2 _ (Proc.devRef .tc main_v25) = _
  after_results_simp
  try rfl

theorem Wt5_v5_0 (c : Dev nD) : Wt5 m ρ c (Proc.devRef .tc main_v5_0) = (dat1 (Vt3 m ρ) c).arrAt 3 cfg1.N :=
  (keep2 _ main_v5_0 (by decide)).trans (Wt4_arr m ρ c 3)

theorem Wt4_v5_1 (c : Dev nD) : Wt4 m ρ c (Proc.devRef .tc main_v5_1) = (dat1 (Vt3 m ρ) c).arrAt 4 cfg1.N :=
  Wt4_arr m ρ c 4

theorem Wt2_v2 (c : Dev nD) : Wt2 m ρ c (Proc.devRef .tc main_v2) = (dat0 (Vt1 m ρ) c).arrAt 3 cfg0.N :=
  Wt2_arr m ρ c 3

/-- Region 0 is entered with the propagation matrix and the features as launched, -/
theorem Wt1_arg0 (c : Dev nD) : Wt1 m ρ c (Proc.devRef .tc main_arg0) = m ((c : Thread nD τ).loc main_arg0) :=
  keep0 _ main_arg0 (by decide)
theorem Wt1_arg1 (c : Dev nD) : Wt1 m ρ c (Proc.devRef .tc main_arg1) = m ((c : Thread nD τ).loc main_arg1) :=
  keep0 _ main_arg1 (by decide)
/-- and region 1 with the propagation matrix as launched. -/
theorem Wt3_arg0 (c : Dev nD) : Wt3 m ρ c (Proc.devRef .tc main_arg0) = m ((c : Thread nD τ).loc main_arg0) :=
  (keep1 _ main_arg0 (by decide)).trans (((Wt2_arr m ρ c 0).trans (((dat0 (Vt1 m ρ) c).arrAt_in 0 rfl _).trans (A_eq0 (Vt1 m ρ) c 0))).trans (Wt1_arg0 m ρ c))

end Cert.KernelIdeal.Fr

end
-- ==== Proof.KI.Val0A.lean ====
/-
  Region 0: what each kind of point leaves, as arithmetic. A first-column-tile point leaves the accumulator at
  "zero plus this tile's product"; a middle point at "what was there plus this tile's product"; a last-column-tile point
  the same, and the output block at the epilogue (clamp, row softmax, zero padding) of that accumulator.
-/
import proofs.«124585_j89764816486779_2_alg».proof.Proof.KI.R0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A middle point: the accumulator `xs0` plus the product of the point's tiles. -/
theorem sout0_B_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i) (x0 : Vec F S2048x1024 .f32) (x1 : Vec F S1024x64 .f32) (x2 : Vec F S64x128 .f32) (xs0 : Vec F S2048x128 .f32) :
    sout0_B c i arg2 harg2 arg3 harg3 arg4 harg4 arg5 harg5 arg6 harg6 hc0 hc1 x0 x1 x2 xs0 = k0_pay2 x1 x2 x0 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S2048x1024) hz2, View.ld_unit_zero (S := S1024x64) hz2, View.ld_unit_zero (S := S64x128) hz2, View.ld_unit_zero (S := S2048x128) hz2]

/-- A first-column-tile point: zero plus the product of the point's tiles. -/
theorem sout0_A_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i) (x0 : Vec F S2048x1024 .f32) (x1 : Vec F S1024x64 .f32) (x2 : Vec F S64x128 .f32) :
    sout0_A c i arg2 harg2 arg3 harg3 arg4 harg4 arg5 harg5 arg6 harg6 hc0 hc1 x0 x1 x2 = k0_pay2 x1 x2 x0 (k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S2048x128) hz2, View.readCov_unit_zero (S := S2048x128) _ hz2]
  simp only [View.readAt_eq_ld, harg2.read_unread, harg3.read_unread, harg4.read_unread, View.ld_unit_zero (S := S2048x1024) hz2, View.ld_unit_zero (S := S1024x64) hz2, View.ld_unit_zero (S := S64x128) hz2, View.ld_unit_zero (S := S2048x128) hz2]

/-- A last-column-tile point: the accumulator as at a middle point, -/
theorem sout0_C_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) :
    sout0_C c i arg2 harg2 arg3 harg3 arg4 harg4 arg5 harg5 arg6 harg6 hc0 hc1 x0 x1 x2 xs0 = k0_pay2 x1 x2 x0 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S2048x1024) hz2, View.ld_unit_zero (S := S1024x64) hz2, View.ld_unit_zero (S := S64x128) hz2, View.ld_unit_zero (S := S2048x128) hz2]

/-- and the output block at the epilogue of that accumulator. -/
theorem out0_C_eq (c : Dev nD) (i : grid0.Coords) (arg2 : Memref sig .tc .vmem S2048x1024 .f32) (harg2 : arg2.IsWhole) (arg3 : Memref sig .tc .vmem S1024x64 .f32) (harg3 : arg3.IsWhole) (arg4 : Memref sig .tc .vmem S64x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i) (x0 : Vec F S2048x1024 .f32) (x1 : Vec F S1024x64 .f32) (x2 : Vec F S64x128 .f32) (xs0 : Vec F S2048x128 .f32) :
    out0_C c i arg2 harg2 arg3 harg3 arg4 harg4 arg5 harg5 arg6 harg6 hc0 hc1 x0 x1 x2 xs0 = k0_pay3 (k0_pay2 x1 x2 x0 xs0) := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, View.readCov_unit_zero (S := S2048x128) _ hz2, harg2.read_unread, harg3.read_unread, harg4.read_unread, harg6.read_unread, View.ld_unit_zero (S := S2048x1024) hz2, View.ld_unit_zero (S := S1024x64) hz2, View.ld_unit_zero (S := S64x128) hz2, View.ld_unit_zero (S := S2048x128) hz2]

end Cert.KernelIdeal.Fr

end
-- ==== Proof.Spec.lean ====
/-
  The mathematics both programs compute, stated once over plain indices, with no program in sight.

  Inputs: a propagation matrix `A` (8192 × 8192), node features `X` (8192 × 64) and two weight matrices `Wp` (64 × 32),
  `We` (64 × 64), all with extended-real entries. The 8192 nodes are 32 graphs of 256 nodes each; node `n` of graph `g` is
  row `256 g + n`.

  * two graph-convolution heads `A · (X · W)`, clamped at zero: `rs` (32 columns) and `zr` (64 columns);
  * a row softmax of `rs`, written the way both programs compute it: subtract the row's maximum, exponentiate, divide by
    the row's sum (`sm`);
  * per graph, the coarse features `Sᵀ Z` (`coarseX`) and the coarse adjacency `Sᵀ A_g S`, where `A_g` is the graph's own
    256 × 256 diagonal block of `A`. The triple product is associated in two ways: `blocksLeft` is `(A_gᵀ S)ᵀ S`, the sum
    over the column node outermost, and `blocksRight` is `Sᵀ (A_g S)`, the sum over the row node outermost. They agree
    when every entry involved is a real number (distributivity and exchanging two finite sums), not in general on the
    extended reals.
-/
import Idealize.ShloMosaic.PureOps.Ideal
import Idealize.ShloMosaic.Lib.ValueIdx

noncomputable section

namespace Cert.Spec

open Idealize.ShloMosaic

/-- The float zero and the float minus infinity, as the programs spell them. -/
abbrev zeroF : EReal := Ideal.ofBits .f32 0x00000000#32
abbrev negInfF : EReal := Ideal.ofBits .f32 0xFF800000#32

variable (A : Fin 8192 → Fin 8192 → EReal) (X : Fin 8192 → Fin 64 → EReal) (Wp : Fin 64 → Fin 32 → EReal) (We : Fin 64 → Fin 64 → EReal)

/-- `X · Wp` and `X · We`. -/
def xwp (j : Fin 8192) (c : Fin 32) : EReal := ∑ f : Fin 64, X j f * Wp f c
def xwe (j : Fin 8192) (c : Fin 64) : EReal := ∑ f : Fin 64, X j f * We f c

/-- `A · (X · Wp)` and `A · (X · We)`. -/
def hs (r : Fin 8192) (c : Fin 32) : EReal := ∑ j : Fin 8192, A r j * xwp X Wp j c
def hz (r : Fin 8192) (c : Fin 64) : EReal := ∑ j : Fin 8192, A r j * xwe X We j c

/-- Both heads clamped at zero. -/
def rs (r : Fin 8192) (c : Fin 32) : EReal := max (hs A X Wp r c) zeroF
def zr (r : Fin 8192) (c : Fin 64) : EReal := max (hz A X We r c) zeroF

/-- A row's maximum, folded from minus infinity, then once more against minus infinity (as both programs do). -/
def rmax (r : Fin 8192) : EReal :=
  max negInfF ((Finset.univ : Finset (Fin 32)).fold max negInfF (fun c => rs A X Wp r c))

/-- The softmax's numerator, denominator and quotient. -/
def ex (r : Fin 8192) (c : Fin 32) : EReal := Ideal.exp (rs A X Wp r c - rmax A X Wp r)
def den (r : Fin 8192) : EReal := ∑ c : Fin 32, ex A X Wp r c
def sm (r : Fin 8192) (c : Fin 32) : EReal := Ideal.div (ex A X Wp r c) (den A X Wp r)

/-- Node `n` of graph `g`. -/
def node (g : Fin 32) (n : Fin 256) : Fin 8192 := ⟨g.val * 256 + n.val, by omega⟩

/-- The coarse features of graph `g`: `Sᵀ Z`. -/
def coarseX (g : Fin 32) (c : Fin 32) (f : Fin 64) : EReal :=
  ∑ n : Fin 256, sm A X Wp (node g n) c * zr A X We (node g n) f

/-- The coarse adjacency of graph `g`, the column node's sum outermost: `(A_gᵀ S)ᵀ S`. -/
def blocksLeft (g : Fin 32) (c d : Fin 32) : EReal :=
  ∑ k : Fin 256, (∑ n : Fin 256, A (node g n) (node g k) * sm A X Wp (node g n) c) * sm A X Wp (node g k) d

/-- The same, the row node's sum outermost: `Sᵀ (A_g S)`. -/
def blocksRight (g : Fin 32) (c d : Fin 32) : EReal :=
  ∑ n : Fin 256, sm A X Wp (node g n) c * (∑ k : Fin 256, A (node g n) (node g k) * sm A X Wp (node g k) d)

end Cert.Spec

end
-- ==== Proof.KI.Val0B.lean ====
/-
  Region 0, reading its windows at an index (extended reals). Point `t` of the 4 × 8 grid is row tile `t / 8`, column
  tile `t % 8`: the propagation matrix's block there is rows `2048 (t/8) + r`, columns `1024 (t%8) + j`; the feature
  block is rows `1024 (t%8) + j`; the weight block is the whole 64 × 128 matrix; the output block is rows
  `2048 (t/8) + r`, written back at the last column tile only. Every row of the output array lies in exactly one
  written-back block.
-/
import proofs.«124585_j89764816486779_2_alg».proof.Proof.KI.Val0A
import proofs.«124585_j89764816486779_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- A row or column number given by arithmetic, reduced into range (the arithmetic below never leaves it). -/
def fin8192 (n : ℕ) : Fin 8192 := ⟨n % 8192, Nat.mod_lt _ (by decide)⟩
theorem fin8192_val (J : Fin 8192) : fin8192 J.val = J := Fin.ext (Nat.mod_eq_of_lt J.isLt)

/-- The printed index maps over the grid. -/
theorem idx0_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

section
variable (V : (c : Dev nD) → (b : Ref sig .tc) → Buf (Elt Ideal) ((c : Thread nD τ).loc b))

/-- The three arrays region 0 reads, as matrices. -/
abbrev Aof (c : Dev nD) : Fin 8192 → Fin 8192 → EReal := fun r j => (V c main_arg0 : S8192x8192.Idx → EReal) (ix2 r j)
abbrev Xof (c : Dev nD) : Fin 8192 → Fin 64 → EReal := fun r f => (V c main_arg1 : S8192x64.Idx → EReal) (ix2 r f)
abbrev Wof (c : Dev nD) : Fin 64 → Fin 128 → EReal := fun f cc => (V c main_v1 : S64x128.Idx → EReal) (ix2 f cc)

theorem iblk0_0_at (c : Dev nD) (t : Fin cfg0.N) (r : Fin 2048) (j : Fin 1024) :
    (iblk0 V c 0 t : S2048x1024.Idx → EReal) (ix2 r j) = Aof V c (fin8192 (2048 * (t.val / 8) + r.val)) (fin8192 (1024 * (t.val % 8) + j.val)) := by
  obtain ⟨e0, e1, -⟩ := idx0_facts t
  have hN : cfg0.N = 32 := N_0
  have ht := t.isLt
  unfold iblk0
  rw [View.read_apply]
  show V c main_arg0 _ = V c main_arg0 _
  refine congrArg _ ?_
  funext a; apply Fin.ext
  match a with
  | ⟨0, _⟩ => show win0_0.index t (0 : Fin 2) * 2048 + 1 * r.val = (2048 * (t.val / 8) + r.val) % 8192; rw [e0]; omega
  | ⟨1, _⟩ => show win0_0.index t (1 : Fin 2) * 1024 + 1 * j.val = (1024 * (t.val % 8) + j.val) % 8192; rw [e1]; omega

theorem iblk0_1_at (c : Dev nD) (t : Fin cfg0.N) (j : Fin 1024) (f : Fin 64) :
    (iblk0 V c 1 t : S1024x64.Idx → EReal) (ix2 j f) = Xof V c (fin8192 (1024 * (t.val % 8) + j.val)) f := by
  obtain ⟨-, -, e0, e1, -⟩ := idx0_facts t
  unfold iblk0
  rw [View.read_apply]
  show V c main_arg1 _ = V c main_arg1 _
  refine congrArg _ ?_
  funext a; apply Fin.ext
  match a with
  | ⟨0, _⟩ => show win0_1.index t (0 : Fin 2) * 1024 + 1 * j.val = (1024 * (t.val % 8) + j.val) % 8192; rw [e0]; omega
  | ⟨1, _⟩ => show win0_1.index t (1 : Fin 2) * 64 + 1 * f.val = f.val; rw [e1]; omega

theorem iblk0_2_at (c : Dev nD) (t : Fin cfg0.N) (f : Fin 64) (cc : Fin 128) :
    (iblk0 V c 2 t : S64x128.Idx → EReal) (ix2 f cc) = Wof V c f cc := by
  obtain ⟨-, -, -, -, e0, e1, -⟩ := idx0_facts t
  unfold iblk0
  rw [View.read_apply]
  show V c main_v1 _ = V c main_v1 _
  refine congrArg _ ?_
  funext a; apply Fin.ext
  match a with
  | ⟨0, _⟩ => show win0_2.index t (0 : Fin 2) * 64 + 1 * f.val = f.val; rw [e0]; omega
  | ⟨1, _⟩ => show win0_2.index t (1 : Fin 2) * 128 + 1 * cc.val = cc.val; rw [e1]; omega

end

/-- An index of the output array is in point `t`'s block iff each coordinate is in the block's range on its axis. -/
theorem mem_blk0_3 (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v2).slice (win0_3.rect t)).set ↔ _
  rw [View.set_slice_whole, Rect.mem_set_unit]
  exact Iff.rfl

/-- Every index of the output array lies in the block written back at the last column tile of its row tile. -/
theorem cover0_3 (i : S8192x128.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 128 := (i 1).isLt
  refine ⟨⟨8 * ((i 0).val / 2048) + 7, by omega⟩, (flush0_3 _).mpr (by dsimp only; omega), ?_⟩
  rw [mem_blk0_3]
  obtain ⟨-, -, -, -, -, -, e0, e1⟩ := idx0_facts ⟨8 * ((i 0).val / 2048) + 7, by omega⟩
  intro a
  match a with
  | ⟨0, _⟩ => show win0_3.index _ (0 : Fin 2) * 2048 ≤ (i 0).val ∧ (i 0).val < win0_3.index _ (0 : Fin 2) * 2048 + 2048; rw [e0]; dsimp only; omega
  | ⟨1, _⟩ => show win0_3.index _ (1 : Fin 2) * 128 ≤ (i 1).val ∧ (i 1).val < win0_3.index _ (1 : Fin 2) * 128 + 128; rw [e1]; omega

end Cert.KernelIdeal.Fr

end
-- ==== Proof.KI.Bridge1.lean ====
/-
  Region 0's operands in terms of the arguments: the propagation matrix and the features are entered as launched, and
  the concatenated weight matrix [Wp | We | zeros] read in columns [0, 32) is Wp, in columns [32, 96) is We.
-/
import proofs.«124585_j89764816486779_2_alg».proof.Proof.KI.Glue
import proofs.«124585_j89764816486779_2_alg».proof.Proof.KI.Val0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

/-- The four float arguments as matrices. -/
abbrev matA (c : Dev nD) : Fin 8192 → Fin 8192 → EReal := fun r j => (m ((c : Thread nD τ).loc main_arg0) : S8192x8192.Idx → EReal) (ix2 r j)
abbrev matX (c : Dev nD) : Fin 8192 → Fin 64 → EReal := fun r f => (m ((c : Thread nD τ).loc main_arg1) : S8192x64.Idx → EReal) (ix2 r f)
abbrev matWp (c : Dev nD) : Fin 64 → Fin 32 → EReal := fun f cc => (m ((c : Thread nD τ).loc main_arg2) : S64x32.Idx → EReal) (ix2 f cc)
abbrev matWe (c : Dev nD) : Fin 64 → Fin 64 → EReal := fun f cc => (m ((c : Thread nD τ).loc main_arg3) : S64x64.Idx → EReal) (ix2 f cc)

theorem Aof_eq (c : Dev nD) : Aof (Vt1 m ρ) c = matA m c :=
  funext fun r => funext fun j => congrFun (Wt1_arg0 m ρ c) (ix2 r j)
theorem Xof_eq (c : Dev nD) : Xof (Vt1 m ρ) c = matX m c :=
  funext fun r => funext fun f => congrFun (Wt1_arg1 m ρ c) (ix2 r f)

theorem Wof_left (c : Dev nD) (f : Fin 64) (c' : Fin 32) :
    Wof (Vt1 m ρ) c f ⟨c'.val, by omega⟩ = matWp m c f c' := by
  show Wt1 m ρ c (Proc.devRef .tc main_v1) (ix2 f (⟨c'.val, by omega⟩ : Fin 128)) = _
  rw [Wt1_v1]
  refine concatenate_apply_piece (1 : Fin 2) _ _ (ix2 f (⟨c'.val, by omega⟩ : Fin 128)) 0 ?_ S64x32 _ ?_ rfl 0 ?_ (ix2 f c') ?_ ?_
  · simp
  · rfl
  · rfl
  · intro b hb
    match b with
    | ⟨0, _⟩ => rfl
    | ⟨1, _⟩ => exact absurd rfl hb
  · show 0 + c'.val = c'.val; omega

theorem Wof_mid (c : Dev nD) (f : Fin 64) (c' : Fin 64) :
    Wof (Vt1 m ρ) c f ⟨32 + c'.val, by omega⟩ = matWe m c f c' := by
  show Wt1 m ρ c (Proc.devRef .tc main_v1) (ix2 f (⟨32 + c'.val, by omega⟩ : Fin 128)) = _
  rw [Wt1_v1]
  refine concatenate_apply_piece (1 : Fin 2) _ _ (ix2 f (⟨32 + c'.val, by omega⟩ : Fin 128)) 1 ?_ S64x64 _ ?_ rfl 32 ?_ (ix2 f c') ?_ ?_
  · simp
  · rfl
  · rfl
  · intro b hb
    match b with
    | ⟨0, _⟩ => rfl
    | ⟨1, _⟩ => exact absurd rfl hb
  · show 32 + c'.val = 32 + c'.val; rfl

end Cert.KernelIdeal.Fr

end
-- ==== Proof.KI.Pay0.lean ====
/-
  The first region's accumulator, read at an index, at the extended reals.

  There a change of float format is the identity, a shape cast between equal shapes is the identity, and a matrix
  product into a zero accumulator read at `(p, q)` is the plain sum `∑ k, x (p, k) * y (k, q)`. So the accumulator is
  first the float zero everywhere, and each grid step adds to it one block of `A · (X · W)`:
  `acc (r, c) + ∑ j, A (r, j) * ∑ f, X (j, f) * W (f, c)`.
-/
import proofs.«124585_j89764816486779_2_alg».proof.Proof.Gen.KernelIdeal.Skeleton
import proofs.«124585_j89764816486779_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic ValueIdx

/-! ## The two matrix products of the region, each read at an index -/

theorem mm_nn_1024x128_lhs_n (i : S1024x128.Idx) (r : (dot_S1024x64_S64x128_S1024x128_1_0_0_1_n_n).contr.Idx) :
    ((dot_S1024x64_S64x128_S1024x128_1_0_0_1_n_n).lhsIdx i r 0).val = (i 0).val := by
  unfold DotDims.lhsIdx
  rw [dif_neg (show ¬(0 : Fin S1024x64.rank) ∈ (dot_S1024x64_S64x128_S1024x128_1_0_0_1_n_n).lhsBatch by decide), dif_pos (show (0 : Fin S1024x64.rank) ∈ (dot_S1024x64_S64x128_S1024x128_1_0_0_1_n_n).lhsNonContracting by decide)]
  rfl
theorem mm_nn_1024x128_lhs_c (i : S1024x128.Idx) (r : (dot_S1024x64_S64x128_S1024x128_1_0_0_1_n_n).contr.Idx) :
    ((dot_S1024x64_S64x128_S1024x128_1_0_0_1_n_n).lhsIdx i r 1).val = (r ⟨0, by decide⟩).val :=
  (dot_S1024x64_S64x128_S1024x128_1_0_0_1_n_n).lhsIdx_val_of_single rfl i r
theorem mm_nn_1024x128_rhs_c (i : S1024x128.Idx) (r : (dot_S1024x64_S64x128_S1024x128_1_0_0_1_n_n).contr.Idx) :
    ((dot_S1024x64_S64x128_S1024x128_1_0_0_1_n_n).rhsIdx i r 0).val = (r ⟨0, by decide⟩).val :=
  (dot_S1024x64_S64x128_S1024x128_1_0_0_1_n_n).rhsIdx_val_of_single rfl i r
theorem mm_nn_1024x128_rhs_n (i : S1024x128.Idx) (r : (dot_S1024x64_S64x128_S1024x128_1_0_0_1_n_n).contr.Idx) :
    ((dot_S1024x64_S64x128_S1024x128_1_0_0_1_n_n).rhsIdx i r 1).val = (i 1).val := by
  unfold DotDims.rhsIdx
  rw [dif_neg (show ¬(1 : Fin S64x128.rank) ∈ (dot_S1024x64_S64x128_S1024x128_1_0_0_1_n_n).rhsBatch by decide), dif_pos (show (1 : Fin S64x128.rank) ∈ (dot_S1024x64_S64x128_S1024x128_1_0_0_1_n_n).rhsNonContracting by decide)]
  rfl
theorem mm_nn_1024x128 {φ₁ φ₂ : FTy} (x : FVec Ideal S1024x64 φ₁) (y : FVec Ideal S64x128 φ₂) (p : Fin 1024) (q : Fin 128) :
    matmul dot_S1024x64_S64x128_S1024x128_1_0_0_1_n_n none x y (constant (F := Ideal) S1024x128 .f32 0x00000000#32) (ix2 p q)
      = ∑ k : Fin 64, x (ix2 p k) * y (ix2 k q) := by
  simp only [matmul]
  rw [Ideal.matmul_constant_zero_apply, ← Equiv.sum_comp (contrEquiv1 dot_S1024x64_S64x128_S1024x128_1_0_0_1_n_n 64 rfl rfl).symm]
  refine Finset.sum_congr rfl fun k _ => ?_
  have hk := contrEquiv1_symm_val dot_S1024x64_S64x128_S1024x128_1_0_0_1_n_n 64 rfl rfl k
  have el : (dot_S1024x64_S64x128_S1024x128_1_0_0_1_n_n).lhsIdx (ix2 p q) ((contrEquiv1 dot_S1024x64_S64x128_S1024x128_1_0_0_1_n_n 64 rfl rfl).symm k) = ix2 p k := funext fun a => Fin.ext (by
    match a with
    | ⟨0, _⟩ => exact mm_nn_1024x128_lhs_n _ _
    | ⟨1, _⟩ => exact (mm_nn_1024x128_lhs_c _ _).trans hk)
  have er : (dot_S1024x64_S64x128_S1024x128_1_0_0_1_n_n).rhsIdx (ix2 p q) ((contrEquiv1 dot_S1024x64_S64x128_S1024x128_1_0_0_1_n_n 64 rfl rfl).symm k) = ix2 k q := funext fun a => Fin.ext (by
    match a with
    | ⟨0, _⟩ => exact (mm_nn_1024x128_rhs_c _ _).trans hk
    | ⟨1, _⟩ => exact mm_nn_1024x128_rhs_n _ _)
  rw [el, er]

theorem mm_nn_2048x128_lhs_n (i : S2048x128.Idx) (r : (dot_S2048x1024_S1024x128_S2048x128_1_0_0_1_n_n).contr.Idx) :
    ((dot_S2048x1024_S1024x128_S2048x128_1_0_0_1_n_n).lhsIdx i r 0).val = (i 0).val := by
  unfold DotDims.lhsIdx
  rw [dif_neg (show ¬(0 : Fin S2048x1024.rank) ∈ (dot_S2048x1024_S1024x128_S2048x128_1_0_0_1_n_n).lhsBatch by decide), dif_pos (show (0 : Fin S2048x1024.rank) ∈ (dot_S2048x1024_S1024x128_S2048x128_1_0_0_1_n_n).lhsNonContracting by decide)]
  rfl
theorem mm_nn_2048x128_lhs_c (i : S2048x128.Idx) (r : (dot_S2048x1024_S1024x128_S2048x128_1_0_0_1_n_n).contr.Idx) :
    ((dot_S2048x1024_S1024x128_S2048x128_1_0_0_1_n_n).lhsIdx i r 1).val = (r ⟨0, by decide⟩).val :=
  (dot_S2048x1024_S1024x128_S2048x128_1_0_0_1_n_n).lhsIdx_val_of_single rfl i r
theorem mm_nn_2048x128_rhs_c (i : S2048x128.Idx) (r : (dot_S2048x1024_S1024x128_S2048x128_1_0_0_1_n_n).contr.Idx) :
    ((dot_S2048x1024_S1024x128_S2048x128_1_0_0_1_n_n).rhsIdx i r 0).val = (r ⟨0, by decide⟩).val :=
  (dot_S2048x1024_S1024x128_S2048x128_1_0_0_1_n_n).rhsIdx_val_of_single rfl i r
theorem mm_nn_2048x128_rhs_n (i : S2048x128.Idx) (r : (dot_S2048x1024_S1024x128_S2048x128_1_0_0_1_n_n).contr.Idx) :
    ((dot_S2048x1024_S1024x128_S2048x128_1_0_0_1_n_n).rhsIdx i r 1).val = (i 1).val := by
  unfold DotDims.rhsIdx
  rw [dif_neg (show ¬(1 : Fin S1024x128.rank) ∈ (dot_S2048x1024_S1024x128_S2048x128_1_0_0_1_n_n).rhsBatch by decide), dif_pos (show (1 : Fin S1024x128.rank) ∈ (dot_S2048x1024_S1024x128_S2048x128_1_0_0_1_n_n).rhsNonContracting by decide)]
  rfl
theorem mm_nn_2048x128 {φ₁ φ₂ : FTy} (x : FVec Ideal S2048x1024 φ₁) (y : FVec Ideal S1024x128 φ₂) (p : Fin 2048) (q : Fin 128) :
    matmul dot_S2048x1024_S1024x128_S2048x128_1_0_0_1_n_n none x y (constant (F := Ideal) S2048x128 .f32 0x00000000#32) (ix2 p q)
      = ∑ k : Fin 1024, x (ix2 p k) * y (ix2 k q) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : (dot_S2048x1024_S1024x128_S2048x128_1_0_0_1_n_n).lhsIdx (ix2 p q) ((contrEquiv1 dot_S2048x1024_S1024x128_S2048x128_1_0_0_1_n_n 1024 rfl rfl).symm k) = ix2 p k := funext fun a => Fin.ext (by
    match a with
    | ⟨0, _⟩ => exact mm_nn_2048x128_lhs_n _ _
    | ⟨1, _⟩ => exact (mm_nn_2048x128_lhs_c _ _).trans hk)
  have er : (dot_S2048x1024_S1024x128_S2048x128_1_0_0_1_n_n).rhsIdx (ix2 p q) ((contrEquiv1 dot_S2048x1024_S1024x128_S2048x128_1_0_0_1_n_n 1024 rfl rfl).symm k) = ix2 k q := funext fun a => Fin.ext (by
    match a with
    | ⟨0, _⟩ => exact (mm_nn_2048x128_rhs_c _ _).trans hk
    | ⟨1, _⟩ => exact mm_nn_2048x128_rhs_n _ _)
  rw [el, er]

/-! ## The accumulator: cleared, then one block of `A · (X · W)` added -/

theorem acc_clear_at (r : Fin 2048) (c : Fin 128) : k0_pay1 (F := Ideal) (ix2 r c) = Cert.Spec.zeroF := by
  unfold k0_pay1
  rw [shapeCast_self]
  rfl

theorem acc_add_at (v3 : Vec Ideal S1024x64 .f32) (v5 : Vec Ideal S64x128 .f32) (v10 : Vec Ideal S2048x1024 .f32)
    (v12 : Vec Ideal S2048x128 .f32) (r : Fin 2048) (c : Fin 128) :
    k0_pay2 v3 v5 v10 v12 (ix2 r c)
      = v12 (ix2 r c) + ∑ j : Fin 1024, v10 (ix2 r j) * (∑ f : Fin 64, v3 (ix2 j f) * v5 (ix2 f c)) := by
  unfold k0_pay2
  rw [shapeCast_self]
  refine (addf_apply _ _ _).trans ?_
  refine congrArg (v12 (ix2 r c) + ·) ?_
  refine (mm_nn_2048x128 _ _ r c).trans ?_
  refine Finset.sum_congr rfl fun j _ => ?_
  rw [truncf_apply, truncf_apply]
  refine congrArg (v10 (ix2 r j) * ·) ?_
  refine (mm_nn_1024x128 _ _ j c).trans ?_
  simp only [shapeCast_self, truncf_apply]

end Cert.KernelIdeal.Pay

end
-- ==== Proof.KI.Val0C.lean ====
/-
  Region 0's accumulator, as a sum. After the point at row tile `i`, column tile `k`, the accumulator's entry (r, c)
  is the sum over the column tiles `0 … k` and the 1024 columns `J` of each of  A[2048 i + r, J] · (X · Wc)[J, c];
  after the last column tile that is the full sum over all 8192 columns. By induction on the point: a first column
  tile starts from zero, every other point adds its tile to what the point before left.
-/
import proofs.«124585_j89764816486779_2_alg».proof.Proof.KI.Val0B
import proofs.«124585_j89764816486779_2_alg».proof.Proof.KI.Pay0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- Eight tiles of 1024 columns are the 8192 columns. -/
theorem tile_sum (g : ℕ → EReal) : ∑ k ∈ Finset.range 8, ∑ j : Fin 1024, g (1024 * k + j.val) = ∑ J : Fin 8192, g J.val := by
  rw [← Fin.sum_univ_eq_sum_range (fun k => ∑ j : Fin 1024, g (1024 * k + j.val)) 8, ← Fintype.sum_prod_type']
  refine Fintype.sum_equiv (finProdFinEquiv : Fin 8 × Fin 1024 ≃ Fin (8 * 1024)) _ (fun J : Fin (8 * 1024) => g J.val) (fun p => ?_)
  refine congrArg g ?_
  simp only [finProdFinEquiv_apply_val]
  omega

section
variable (V : (c : Dev nD) → (b : Ref sig .tc) → Buf (Elt Ideal) ((c : Thread nD τ).loc b))

/-- One column's contribution to entry (R, cc): A[R, J] · (X · Wc)[J, cc]. -/
def tileTerm (c : Dev nD) (R : Fin 8192) (cc : Fin 128) (J : ℕ) : EReal :=
  Aof V c R (fin8192 J) * ∑ f : Fin 64, Xof V c (fin8192 J) f * Wof V c f cc

/-- One point's update of an accumulator `xs0`, read at an entry. -/
theorem step_at (c : Dev nD) (t : Fin cfg0.N) (xs0 : Vec Ideal S2048x128 .f32) (r : Fin 2048) (cc : Fin 128) :
    k0_pay2 (F := Ideal) (iblk0 V c 1 t) (iblk0 V c 2 t) (iblk0 V c 0 t) xs0 (ix2 r cc)
      = xs0 (ix2 r cc) + ∑ j : Fin 1024, tileTerm V c (fin8192 (2048 * (t.val / 8) + r.val)) cc (1024 * (t.val % 8) + j.val) := by
  refine (Pay.acc_add_at (iblk0 V c 1 t) (iblk0 V c 2 t) (iblk0 V c 0 t) xs0 r cc).trans ?_
  refine congrArg _ (Finset.sum_congr rfl fun j _ => ?_)
  unfold tileTerm
  rw [iblk0_0_at V c t r j]
  refine congrArg _ (Finset.sum_congr rfl fun f _ => ?_)
  rw [iblk0_1_at V c t j f, iblk0_2_at V c t f cc]

/-- THE ACCUMULATION, by induction on the point. -/
theorem acc_eq (c : Dev nD) : ∀ (n : ℕ) (hn : n < cfg0.N) (r : Fin 2048) (cc : Fin 128),
    (outsAt0 V c n hn).2 (ix2 r cc)
      = ∑ k ∈ Finset.range (n % 8 + 1), ∑ j : Fin 1024, tileTerm V c (fin8192 (2048 * (n / 8) + r.val)) cc (1024 * k + j.val)
  | 0, hn, r, cc => by
    rw [outsAt0_A V c ⟨0, hn⟩ rfl (by show ¬ 0 % 8 = 7; decide)]
    dsimp only
    rw [sout0_A_eq]
    refine (step_at V c ⟨0, hn⟩ _ r cc).trans ?_
    rw [Pay.acc_clear_at]
    simp only [Cert.Spec.zeroF, Ideal.ofBits_zero_f32, zero_add, Nat.zero_mod, Finset.sum_range_one, Nat.zero_div, Nat.mul_zero]
  | n + 1, hn, r, cc => by
    have hN : cfg0.N = 32 := N_0
    by_cases h0 : (n + 1) % 8 = 0
    · have h1 : ¬ (n + 1) % 8 = 7 := by omega
      rw [outsAt0_A V c ⟨n + 1, hn⟩ h0 h1]
      dsimp only
      rw [sout0_A_eq]
      refine (step_at V c ⟨n + 1, hn⟩ _ r cc).trans ?_
      rw [Pay.acc_clear_at]
      dsimp only
      rw [h0]
      simp only [Cert.Spec.zeroF, Ideal.ofBits_zero_f32, zero_add, Finset.sum_range_one, Nat.mul_zero]
    · have ih := acc_eq c n (Nat.lt_of_succ_lt hn) r cc
      have e1 : (n + 1) / 8 = n / 8 := by omega
      have e2 : (n + 1) % 8 = n % 8 + 1 := by omega
      by_cases h1 : (n + 1) % 8 = 7
      · rw [outsAt0_C V c ⟨n + 1, hn⟩ h0 h1]
        dsimp only
        rw [sout0_C_eq]
        refine (step_at V c ⟨n + 1, hn⟩ _ r cc).trans ?_
        dsimp only
        rw [e1, e2, Finset.sum_range_succ _ (n % 8 + 1)]
        exact congrArg (· + _) ih
      · rw [outsAt0_B V c ⟨n + 1, hn⟩ h0 h1]
        dsimp only
        rw [sout0_B_eq]
        refine (step_at V c ⟨n + 1, hn⟩ _ r cc).trans ?_
        dsimp only
        rw [e1, e2, Finset.sum_range_succ _ (n % 8 + 1)]
        exact congrArg (· + _) ih

/-- Entry (R, cc) of A · (X · Wc). -/
def Hc (c : Dev nD) (R : Fin 8192) (cc : Fin 128) : EReal :=
  ∑ J : Fin 8192, Aof V c R J * ∑ f : Fin 64, Xof V c J f * Wof V c f cc

/-- After the last column tile the accumulator holds the full product's rows of its row tile. -/
theorem acc_last (c : Dev nD) (t : Fin cfg0.N) (h7 : t.val % 8 = 7) (r : Fin 2048) (cc : Fin 128) :
    (outsAt0 V c t.val t.isLt).2 (ix2 r cc) = Hc V c (fin8192 (2048 * (t.val / 8) + r.val)) cc := by
  rw [acc_eq V c t.val t.isLt r cc, h7]
  show ∑ k ∈ Finset.range 8, ∑ j : Fin 1024, tileTerm V c _ cc (1024 * k + j.val) = _
  rw [tile_sum (fun J => tileTerm V c _ cc J)]
  unfold Hc tileTerm
  simp only [fin8192_val]

/-- At a last-column-tile point the output block is the epilogue of the accumulator. -/
theorem out_last (c : Dev nD) (t : Fin cfg0.N) (h7 : t.val % 8 = 7) :
    (outsAt0 V c t.val t.isLt).1 = k0_pay3 (F := Ideal) ((outsAt0 V c t.val t.isLt).2) := by
  have h0 : ¬ t.val % 8 = 0 := by omega
  rw [outsAt0_C V c t h0 h7]
  dsimp only
  rw [out0_C_eq, sout0_C_eq]

end

end Cert.KernelIdeal.Fr

end
-- ==== Proof.KI.Val0D.lean ====
/-
  Region 0's result array as one function. The accumulator of row tile `i` after its last column tile is the block of
  rows `2048 i …` of A · (X · Wc); the block written back there is its epilogue (clamp, row softmax of the first 32
  columns, zero padding); every row of the array lies in exactly one such block, so the array ends holding, row tile by
  row tile, the epilogue of the full product.
-/
import proofs.«124585_j89764816486779_2_alg».proof.Proof.KI.Val0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

section
variable (V : (c : Dev nD) → (b : Ref sig .tc) → Buf (Elt Ideal) ((c : Thread nD τ).loc b))

/-- Row tile `i`'s block of the full product A · (X · Wc). -/
def tileAcc (c : Dev nD) (i : ℕ) : Vec Ideal S2048x128 .f32 :=
  fun z => Hc V c (fin8192 (2048 * i + (z 0).val)) ⟨(z 1).val, (z 1).isLt⟩

/-- The array region 0 leaves: each row tile's block is the epilogue of that tile's block of the full product. -/
def slab (c : Dev nD) : S8192x128.Idx → EReal := fun y =>
  k0_pay3 (F := Ideal) (tileAcc V c ((y 0).val / 2048))
    (ix2 (⟨(y 0).val % 2048, Nat.mod_lt _ (by decide)⟩ : Fin 2048) (⟨(y 1).val, (y 1).isLt⟩ : Fin 128))

theorem acc_last_fun (c : Dev nD) (t : Fin cfg0.N) (h7 : t.val % 8 = 7) :
    (outsAt0 V c t.val t.isLt).2 = tileAcc V c (t.val / 8) := by
  funext z
  obtain ⟨r, cc, rfl⟩ : ∃ (r : Fin 2048) (cc : Fin 128), z = ix2 r cc := ⟨z 0, z 1, eq_ix2 z⟩
  exact acc_last V c t h7 r cc

/-- The array read at row `2048 i + r`. -/
theorem slab_at (c : Dev nD) (i : ℕ) (hi : i < 4) (r : Fin 2048) (cc : Fin 128) :
    slab V c (ix2 (fin8192 (2048 * i + r.val)) cc) = k0_pay3 (F := Ideal) (tileAcc V c i) (ix2 r cc) := by
  have hr := r.isLt
  have h1 : (2048 * i + r.val) % 8192 / 2048 = i := by omega
  have h2 : (2048 * i + r.val) % 8192 % 2048 = r.val := by omega
  show k0_pay3 (F := Ideal) (tileAcc V c ((2048 * i + r.val) % 8192 / 2048))
      (ix2 (⟨(2048 * i + r.val) % 8192 % 2048, Nat.mod_lt _ (by decide)⟩ : Fin 2048) (⟨cc.val, cc.isLt⟩ : Fin 128)) = _
  rw [h1]
  exact congrArg (k0_pay3 (F := Ideal) (tileAcc V c i)) (congrArg₂ ix2 (Fin.ext h2) rfl)

/-- What a last-column-tile point writes back is its block of `slab`. -/
theorem flushed0_3 (c : Dev nD) (t : Fin cfg0.N) (hf : (cfg0.win 3).flush t = true) :
    (dat0 V c).flushed 3 t = ((cfg0.win 3).blk t).view.read (Elt Ideal) (slab V c) := by
  have h7 : t.val % 8 = 7 := (flush0_3 t).mp hf
  have hN : cfg0.N = 32 := N_0
  have ht := t.isLt
  obtain ⟨-, -, -, -, -, -, e0, e1⟩ := idx0_facts t
  show (cfg0.win 3).cut (grid0.coords t) ((dat0 V c).after 3 t) = _
  rw [after0_3, out_last V c t h7, acc_last_fun V c t h7]
  funext y
  obtain ⟨r, cc, rfl⟩ : ∃ (r : Fin 2048) (cc : Fin 128), y = ix2 r cc := ⟨y 0, y 1, eq_ix2 y⟩
  rw [View.read_apply]
  have hemb : ((cfg0.win 3).blk t).view.emb (ix2 r cc) = (ix2 (fin8192 (2048 * (t.val / 8) + r.val)) cc : S8192x128.Idx) := by
    funext a; apply Fin.ext
    match a with
    | ⟨0, _⟩ => show win0_3.index t (0 : Fin 2) * 2048 + 1 * r.val = (2048 * (t.val / 8) + r.val) % 8192; rw [e0]; omega
    | ⟨1, _⟩ => show win0_3.index t (1 : Fin 2) * 128 + 1 * cc.val = cc.val; rw [e1]; omega
  rw [hemb, slab_at V c (t.val / 8) (by omega) r cc]
  rfl

/-- THE ARRAY after region 0. -/
theorem final0_3 (c : Dev nD) : (dat0 V c).arrAt 3 cfg0.N = slab V c :=
  (dat0 V c).arrAt_eq_of_cover 3 (slab V c) (flushed0_3 V c) cover0_3

end

end Cert.KernelIdeal.Fr

end
-- ==== Proof.KI.Pay0Z.lean ====
/-
  The epilogue payload of the first region, read in its middle and right column ranges.

  The payload is a concatenation along the columns of three pieces: a row softmax (32 columns), the columns 32 … 95 of
  the accumulator clamped at zero (64 columns) and zeros (32 columns). So column `32 + c` (`c < 64`) of the payload is
  the accumulator's entry at that column clamped at zero, and column `96 + c` (`c < 32`) is zero.
-/
import proofs.«124585_j89764816486779_2_alg».proof.Proof.Gen.KernelIdeal.Skeleton
import proofs.«124585_j89764816486779_2_alg».proof.Proof.Spec
import Idealize.ShloMosaic.Lib.ValueIdx
import Idealize.ShloMosaic.Lib.Pipeline.Value

noncomputable section

namespace Cert.KernelIdeal.Pay

open Cert.KernelIdeal Cert.KernelIdeal.Gen Idealize.ShloMosaic ValueIdx

/-- The middle range: the accumulator's entry clamped at zero. -/
theorem out_clamp_at (v21 : Vec Ideal S2048x128 .f32) (r : Fin 2048) (c : Fin 64) :
    k0_pay3 (F := Ideal) v21 (ix2 r (⟨32 + c.val, by omega⟩ : Fin 128))
      = max (v21 (ix2 r (⟨32 + c.val, by omega⟩ : Fin 128))) Cert.Spec.zeroF := by
  unfold k0_pay3
  refine (concatenate_apply_piece (1 : Fin 2) _ _ (ix2 r (⟨32 + c.val, by omega⟩ : Fin 128)) 1 (by show (1 : ℕ) < 3; decide) S2048x64 _ rfl rfl 32 rfl
    (ix2 r c) (fun b hb => by match b with | ⟨0, _⟩ => rfl | ⟨1, _⟩ => exact absurd rfl hb)
    (by show 32 + c.val = 32 + c.val; rfl)).trans ?_
  refine (maximumf_apply _ _ (ix2 r c)).trans ?_
  refine congrArg₂ max (extractStridedSlice_apply _ v21 _ (ix2 r c) (ix2 r (⟨32 + c.val, by omega⟩ : Fin 128))
    (fun a => by
      match a with
      | ⟨0, _⟩ => show r.val = 0 + r.val; omega
      | ⟨1, _⟩ => show 32 + c.val = 32 + c.val; rfl)) rfl

/-- The right range: zero. -/
theorem out_pad_at (v21 : Vec Ideal S2048x128 .f32) (r : Fin 2048) (c : Fin 32) :
    k0_pay3 (F := Ideal) v21 (ix2 r (⟨96 + c.val, by omega⟩ : Fin 128)) = Cert.Spec.zeroF := by
  unfold k0_pay3
  refine (concatenate_apply_piece (1 : Fin 2) _ _ (ix2 r (⟨96 + c.val, by omega⟩ : Fin 128)) 2 (by show (2 : ℕ) < 3; decide) S2048x32 _ rfl rfl 96 rfl
    (ix2 r c) (fun b hb => by match b with | ⟨0, _⟩ => rfl | ⟨1, _⟩ => exact absurd rfl hb)
    (by show 96 + c.val = 96 + c.val; rfl)).trans ?_
  rfl

end Cert.KernelIdeal.Pay

end
-- ==== Proof.KI.Pay1.lean ====
/-
  The second region's arithmetic, read at an index, at the extended reals.

  There a change of float format is the identity, a shape cast between equal shapes is the identity, a shape cast that
  adds a leading unit axis reads `(0, c, d)` at `(c, d)`, and a matrix product into a zero accumulator read at
  `(p, q)` is the plain sum over the contracted axis: `∑ k, x (p, k) * y (k, q)` when the left operand's second axis
  is contracted, `∑ k, x (k, p) * y (k, q)` when the first axis of both operands is. So each graph's coarse features
  are `(Sᵀ Z)(c, f) = ∑ n, S (n, c) * Z (n, f)` and its coarse adjacency is
  `(Sᵀ (A S))(c, d) = ∑ n, S (n, c) * ∑ k, A (n, k) * S (k, d)`.
-/
import proofs.«124585_j89764816486779_2_alg».proof.Proof.Gen.KernelIdeal.Skeleton
import proofs.«124585_j89764816486779_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic ValueIdx

/-! ## The three matrix products of the region, each read at an index -/

theorem mm_tn_32x64_lhs_n (i : S32x64.Idx) (r : (dot_S256x32_S256x64_S32x64_0_0_1_1_n_n).contr.Idx) :
    ((dot_S256x32_S256x64_S32x64_0_0_1_1_n_n).lhsIdx i r 1).val = (i 0).val := by
  unfold DotDims.lhsIdx
  rw [dif_neg (show ¬(1 : Fin S256x32.rank) ∈ (dot_S256x32_S256x64_S32x64_0_0_1_1_n_n).lhsBatch by decide), dif_pos (show (1 : Fin S256x32.rank) ∈ (dot_S256x32_S256x64_S32x64_0_0_1_1_n_n).lhsNonContracting by decide)]
  rfl
theorem mm_tn_32x64_lhs_c (i : S32x64.Idx) (r : (dot_S256x32_S256x64_S32x64_0_0_1_1_n_n).contr.Idx) :
    ((dot_S256x32_S256x64_S32x64_0_0_1_1_n_n).lhsIdx i r 0).val = (r ⟨0, by decide⟩).val :=
  (dot_S256x32_S256x64_S32x64_0_0_1_1_n_n).lhsIdx_val_of_single rfl i r
theorem mm_tn_32x64_rhs_c (i : S32x64.Idx) (r : (dot_S256x32_S256x64_S32x64_0_0_1_1_n_n).contr.Idx) :
    ((dot_S256x32_S256x64_S32x64_0_0_1_1_n_n).rhsIdx i r 0).val = (r ⟨0, by decide⟩).val :=
  (dot_S256x32_S256x64_S32x64_0_0_1_1_n_n).rhsIdx_val_of_single rfl i r
theorem mm_tn_32x64_rhs_n (i : S32x64.Idx) (r : (dot_S256x32_S256x64_S32x64_0_0_1_1_n_n).contr.Idx) :
    ((dot_S256x32_S256x64_S32x64_0_0_1_1_n_n).rhsIdx i r 1).val = (i 1).val := by
  unfold DotDims.rhsIdx
  rw [dif_neg (show ¬(1 : Fin S256x64.rank) ∈ (dot_S256x32_S256x64_S32x64_0_0_1_1_n_n).rhsBatch by decide), dif_pos (show (1 : Fin S256x64.rank) ∈ (dot_S256x32_S256x64_S32x64_0_0_1_1_n_n).rhsNonContracting by decide)]
  rfl
theorem mm_tn_32x64 {φ₁ φ₂ : FTy} (x : FVec Ideal S256x32 φ₁) (y : FVec Ideal S256x64 φ₂) (p : Fin 32) (q : Fin 64) :
    matmul dot_S256x32_S256x64_S32x64_0_0_1_1_n_n none x y (constant (F := Ideal) S32x64 .f32 0x00000000#32) (ix2 p q)
      = ∑ k : Fin 256, x (ix2 k p) * y (ix2 k q) := by
  simp only [matmul]
  rw [Ideal.matmul_constant_zero_apply, ← Equiv.sum_comp (contrEquiv1 dot_S256x32_S256x64_S32x64_0_0_1_1_n_n 256 rfl rfl).symm]
  refine Finset.sum_congr rfl fun k _ => ?_
  have hk := contrEquiv1_symm_val dot_S256x32_S256x64_S32x64_0_0_1_1_n_n 256 rfl rfl k
  have el : (dot_S256x32_S256x64_S32x64_0_0_1_1_n_n).lhsIdx (ix2 p q) ((contrEquiv1 dot_S256x32_S256x64_S32x64_0_0_1_1_n_n 256 rfl rfl).symm k) = ix2 k p := funext fun a => Fin.ext (by
    match a with
    | ⟨0, _⟩ => exact (mm_tn_32x64_lhs_c _ _).trans hk
    | ⟨1, _⟩ => exact mm_tn_32x64_lhs_n _ _)
  have er : (dot_S256x32_S256x64_S32x64_0_0_1_1_n_n).rhsIdx (ix2 p q) ((contrEquiv1 dot_S256x32_S256x64_S32x64_0_0_1_1_n_n 256 rfl rfl).symm k) = ix2 k q := funext fun a => Fin.ext (by
    match a with
    | ⟨0, _⟩ => exact (mm_tn_32x64_rhs_c _ _).trans hk
    | ⟨1, _⟩ => exact mm_tn_32x64_rhs_n _ _)
  rw [el, er]

theorem mm_nn_256x32_lhs_n (i : S256x32.Idx) (r : (dot_S256x256_S256x32_S256x32_1_0_0_1_n_n).contr.Idx) :
    ((dot_S256x256_S256x32_S256x32_1_0_0_1_n_n).lhsIdx i r 0).val = (i 0).val := by
  unfold DotDims.lhsIdx
  rw [dif_neg (show ¬(0 : Fin S256x256.rank) ∈ (dot_S256x256_S256x32_S256x32_1_0_0_1_n_n).lhsBatch by decide), dif_pos (show (0 : Fin S256x256.rank) ∈ (dot_S256x256_S256x32_S256x32_1_0_0_1_n_n).lhsNonContracting by decide)]
  rfl
theorem mm_nn_256x32_lhs_c (i : S256x32.Idx) (r : (dot_S256x256_S256x32_S256x32_1_0_0_1_n_n).contr.Idx) :
    ((dot_S256x256_S256x32_S256x32_1_0_0_1_n_n).lhsIdx i r 1).val = (r ⟨0, by decide⟩).val :=
  (dot_S256x256_S256x32_S256x32_1_0_0_1_n_n).lhsIdx_val_of_single rfl i r
theorem mm_nn_256x32_rhs_c (i : S256x32.Idx) (r : (dot_S256x256_S256x32_S256x32_1_0_0_1_n_n).contr.Idx) :
    ((dot_S256x256_S256x32_S256x32_1_0_0_1_n_n).rhsIdx i r 0).val = (r ⟨0, by decide⟩).val :=
  (dot_S256x256_S256x32_S256x32_1_0_0_1_n_n).rhsIdx_val_of_single rfl i r
theorem mm_nn_256x32_rhs_n (i : S256x32.Idx) (r : (dot_S256x256_S256x32_S256x32_1_0_0_1_n_n).contr.Idx) :
    ((dot_S256x256_S256x32_S256x32_1_0_0_1_n_n).rhsIdx i r 1).val = (i 1).val := by
  unfold DotDims.rhsIdx
  rw [dif_neg (show ¬(1 : Fin S256x32.rank) ∈ (dot_S256x256_S256x32_S256x32_1_0_0_1_n_n).rhsBatch by decide), dif_pos (show (1 : Fin S256x32.rank) ∈ (dot_S256x256_S256x32_S256x32_1_0_0_1_n_n).rhsNonContracting by decide)]
  rfl
theorem mm_nn_256x32 {φ₁ φ₂ : FTy} (x : FVec Ideal S256x256 φ₁) (y : FVec Ideal S256x32 φ₂) (p : Fin 256) (q : Fin 32) :
    matmul dot_S256x256_S256x32_S256x32_1_0_0_1_n_n none x y (constant (F := Ideal) S256x32 .f32 0x00000000#32) (ix2 p q)
      = ∑ k : Fin 256, x (ix2 p k) * y (ix2 k q) := by
  simp only [matmul]
  rw [Ideal.matmul_constant_zero_apply, ← Equiv.sum_comp (contrEquiv1 dot_S256x256_S256x32_S256x32_1_0_0_1_n_n 256 rfl rfl).symm]
  refine Finset.sum_congr rfl fun k _ => ?_
  have hk := contrEquiv1_symm_val dot_S256x256_S256x32_S256x32_1_0_0_1_n_n 256 rfl rfl k
  have el : (dot_S256x256_S256x32_S256x32_1_0_0_1_n_n).lhsIdx (ix2 p q) ((contrEquiv1 dot_S256x256_S256x32_S256x32_1_0_0_1_n_n 256 rfl rfl).symm k) = ix2 p k := funext fun a => Fin.ext (by
    match a with
    | ⟨0, _⟩ => exact mm_nn_256x32_lhs_n _ _
    | ⟨1, _⟩ => exact (mm_nn_256x32_lhs_c _ _).trans hk)
  have er : (dot_S256x256_S256x32_S256x32_1_0_0_1_n_n).rhsIdx (ix2 p q) ((contrEquiv1 dot_S256x256_S256x32_S256x32_1_0_0_1_n_n 256 rfl rfl).symm k) = ix2 k q := funext fun a => Fin.ext (by
    match a with
    | ⟨0, _⟩ => exact (mm_nn_256x32_rhs_c _ _).trans hk
    | ⟨1, _⟩ => exact mm_nn_256x32_rhs_n _ _)
  rw [el, er]

theorem mm_tn_32x32_lhs_n (i : S32x32.Idx) (r : (dot_S256x32_S256x32_S32x32_0_0_1_1_n_n).contr.Idx) :
    ((dot_S256x32_S256x32_S32x32_0_0_1_1_n_n).lhsIdx i r 1).val = (i 0).val := by
  unfold DotDims.lhsIdx
  rw [dif_neg (show ¬(1 : Fin S256x32.rank) ∈ (dot_S256x32_S256x32_S32x32_0_0_1_1_n_n).lhsBatch by decide), dif_pos (show (1 : Fin S256x32.rank) ∈ (dot_S256x32_S256x32_S32x32_0_0_1_1_n_n).lhsNonContracting by decide)]
  rfl
theorem mm_tn_32x32_lhs_c (i : S32x32.Idx) (r : (dot_S256x32_S256x32_S32x32_0_0_1_1_n_n).contr.Idx) :
    ((dot_S256x32_S256x32_S32x32_0_0_1_1_n_n).lhsIdx i r 0).val = (r ⟨0, by decide⟩).val :=
  (dot_S256x32_S256x32_S32x32_0_0_1_1_n_n).lhsIdx_val_of_single rfl i r
theorem mm_tn_32x32_rhs_c (i : S32x32.Idx) (r : (dot_S256x32_S256x32_S32x32_0_0_1_1_n_n).contr.Idx) :
    ((dot_S256x32_S256x32_S32x32_0_0_1_1_n_n).rhsIdx i r 0).val = (r ⟨0, by decide⟩).val :=
  (dot_S256x32_S256x32_S32x32_0_0_1_1_n_n).rhsIdx_val_of_single rfl i r
theorem mm_tn_32x32_rhs_n (i : S32x32.Idx) (r : (dot_S256x32_S256x32_S32x32_0_0_1_1_n_n).contr.Idx) :
    ((dot_S256x32_S256x32_S32x32_0_0_1_1_n_n).rhsIdx i r 1).val = (i 1).val := by
  unfold DotDims.rhsIdx
  rw [dif_neg (show ¬(1 : Fin S256x32.rank) ∈ (dot_S256x32_S256x32_S32x32_0_0_1_1_n_n).rhsBatch by decide), dif_pos (show (1 : Fin S256x32.rank) ∈ (dot_S256x32_S256x32_S32x32_0_0_1_1_n_n).rhsNonContracting by decide)]
  rfl
theorem mm_tn_32x32 {φ₁ φ₂ : FTy} (x : FVec Ideal S256x32 φ₁) (y : FVec Ideal S256x32 φ₂) (p : Fin 32) (q : Fin 32) :
    matmul dot_S256x32_S256x32_S32x32_0_0_1_1_n_n none x y (constant (F := Ideal) S32x32 .f32 0x00000000#32) (ix2 p q)
      = ∑ k : Fin 256, x (ix2 k p) * y (ix2 k q) := by
  simp only [matmul]
  rw [Ideal.matmul_constant_zero_apply, ← Equiv.sum_comp (contrEquiv1 dot_S256x32_S256x32_S32x32_0_0_1_1_n_n 256 rfl rfl).symm]
  refine Finset.sum_congr rfl fun k _ => ?_
  have hk := contrEquiv1_symm_val dot_S256x32_S256x32_S32x32_0_0_1_1_n_n 256 rfl rfl k
  have el : (dot_S256x32_S256x32_S32x32_0_0_1_1_n_n).lhsIdx (ix2 p q) ((contrEquiv1 dot_S256x32_S256x32_S32x32_0_0_1_1_n_n 256 rfl rfl).symm k) = ix2 k p := funext fun a => Fin.ext (by
    match a with
    | ⟨0, _⟩ => exact (mm_tn_32x32_lhs_c _ _).trans hk
    | ⟨1, _⟩ => exact mm_tn_32x32_lhs_n _ _)
  have er : (dot_S256x32_S256x32_S32x32_0_0_1_1_n_n).rhsIdx (ix2 p q) ((contrEquiv1 dot_S256x32_S256x32_S32x32_0_0_1_1_n_n 256 rfl rfl).symm k) = ix2 k q := funext fun a => Fin.ext (by
    match a with
    | ⟨0, _⟩ => exact (mm_tn_32x32_rhs_c _ _).trans hk
    | ⟨1, _⟩ => exact mm_tn_32x32_rhs_n _ _)
  rw [el, er]

/-! ## The shape cast `[32, 32] → [1, 32, 32]` -/

theorem addUnit_at (v : FVec Ideal S32x32 .f32) (c d : Fin 32) :
    shapeCast S1x32x32 v shapeCasts_S32x32_S1x32x32 (ix3 (0 : Fin 1) c d) = v (ix2 c d) := by
  refine (shapeCast_addUnit_apply ![32, 32] v shapeCasts_S32x32_S1x32x32 (ix3 (0 : Fin 1) c d)).trans ?_
  exact congrArg v (funext fun a => by match a with | ⟨0, _⟩ => rfl | ⟨1, _⟩ => rfl)

/-! ## The coarse features `Sᵀ Z` of the four graphs -/

theorem pay4_at (v0 : Vec Ideal S256x32 .f32) (v2 : Vec Ideal S256x64 .f32) (c : Fin 32) (f : Fin 64) :
    k1_pay4 v0 v2 (ix2 c f) = ∑ n : Fin 256, v0 (ix2 n c) * v2 (ix2 n f) := by
  unfold k1_pay4
  refine (mm_tn_32x64 _ _ c f).trans ?_
  refine Finset.sum_congr rfl fun n _ => ?_
  unfold k1_pay3 k1_pay2
  simp only [shapeCast_self, truncf_apply]

theorem pay8_at (v0 : Vec Ideal S256x32 .f32) (v2 : Vec Ideal S256x64 .f32) (c : Fin 32) (f : Fin 64) :
    k1_pay8 v0 v2 (ix2 c f) = ∑ n : Fin 256, v0 (ix2 n c) * v2 (ix2 n f) := by
  unfold k1_pay8
  refine (mm_tn_32x64 _ _ c f).trans ?_
  refine Finset.sum_congr rfl fun n _ => ?_
  unfold k1_pay7 k1_pay6
  simp only [shapeCast_self, truncf_apply]

theorem pay13_at (v0 : Vec Ideal S256x32 .f32) (v2 : Vec Ideal S256x64 .f32) (c : Fin 32) (f : Fin 64) :
    k1_pay13 v0 v2 (ix2 c f) = ∑ n : Fin 256, v0 (ix2 n c) * v2 (ix2 n f) := by
  unfold k1_pay13
  refine (mm_tn_32x64 _ _ c f).trans ?_
  refine Finset.sum_congr rfl fun n _ => ?_
  unfold k1_pay12 k1_pay11
  simp only [shapeCast_self, truncf_apply]

theorem pay17_at (v0 : Vec Ideal S256x32 .f32) (v2 : Vec Ideal S256x64 .f32) (c : Fin 32) (f : Fin 64) :
    k1_pay17 v0 v2 (ix2 c f) = ∑ n : Fin 256, v0 (ix2 n c) * v2 (ix2 n f) := by
  unfold k1_pay17
  refine (mm_tn_32x64 _ _ c f).trans ?_
  refine Finset.sum_congr rfl fun n _ => ?_
  unfold k1_pay16 k1_pay15
  simp only [shapeCast_self, truncf_apply]

/-! ## The coarse adjacency `Sᵀ (A S)` of the four graphs -/

theorem pay5_at (v0 : Vec Ideal S256x32 .f32) (v4 : Vec Ideal S256x256 .f32) (c d : Fin 32) :
    k1_pay5 v0 v4 (ix3 (0 : Fin 1) c d) = ∑ n : Fin 256, v0 (ix2 n c) * (∑ k : Fin 256, v4 (ix2 n k) * v0 (ix2 k d)) := by
  unfold k1_pay5
  refine (addUnit_at _ c d).trans ?_
  refine (mm_tn_32x32 _ _ c d).trans ?_
  refine Finset.sum_congr rfl fun n _ => ?_
  refine (congrArg (_ * ·) (mm_nn_256x32 _ _ n d)).trans ?_
  unfold k1_pay3 k1_pay2
  simp only [shapeCast_self, truncf_apply]

theorem pay14_at (v0 : Vec Ideal S256x32 .f32) (v4 : Vec Ideal S256x256 .f32) (c d : Fin 32) :
    k1_pay14 v0 v4 (ix3 (0 : Fin 1) c d) = ∑ n : Fin 256, v0 (ix2 n c) * (∑ k : Fin 256, v4 (ix2 n k) * v0 (ix2 k d)) := by
  unfold k1_pay14
  refine (addUnit_at _ c d).trans ?_
  refine (mm_tn_32x32 _ _ c d).trans ?_
  refine Finset.sum_congr rfl fun n _ => ?_
  refine (congrArg (_ * ·) (mm_nn_256x32 _ _ n d)).trans ?_
  unfold k1_pay12 k1_pay11
  simp only [shapeCast_self, truncf_apply]

theorem pay9_at2 (v0 : Vec Ideal S256x32 .f32) (v4 : Vec Ideal S256x256 .f32) (c d : Fin 32) :
    k1_pay9 v0 v4 (ix2 c d) = ∑ n : Fin 256, v0 (ix2 n c) * (∑ k : Fin 256, v4 (ix2 n k) * v0 (ix2 k d)) := by
  unfold k1_pay9
  refine (mm_tn_32x32 _ _ c d).trans ?_
  refine Finset.sum_congr rfl fun n _ => ?_
  refine (congrArg (_ * ·) (mm_nn_256x32 _ _ n d)).trans ?_
  unfold k1_pay7 k1_pay6
  simp only [shapeCast_self, truncf_apply]

theorem pay18_at2 (v0 : Vec Ideal S256x32 .f32) (v4 : Vec Ideal S256x256 .f32) (c d : Fin 32) :
    k1_pay18 v0 v4 (ix2 c d) = ∑ n : Fin 256, v0 (ix2 n c) * (∑ k : Fin 256, v4 (ix2 n k) * v0 (ix2 k d)) := by
  unfold k1_pay18
  refine (mm_tn_32x32 _ _ c d).trans ?_
  refine Finset.sum_congr rfl fun n _ => ?_
  refine (congrArg (_ * ·) (mm_nn_256x32 _ _ n d)).trans ?_
  unfold k1_pay16 k1_pay15
  simp only [shapeCast_self, truncf_apply]

theorem pay10_at (v15 : Vec Ideal S256x32 .f32) (v19 : Vec Ideal S256x256 .f32) (c d : Fin 32) :
    k1_pay10 (k1_pay9 v15 v19) (ix3 (0 : Fin 1) c d)
      = ∑ n : Fin 256, v15 (ix2 n c) * (∑ k : Fin 256, v19 (ix2 n k) * v15 (ix2 k d)) := by
  unfold k1_pay10
  exact (addUnit_at _ c d).trans (pay9_at2 v15 v19 c d)

theorem pay1_at (v45 : Vec Ideal S256x32 .f32) (v49 : Vec Ideal S256x256 .f32) (c d : Fin 32) :
    k1_pay1 (k1_pay18 v45 v49) (ix3 (0 : Fin 1) c d)
      = ∑ n : Fin 256, v45 (ix2 n c) * (∑ k : Fin 256, v49 (ix2 n k) * v45 (ix2 k d)) := by
  unfold k1_pay1
  exact (addUnit_at _ c d).trans (pay18_at2 v45 v49 c d)

end Cert.KernelIdeal.Pay

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.KI.Val1A.lean ====
/-
  What one grid point of the per-graph coarsening leaves in its two output blocks, as one function of the block index.

  A point handles four graphs. Into the 128 × 64 coarse-feature block it stores four 32 × 64 slabs: slab `j` is
  `Sⱼᵀ Zⱼ`, the sum over the 256 rows `256 j + n` of the point's blocks of the two node matrices. Into the 4 × 32 × 32
  coarse-adjacency block it stores four 1 × 32 × 32 slabs: slab `j` is `Sⱼᵀ (Aⱼ Sⱼ)`, where `Aⱼ` is the 256 × 256 sub-block
  at `(256 j, 256 j)` of the point's block of the propagation matrix. Each slab's payload, read at an index, is the
  corresponding sum; the slabs tile the block, so the block read back is one function of its index.
-/
import proofs.«124585_j89764816486779_2_alg».proof.Proof.KI.R1
import proofs.«124585_j89764816486779_2_alg».proof.Proof.KI.Pay1
import proofs.«124585_j89764816486779_2_alg».proof.Proof.Spec
import proofs.«124585_j89764816486779_2_alg».proof.Proof.LibRowDots
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem Idealize.ShloMosaic.ValueIdx
open Idealize.ShloMosaic.RowDots
open Idealize.ShloMosaic.Pipeline (Dat)

/-- The coarse features of the four graphs of one point, from the point's blocks of the two node matrices: row
    `32 j + c` is graph `j`'s column `c`, a sum over the graph's 256 rows `256 j + n`. -/
def g3 (x0 : S1024x32.Idx → EReal) (x1 : S1024x64.Idx → EReal) (r : Fin 128) (f : Fin 64) : EReal :=
  ∑ n : Fin 256, x0 (ix2 (⟨r.val / 32 * 256 + n.val, by omega⟩ : Fin 1024) (⟨r.val % 32, by omega⟩ : Fin 32))
    * x1 (ix2 (⟨r.val / 32 * 256 + n.val, by omega⟩ : Fin 1024) f)

/-- The same as a function of the block's index. -/
def G3 (x0 : S1024x32.Idx → EReal) (x1 : S1024x64.Idx → EReal) : S128x64.Idx → EReal :=
  fun y => g3 x0 x1 ⟨(y 0).val, idx2_lt0 y⟩ ⟨(y 1).val, idx2_lt1 y⟩

/-- The coarse-feature block a point leaves is `G3` of the point's input blocks. -/
theorem out1_3_eq (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec Ideal S1024x32 .f32) (x1 : Vec Ideal S1024x64 .f32) (x2 : Vec Ideal S1024x1024 .f32) :
    out1_3 (F := Ideal) c i arg1 harg1 arg2 harg2 arg3 harg3 arg4 harg4 arg5 harg5 x0 x1 x2 = G3 x0 x1 := by
  funext y
  unfold out1_3
  rw [View.read_writes_junk_eq_canon]
  refine View.canon_apply_of_pieces (G3 x0 x1) _ ?_ y (cover1_3 c i arg1 harg1 arg2 harg2 arg3 harg3 arg4 harg4 arg5 harg5 x0 x1 x2 y)
  unfold kernelRun1
  dsimp only
  try sl_unfold_words
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨p, q, rfl⟩ : ∃ (p : Fin 32) (q : Fin 64), x = ix2 p q := ⟨x 0, x 1, eq_ix2 x⟩
    refine (Pay.pay17_at _ _ p q).trans ?_
    simp only [View.readAt_eq_ld, harg1.read_unread, harg2.read_unread]
    unfold G3 g3
    refine Finset.sum_congr rfl fun n _ => ?_
    refine congrArg₂ (· * ·) (congrArg x0 (idx2_ext _ _ _ ?_ ?_)) (congrArg x1 (idx2_ext _ _ _ ?_ ?_))
    · have := p.isLt; show 768 + 1 * n.val = (96 + 1 * p.val) / 32 * 256 + n.val; omega
    · have := p.isLt; show 0 + 1 * p.val = (96 + 1 * p.val) % 32; omega
    · have := p.isLt; show 768 + 1 * n.val = (96 + 1 * p.val) / 32 * 256 + n.val; omega
    · show 0 + 1 * q.val = 0 + 1 * q.val; rfl
  · intro x
    obtain ⟨p, q, rfl⟩ : ∃ (p : Fin 32) (q : Fin 64), x = ix2 p q := ⟨x 0, x 1, eq_ix2 x⟩
    refine (Pay.pay13_at _ _ p q).trans ?_
    simp only [View.readAt_eq_ld, harg1.read_unread, harg2.read_unread]
    unfold G3 g3
    refine Finset.sum_congr rfl fun n _ => ?_
    refine congrArg₂ (· * ·) (congrArg x0 (idx2_ext _ _ _ ?_ ?_)) (congrArg x1 (idx2_ext _ _ _ ?_ ?_))
    · have := p.isLt; show 512 + 1 * n.val = (64 + 1 * p.val) / 32 * 256 + n.val; omega
    · have := p.isLt; show 0 + 1 * p.val = (64 + 1 * p.val) % 32; omega
    · have := p.isLt; show 512 + 1 * n.val = (64 + 1 * p.val) / 32 * 256 + n.val; omega
    · show 0 + 1 * q.val = 0 + 1 * q.val; rfl
  · intro x
    obtain ⟨p, q, rfl⟩ : ∃ (p : Fin 32) (q : Fin 64), x = ix2 p q := ⟨x 0, x 1, eq_ix2 x⟩
    refine (Pay.pay8_at _ _ p q).trans ?_
    simp only [View.readAt_eq_ld, harg1.read_unread, harg2.read_unread]
    unfold G3 g3
    refine Finset.sum_congr rfl fun n _ => ?_
    refine congrArg₂ (· * ·) (congrArg x0 (idx2_ext _ _ _ ?_ ?_)) (congrArg x1 (idx2_ext _ _ _ ?_ ?_))
    · have := p.isLt; show 256 + 1 * n.val = (32 + 1 * p.val) / 32 * 256 + n.val; omega
    · have := p.isLt; show 0 + 1 * p.val = (32 + 1 * p.val) % 32; omega
    · have := p.isLt; show 256 + 1 * n.val = (32 + 1 * p.val) / 32 * 256 + n.val; omega
    · show 0 + 1 * q.val = 0 + 1 * q.val; rfl
  · intro x
    obtain ⟨p, q, rfl⟩ : ∃ (p : Fin 32) (q : Fin 64), x = ix2 p q := ⟨x 0, x 1, eq_ix2 x⟩
    refine (Pay.pay4_at _ _ p q).trans ?_
    simp only [View.readAt_eq_ld, harg1.read_unread, harg2.read_unread]
    unfold G3 g3
    refine Finset.sum_congr rfl fun n _ => ?_
    refine congrArg₂ (· * ·) (congrArg x0 (idx2_ext _ _ _ ?_ ?_)) (congrArg x1 (idx2_ext _ _ _ ?_ ?_))
    · have := p.isLt; show 0 + 1 * n.val = (0 + 1 * p.val) / 32 * 256 + n.val; omega
    · have := p.isLt; show 0 + 1 * p.val = (0 + 1 * p.val) % 32; omega
    · have := p.isLt; show 0 + 1 * n.val = (0 + 1 * p.val) / 32 * 256 + n.val; omega
    · show 0 + 1 * q.val = 0 + 1 * q.val; rfl

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The coarse adjacency of the four graphs of one point, from the point's blocks of the first node matrix and of the
    propagation matrix: graph `j` reads rows `256 j + n` and the diagonal sub-block at `(256 j, 256 j)`; the sum over the
    row node is outermost. -/
def g4 (x0 : S1024x32.Idx → EReal) (x2 : S1024x1024.Idx → EReal) (j : Fin 4) (c d : Fin 32) : EReal :=
  ∑ n : Fin 256, x0 (ix2 (⟨j.val * 256 + n.val, by omega⟩ : Fin 1024) c)
    * ∑ k : Fin 256, x2 (ix2 (⟨j.val * 256 + n.val, by omega⟩ : Fin 1024) (⟨j.val * 256 + k.val, by omega⟩ : Fin 1024))
        * x0 (ix2 (⟨j.val * 256 + k.val, by omega⟩ : Fin 1024) d)

/-- The same as a function of the block's index. -/
def G4 (x0 : S1024x32.Idx → EReal) (x2 : S1024x1024.Idx → EReal) : S4x32x32.Idx → EReal :=
  fun y => g4 x0 x2 ⟨(y 0).val, idx3_lt0 y⟩ ⟨(y 1).val, idx3_lt1 y⟩ ⟨(y 2).val, idx3_lt2 y⟩

/-- The coarse-adjacency block a point leaves is `G4` of the point's input blocks. -/
theorem out1_4_eq (c : Dev nD) (i : grid1.Coords) (arg1 : Memref sig .tc .vmem S1024x32 .f32) (harg1 : arg1.IsWhole) (arg2 : Memref sig .tc .vmem S1024x64 .f32) (harg2 : arg2.IsWhole) (arg3 : Memref sig .tc .vmem S1024x1024 .f32) (harg3 : arg3.IsWhole) (arg4 : Memref sig .tc .vmem S128x64 .f32) (harg4 : arg4.IsWhole) (arg5 : Memref sig .tc .vmem S4x32x32 .f32) (harg5 : arg5.IsWhole) (x0 : Vec Ideal S1024x32 .f32) (x1 : Vec Ideal S1024x64 .f32) (x2 : Vec Ideal S1024x1024 .f32) :
    out1_4 (F := Ideal) c i arg1 harg1 arg2 harg2 arg3 harg3 arg4 harg4 arg5 harg5 x0 x1 x2 = G4 x0 x2 := by
  funext y
  unfold out1_4
  rw [View.read_writes_junk_eq_canon]
  refine View.canon_apply_of_pieces (G4 x0 x2) _ ?_ y (cover1_4 c i arg1 harg1 arg2 harg2 arg3 harg3 arg4 harg4 arg5 harg5 x0 x1 x2 y)
  unfold kernelRun1
  dsimp only
  try sl_unfold_words
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨z, p, q, rfl⟩ : ∃ (z : Fin 1) (p q : Fin 32), x = ix3 z p q := ⟨x 0, x 1, x 2, eq_ix3 x⟩
    obtain rfl : z = 0 := Subsingleton.elim _ _
    refine (Pay.pay1_at _ _ p q).trans ?_
    simp only [View.readAt_eq_ld, harg1.read_unread, harg3.read_unread]
    unfold G4 g4
    refine Finset.sum_congr rfl fun n _ => ?_
    refine congrArg₂ (· * ·) (congrArg x0 (idx2_ext _ _ _ ?_ ?_)) (Finset.sum_congr rfl fun k _ => ?_)
    · show 768 + 1 * n.val = (3 + 1 * 0) * 256 + n.val; omega
    · show 0 + 1 * p.val = 0 + 1 * p.val; rfl
    refine congrArg₂ (· * ·) (congrArg x2 (idx2_ext _ _ _ ?_ ?_)) (congrArg x0 (idx2_ext _ _ _ ?_ ?_))
    · show 768 + 1 * n.val = (3 + 1 * 0) * 256 + n.val; omega
    · show 768 + 1 * k.val = (3 + 1 * 0) * 256 + k.val; omega
    · show 768 + 1 * k.val = (3 + 1 * 0) * 256 + k.val; omega
    · show 0 + 1 * q.val = 0 + 1 * q.val; rfl
  · intro x
    obtain ⟨z, p, q, rfl⟩ : ∃ (z : Fin 1) (p q : Fin 32), x = ix3 z p q := ⟨x 0, x 1, x 2, eq_ix3 x⟩
    obtain rfl : z = 0 := Subsingleton.elim _ _
    refine (Pay.pay14_at _ _ p q).trans ?_
    simp only [View.readAt_eq_ld, harg1.read_unread, harg3.read_unread]
    unfold G4 g4
    refine Finset.sum_congr rfl fun n _ => ?_
    refine congrArg₂ (· * ·) (congrArg x0 (idx2_ext _ _ _ ?_ ?_)) (Finset.sum_congr rfl fun k _ => ?_)
    · show 512 + 1 * n.val = (2 + 1 * 0) * 256 + n.val; omega
    · show 0 + 1 * p.val = 0 + 1 * p.val; rfl
    refine congrArg₂ (· * ·) (congrArg x2 (idx2_ext _ _ _ ?_ ?_)) (congrArg x0 (idx2_ext _ _ _ ?_ ?_))
    · show 512 + 1 * n.val = (2 + 1 * 0) * 256 + n.val; omega
    · show 512 + 1 * k.val = (2 + 1 * 0) * 256 + k.val; omega
    · show 512 + 1 * k.val = (2 + 1 * 0) * 256 + k.val; omega
    · show 0 + 1 * q.val = 0 + 1 * q.val; rfl
  · intro x
    obtain ⟨z, p, q, rfl⟩ : ∃ (z : Fin 1) (p q : Fin 32), x = ix3 z p q := ⟨x 0, x 1, x 2, eq_ix3 x⟩
    obtain rfl : z = 0 := Subsingleton.elim _ _
    refine (Pay.pay10_at _ _ p q).trans ?_
    simp only [View.readAt_eq_ld, harg1.read_unread, harg3.read_unread]
    unfold G4 g4
    refine Finset.sum_congr rfl fun n _ => ?_
    refine congrArg₂ (· * ·) (congrArg x0 (idx2_ext _ _ _ ?_ ?_)) (Finset.sum_congr rfl fun k _ => ?_)
    · show 256 + 1 * n.val = (1 + 1 * 0) * 256 + n.val; omega
    · show 0 + 1 * p.val = 0 + 1 * p.val; rfl
    refine congrArg₂ (· * ·) (congrArg x2 (idx2_ext _ _ _ ?_ ?_)) (congrArg x0 (idx2_ext _ _ _ ?_ ?_))
    · show 256 + 1 * n.val = (1 + 1 * 0) * 256 + n.val; omega
    · show 256 + 1 * k.val = (1 + 1 * 0) * 256 + k.val; omega
    · show 256 + 1 * k.val = (1 + 1 * 0) * 256 + k.val; omega
    · show 0 + 1 * q.val = 0 + 1 * q.val; rfl
  · intro x
    obtain ⟨z, p, q, rfl⟩ : ∃ (z : Fin 1) (p q : Fin 32), x = ix3 z p q := ⟨x 0, x 1, x 2, eq_ix3 x⟩
    obtain rfl : z = 0 := Subsingleton.elim _ _
    refine (Pay.pay5_at _ _ p q).trans ?_
    simp only [View.readAt_eq_ld, harg1.read_unread, harg3.read_unread]
    unfold G4 g4
    refine Finset.sum_congr rfl fun n _ => ?_
    refine congrArg₂ (· * ·) (congrArg x0 (idx2_ext _ _ _ ?_ ?_)) (Finset.sum_congr rfl fun k _ => ?_)
    · show 0 + 1 * n.val = (0 + 1 * 0) * 256 + n.val; omega
    · show 0 + 1 * p.val = 0 + 1 * p.val; rfl
    refine congrArg₂ (· * ·) (congrArg x2 (idx2_ext _ _ _ ?_ ?_)) (congrArg x0 (idx2_ext _ _ _ ?_ ?_))
    · show 0 + 1 * n.val = (0 + 1 * 0) * 256 + n.val; omega
    · show 0 + 1 * k.val = (0 + 1 * 0) * 256 + k.val; omega
    · show 0 + 1 * k.val = (0 + 1 * 0) * 256 + k.val; omega
    · show 0 + 1 * q.val = 0 + 1 * q.val; rfl

end Cert.KernelIdeal.Val

end
-- ==== Proof.KI.Val1B.lean ====
/-
  The two arrays the per-graph coarsening leaves, index by index, from the arrays the region is entered with.

  Grid point `t` handles graphs `4 t … 4 t + 3`. Its blocks of the two node matrices are rows `1024 t …`, its block of the
  propagation matrix is the diagonal block at `(1024 t, 1024 t)`, and it writes back rows `128 t …` of the coarse
  features and blocks `4 t …` of the coarse adjacency. An element of a block sits in its array at block index × block
  size + its coordinate, so what point `t` writes back is block `t` of ONE function of the entry arrays; the blocks
  cover both output arrays (row `r` is written by point `r / 128`, graph `g` by point `g / 4`), so the arrays end at
  that function: graph `g`'s `Sᵀ Z` and `Sᵀ (A_g S)` over its 256 nodes `256 g + n`.
-/
import proofs.«124585_j89764816486779_2_alg».proof.Proof.KI.Val1A

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem Idealize.ShloMosaic.ValueIdx
open Idealize.ShloMosaic.RowDots
open Idealize.ShloMosaic.Pipeline (Dat)

variable (V : (c : Dev nD) → (b : Ref sig .tc) → Buf (Elt Ideal) ((c : Thread nD τ).loc b))

/-- The block index of each window at point `t`: the three row-blocked windows and the two outputs move with `t` along
    axis 0 and stay at 0 elsewhere; the propagation matrix's window is the diagonal block `(t, t)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = t.val
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

theorem lt8 (t : Fin cfg1.N) : t.val < 8 := lt_of_lt_of_eq t.isLt N_1

/-! ## The input blocks, read where their rectangles say -/

theorem iblk1_0_at (c : Dev nD) (t : Fin cfg1.N) (r : Fin 1024) (cc : Fin 32) (k : Fin 8192) (kc : Fin 32)
    (h0 : k.val = t.val * 1024 + r.val) (h1 : kc.val = cc.val) :
    (iblk1 (F := Ideal) V c 0 t : S1024x32.Idx → EReal) (ix2 r cc) = (V c main_v3 : S8192x32.Idx → EReal) (ix2 k kc) := by
  show (V c main_v3 : S8192x32.Idx → EReal) (((cfg1.win 0).blk t).view.emb (ix2 r cc)) = _
  refine congrArg (V c main_v3 : S8192x32.Idx → EReal) (idx2_ext _ _ _ ?_ ?_)
  · show win1_0.index t (0 : Fin 2) * 1024 + 1 * r.val = k.val; rw [(idx_facts1 t).1, h0]; omega
  · show win1_0.index t (1 : Fin 2) * 32 + 1 * cc.val = kc.val; rw [(idx_facts1 t).2.1, h1]; omega

theorem iblk1_1_at (c : Dev nD) (t : Fin cfg1.N) (r : Fin 1024) (f : Fin 64) (k : Fin 8192) (kf : Fin 64)
    (h0 : k.val = t.val * 1024 + r.val) (h1 : kf.val = f.val) :
    (iblk1 (F := Ideal) V c 1 t : S1024x64.Idx → EReal) (ix2 r f) = (V c main_v4 : S8192x64.Idx → EReal) (ix2 k kf) := by
  show (V c main_v4 : S8192x64.Idx → EReal) (((cfg1.win 1).blk t).view.emb (ix2 r f)) = _
  refine congrArg (V c main_v4 : S8192x64.Idx → EReal) (idx2_ext _ _ _ ?_ ?_)
  · show win1_1.index t (0 : Fin 2) * 1024 + 1 * r.val = k.val; rw [(idx_facts1 t).2.2.1, h0]; omega
  · show win1_1.index t (1 : Fin 2) * 64 + 1 * f.val = kf.val; rw [(idx_facts1 t).2.2.2.1, h1]; omega

theorem iblk1_2_at (c : Dev nD) (t : Fin cfg1.N) (r s : Fin 1024) (k l : Fin 8192)
    (h0 : k.val = t.val * 1024 + r.val) (h1 : l.val = t.val * 1024 + s.val) :
    (iblk1 (F := Ideal) V c 2 t : S1024x1024.Idx → EReal) (ix2 r s) = (V c main_arg0 : S8192x8192.Idx → EReal) (ix2 k l) := by
  show (V c main_arg0 : S8192x8192.Idx → EReal) (((cfg1.win 2).blk t).view.emb (ix2 r s)) = _
  refine congrArg (V c main_arg0 : S8192x8192.Idx → EReal) (idx2_ext _ _ _ ?_ ?_)
  · show win1_2.index t (0 : Fin 2) * 1024 + 1 * r.val = k.val; rw [(idx_facts1 t).2.2.2.2.1, h0]; omega
  · show win1_2.index t (1 : Fin 2) * 1024 + 1 * s.val = l.val; rw [(idx_facts1 t).2.2.2.2.2.1, h1]; omega

/-! ## The coarse features: the whole array -/

/-- Row `r` of the coarse-feature array belongs to graph `r / 32` and is its column `r % 32`. -/
def garr3 (a3 : S8192x32.Idx → EReal) (a4 : S8192x64.Idx → EReal) (r : Fin 1024) (f : Fin 64) : EReal :=
  ∑ n : Fin 256, a3 (ix2 (⟨r.val / 32 * 256 + n.val, by omega⟩ : Fin 8192) (⟨r.val % 32, by omega⟩ : Fin 32))
    * a4 (ix2 (⟨r.val / 32 * 256 + n.val, by omega⟩ : Fin 8192) f)

def Garr3 (a3 : S8192x32.Idx → EReal) (a4 : S8192x64.Idx → EReal) : S1024x64.Idx → EReal :=
  fun i => garr3 a3 a4 ⟨(i 0).val, idx2_lt0 i⟩ ⟨(i 1).val, idx2_lt1 i⟩

/-- What point `t` writes back to the coarse-feature array is block `t` of `Garr3`. -/
theorem flushed3_eq (c : Dev nD) (t : Fin cfg1.N) :
    (dat1 (F := Ideal) V c).flushed 3 t
      = ((cfg1.win 3).blk t).view.read (Elt Ideal) (Garr3 (V c main_v3) (V c main_v4)) := by
  show (cfg1.win 3).cut (grid1.coords t) ((dat1 (F := Ideal) V c).after 3 t) = _
  rw [after1_3]
  unfold outAt1_3
  funext y
  have ht := lt8 t
  have hy0 : (y 0).val < 128 := (y 0).isLt
  have e0 : (((cfg1.win 3).blk t).view.emb y 0).val = t.val * 128 + (y 0).val := by
    show win1_3.index t (0 : Fin 2) * 128 + 1 * (y 0).val = _
    rw [(idx_facts1 t).2.2.2.2.2.2.1]; omega
  have e1 : (((cfg1.win 3).blk t).view.emb y 1).val = (y 1).val := by
    show win1_3.index t (1 : Fin 2) * 64 + 1 * (y 1).val = _
    rw [(idx_facts1 t).2.2.2.2.2.2.2.1]; omega
  show out1_3 (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) y
    = Garr3 (V c main_v3) (V c main_v4) (((cfg1.win 3).blk t).view.emb y)
  refine (congrFun (out1_3_eq c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)) y).trans ?_
  unfold G3 g3 Garr3 garr3
  refine Finset.sum_congr rfl fun n _ => ?_
  refine congrArg₂ (· * ·) (iblk1_0_at V c t _ _ _ _ ?_ ?_) (iblk1_1_at V c t _ _ _ _ ?_ ?_)
  · show (((cfg1.win 3).blk t).view.emb y 0).val / 32 * 256 + n.val = t.val * 1024 + ((y 0).val / 32 * 256 + n.val)
    rw [e0]; omega
  · show (((cfg1.win 3).blk t).view.emb y 0).val % 32 = (y 0).val % 32
    rw [e0]; omega
  · show (((cfg1.win 3).blk t).view.emb y 0).val / 32 * 256 + n.val = t.val * 1024 + ((y 0).val / 32 * 256 + n.val)
    rw [e0]; omega
  · exact e1

/-- An index of the coarse-feature array is in point `t`'s block iff each coordinate is in the block's range. -/
theorem mem_blk3 (t : Fin cfg1.N) (i : S1024x64.Idx) :
    i ∈ ((cfg1.win 3).blk t).view.set ↔ ∀ a : Fin 2, win1_3.index t a * S128x64.size a ≤ (i a).val ∧ (i a).val < win1_3.index t a * S128x64.size a + S128x64.size a := by
  show i ∈ ((View.whole main_v5_0).slice (win1_3.rect t)).set ↔ _
  rw [View.set_slice_whole, Rect.mem_set_unit]
  exact Iff.rfl

/-- Row `r` is in the block of point `r / 128`. -/
theorem cover3 (i : S1024x64.Idx) :
    ∃ t : Fin cfg1.N, (cfg1.win 3).flush t = true ∧ i ∈ ((cfg1.win 3).blk t).view.set := by
  have h0 : (i 0).val < 1024 := idx2_lt0 i
  have h1 : (i 1).val < 64 := idx2_lt1 i
  have hN : cfg1.N = 8 := N_1
  let t : Fin cfg1.N := ⟨(i 0).val / 128, by rw [hN]; omega⟩
  have htv : t.val = (i 0).val / 128 := rfl
  refine ⟨t, flush1_3 t, ?_⟩
  rw [mem_blk3]
  have e30 := (idx_facts1 t).2.2.2.2.2.2.1
  have e31 := (idx_facts1 t).2.2.2.2.2.2.2.1
  intro a
  match a with
  | ⟨0, _⟩ => show win1_3.index t (0 : Fin 2) * 128 ≤ (i 0).val ∧ (i 0).val < win1_3.index t (0 : Fin 2) * 128 + 128; rw [e30, htv]; omega
  | ⟨1, _⟩ => show win1_3.index t (1 : Fin 2) * 64 ≤ (i 1).val ∧ (i 1).val < win1_3.index t (1 : Fin 2) * 64 + 64; rw [e31]; omega

/-- The coarse-feature array after the region. -/
theorem arr3 (c : Dev nD) : (dat1 (F := Ideal) V c).arrAt 3 cfg1.N = Garr3 (V c main_v3) (V c main_v4) :=
  (dat1 (F := Ideal) V c).arrAt_eq_of_cover 3 (Garr3 (V c main_v3) (V c main_v4)) (fun t _ => flushed3_eq V c t) cover3

/-- A rank-2 array as a function of its row and its column. -/
abbrev mat {a b : ℕ} (x : (⟨2, ![a, b]⟩ : Shape).Idx → EReal) : Fin a → Fin b → EReal := fun r j => x (ix2 r j)

/-- The coarse-feature array after the region, at row `32 g + c`: graph `g`'s `Sᵀ Z`. -/
theorem r1_cx (c : Dev nD) (g cc : Fin 32) (f : Fin 64) :
    ((dat1 (F := Ideal) V c).arrAt 3 cfg1.N : S1024x64.Idx → EReal) (ix2 (⟨g.val * 32 + cc.val, by omega⟩ : Fin 1024) f)
      = ∑ n : Fin 256, mat (a := 8192) (b := 32) (V c main_v3) (Cert.Spec.node g n) cc
          * mat (a := 8192) (b := 64) (V c main_v4) (Cert.Spec.node g n) f := by
  have h : Garr3 (V c main_v3) (V c main_v4) (ix2 (⟨g.val * 32 + cc.val, by omega⟩ : Fin 1024) f)
      = ∑ n : Fin 256, mat (a := 8192) (b := 32) (V c main_v3) (Cert.Spec.node g n) cc
          * mat (a := 8192) (b := 64) (V c main_v4) (Cert.Spec.node g n) f := by
    unfold Garr3 garr3
    refine Finset.sum_congr rfl fun n _ => ?_
    have := cc.isLt
    refine congrArg₂ (· * ·) (congrArg (V c main_v3 : S8192x32.Idx → EReal) (idx2_ext _ _ _ ?_ ?_))
      (congrArg (V c main_v4 : S8192x64.Idx → EReal) (idx2_ext _ _ _ ?_ rfl))
    · show (g.val * 32 + cc.val) / 32 * 256 + n.val = g.val * 256 + n.val; omega
    · show (g.val * 32 + cc.val) % 32 = cc.val; omega
    · show (g.val * 32 + cc.val) / 32 * 256 + n.val = g.val * 256 + n.val; omega
  exact (congrFun (arr3 V c) _).trans h

/-! ## The coarse adjacency: the whole array -/

/-- Graph `g`'s `Sᵀ (A_g S)`, the sum over the row node outermost. -/
def garr4 (a3 : S8192x32.Idx → EReal) (a0 : S8192x8192.Idx → EReal) (g c d : Fin 32) : EReal :=
  ∑ n : Fin 256, a3 (ix2 (Cert.Spec.node g n) c)
    * ∑ k : Fin 256, a0 (ix2 (Cert.Spec.node g n) (Cert.Spec.node g k)) * a3 (ix2 (Cert.Spec.node g k) d)

def Garr4 (a3 : S8192x32.Idx → EReal) (a0 : S8192x8192.Idx → EReal) : S32x32x32.Idx → EReal :=
  fun i => garr4 a3 a0 ⟨(i 0).val, idx3_lt0 i⟩ ⟨(i 1).val, idx3_lt1 i⟩ ⟨(i 2).val, idx3_lt2 i⟩

/-- What point `t` writes back to the coarse-adjacency array is block `t` of `Garr4`. -/
theorem flushed4_eq (c : Dev nD) (t : Fin cfg1.N) :
    (dat1 (F := Ideal) V c).flushed 4 t
      = ((cfg1.win 4).blk t).view.read (Elt Ideal) (Garr4 (V c main_v3) (V c main_arg0)) := by
  show (cfg1.win 4).cut (grid1.coords t) ((dat1 (F := Ideal) V c).after 4 t) = _
  rw [after1_4]
  unfold outAt1_4
  funext y
  have ht := lt8 t
  have hy0 : (y 0).val < 4 := (y 0).isLt
  obtain ⟨-, -, -, -, -, -, -, -, f0, f1, f2⟩ := idx_facts1 t
  have e0 : (((cfg1.win 4).blk t).view.emb y 0).val = t.val * 4 + (y 0).val := by
    show win1_4.index t (0 : Fin 3) * 4 + 1 * (y 0).val = _
    rw [f0]; omega
  have e1 : (((cfg1.win 4).blk t).view.emb y 1).val = (y 1).val := by
    show win1_4.index t (1 : Fin 3) * 32 + 1 * (y 1).val = _
    rw [f1]; omega
  have e2 : (((cfg1.win 4).blk t).view.emb y 2).val = (y 2).val := by
    show win1_4.index t (2 : Fin 3) * 32 + 1 * (y 2).val = _
    rw [f2]; omega
  show out1_4 (F := Ideal) c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) y
    = Garr4 (V c main_v3) (V c main_arg0) (((cfg1.win 4).blk t).view.emb y)
  refine (congrFun (out1_4_eq c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t)) y).trans ?_
  unfold G4 g4 Garr4 garr4
  refine Finset.sum_congr rfl fun n _ => ?_
  refine congrArg₂ (· * ·) (iblk1_0_at V c t _ _ _ _ ?_ ?_) (Finset.sum_congr rfl fun k _ =>
    congrArg₂ (· * ·) (iblk1_2_at V c t _ _ _ _ ?_ ?_) (iblk1_0_at V c t _ _ _ _ ?_ ?_))
  · show (((cfg1.win 4).blk t).view.emb y 0).val * 256 + n.val = t.val * 1024 + ((y 0).val * 256 + n.val)
    rw [e0]; omega
  · exact e1
  · show (((cfg1.win 4).blk t).view.emb y 0).val * 256 + n.val = t.val * 1024 + ((y 0).val * 256 + n.val)
    rw [e0]; omega
  · show (((cfg1.win 4).blk t).view.emb y 0).val * 256 + k.val = t.val * 1024 + ((y 0).val * 256 + k.val)
    rw [e0]; omega
  · show (((cfg1.win 4).blk t).view.emb y 0).val * 256 + k.val = t.val * 1024 + ((y 0).val * 256 + k.val)
    rw [e0]; omega
  · exact e2

/-- An index of the coarse-adjacency array is in point `t`'s block iff each coordinate is in the block's range. -/
theorem mem_blk4 (t : Fin cfg1.N) (i : S32x32x32.Idx) :
    i ∈ ((cfg1.win 4).blk t).view.set ↔ ∀ a : Fin 3, win1_4.index t a * S4x32x32.size a ≤ (i a).val ∧ (i a).val < win1_4.index t a * S4x32x32.size a + S4x32x32.size a := by
  show i ∈ ((View.whole main_v5_1).slice (win1_4.rect t)).set ↔ _
  rw [View.set_slice_whole, Rect.mem_set_unit]
  exact Iff.rfl

/-- Graph `g` is in the block of point `g / 4`. -/
theorem cover4 (i : S32x32x32.Idx) :
    ∃ t : Fin cfg1.N, (cfg1.win 4).flush t = true ∧ i ∈ ((cfg1.win 4).blk t).view.set := by
  have h0 : (i 0).val < 32 := idx3_lt0 i
  have h1 : (i 1).val < 32 := idx3_lt1 i
  have h2 : (i 2).val < 32 := idx3_lt2 i
  have hN : cfg1.N = 8 := N_1
  let t : Fin cfg1.N := ⟨(i 0).val / 4, by rw [hN]; omega⟩
  have htv : t.val = (i 0).val / 4 := rfl
  refine ⟨t, flush1_4 t, ?_⟩
  rw [mem_blk4]
  obtain ⟨-, -, -, -, -, -, -, -, f0, f1, f2⟩ := idx_facts1 t
  intro a
  match a with
  | ⟨0, _⟩ => show win1_4.index t (0 : Fin 3) * 4 ≤ (i 0).val ∧ (i 0).val < win1_4.index t (0 : Fin 3) * 4 + 4; rw [f0, htv]; omega
  | ⟨1, _⟩ => show win1_4.index t (1 : Fin 3) * 32 ≤ (i 1).val ∧ (i 1).val < win1_4.index t (1 : Fin 3) * 32 + 32; rw [f1]; omega
  | ⟨2, _⟩ => show win1_4.index t (2 : Fin 3) * 32 ≤ (i 2).val ∧ (i 2).val < win1_4.index t (2 : Fin 3) * 32 + 32; rw [f2]; omega

/-- The coarse-adjacency array after the region. -/
theorem arr4 (c : Dev nD) : (dat1 (F := Ideal) V c).arrAt 4 cfg1.N = Garr4 (V c main_v3) (V c main_arg0) :=
  (dat1 (F := Ideal) V c).arrAt_eq_of_cover 4 (Garr4 (V c main_v3) (V c main_arg0)) (fun t _ => flushed4_eq V c t) cover4

/-- The coarse-adjacency array after the region, at `(g, c, d)`: graph `g`'s `Sᵀ (A_g S)`. -/
theorem r1_blk (c : Dev nD) (g cc d : Fin 32) :
    ((dat1 (F := Ideal) V c).arrAt 4 cfg1.N : S32x32x32.Idx → EReal) (ix3 g cc d)
      = ∑ n : Fin 256, mat (a := 8192) (b := 32) (V c main_v3) (Cert.Spec.node g n) cc
          * ∑ k : Fin 256, mat (a := 8192) (b := 8192) (V c main_arg0) (Cert.Spec.node g n) (Cert.Spec.node g k)
              * mat (a := 8192) (b := 32) (V c main_v3) (Cert.Spec.node g k) d :=
  congrFun (arr4 V c) (ix3 g cc d)

end Cert.KernelIdeal.Val

end
-- ==== Proof.KI.Bridge2a.lean ====
/-
  Region 0's result in the spec's terms, the part without the softmax: the full product A · (X · Wc) read in the left
  columns is A · (X · Wp) and in the middle columns A · (X · We); so the result's middle columns, and the slice of them
  region 1 is entered with, are the second head clamped at zero. Region 1 is also entered with the propagation matrix
  as launched.
-/
import proofs.«124585_j89764816486779_2_alg».proof.Proof.KI.Bridge1
import proofs.«124585_j89764816486779_2_alg».proof.Proof.KI.Val0D
import proofs.«124585_j89764816486779_2_alg».proof.Proof.KI.Pay0Z
import proofs.«124585_j89764816486779_2_alg».proof.Proof.KI.Val1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

theorem Hc_left (c : Dev nD) (R : Fin 8192) (c' : Fin 32) :
    Hc (Vt1 m ρ) c R ⟨c'.val, by omega⟩ = Cert.Spec.hs (matA m c) (matX m c) (matWp m c) R c' := by
  unfold Hc Cert.Spec.hs Cert.Spec.xwp
  refine Finset.sum_congr rfl fun J _ => ?_
  rw [show Aof (Vt1 m ρ) c R J = matA m c R J from congrFun (congrFun (Aof_eq m ρ c) R) J]
  refine congrArg _ (Finset.sum_congr rfl fun f _ => ?_)
  rw [show Xof (Vt1 m ρ) c J f = matX m c J f from congrFun (congrFun (Xof_eq m ρ c) J) f, Wof_left m ρ c f c']

theorem Hc_mid (c : Dev nD) (R : Fin 8192) (c' : Fin 64) :
    Hc (Vt1 m ρ) c R ⟨32 + c'.val, by omega⟩ = Cert.Spec.hz (matA m c) (matX m c) (matWe m c) R c' := by
  unfold Hc Cert.Spec.hz Cert.Spec.xwe
  refine Finset.sum_congr rfl fun J _ => ?_
  rw [show Aof (Vt1 m ρ) c R J = matA m c R J from congrFun (congrFun (Aof_eq m ρ c) R) J]
  refine congrArg _ (Finset.sum_congr rfl fun f _ => ?_)
  rw [show Xof (Vt1 m ρ) c J f = matX m c J f from congrFun (congrFun (Xof_eq m ρ c) J) f, Wof_mid m ρ c f c']

/-- A row number is its row tile's first row plus its place in the tile. -/
theorem row_split (R : Fin 8192) : fin8192 (2048 * (R.val / 2048) + R.val % 2048) = R :=
  Fin.ext (by have := R.isLt; show (2048 * (R.val / 2048) + R.val % 2048) % 8192 = R.val; omega)

section
variable (V : (c : Dev nD) → (b : Ref sig .tc) → Buf (Elt Ideal) ((c : Thread nD τ).loc b))

theorem tileAcc_at (c : Dev nD) (R : Fin 8192) (c' : Fin 128) :
    tileAcc V c (R.val / 2048) (ix2 (⟨R.val % 2048, Nat.mod_lt _ (by decide)⟩ : Fin 2048) c') = Hc V c R c' := by
  show Hc V c (fin8192 (2048 * (R.val / 2048) + R.val % 2048)) ⟨c'.val, c'.isLt⟩ = Hc V c R c'
  rw [row_split]

/-- The result array at row `R`: the epilogue of `R`'s row tile, read at `R`'s place in it. -/
theorem slab_row (c : Dev nD) (R : Fin 8192) (cc : Fin 128) :
    slab V c (ix2 R cc) = k0_pay3 (F := Ideal) (tileAcc V c (R.val / 2048)) (ix2 (⟨R.val % 2048, Nat.mod_lt _ (by decide)⟩ : Fin 2048) cc) := rfl
end

theorem slab_mid (c : Dev nD) (R : Fin 8192) (cc : Fin 64) :
    slab (Vt1 m ρ) c (ix2 R (⟨32 + cc.val, by omega⟩ : Fin 128)) = Cert.Spec.zr (matA m c) (matX m c) (matWe m c) R cc := by
  refine (slab_row (Vt1 m ρ) c R _).trans ?_
  refine (Pay.out_clamp_at _ _ cc).trans ?_
  rw [tileAcc_at, Hc_mid]
  rfl

/-- Region 1's second operand: the second head clamped at zero. -/
theorem Z_entry (c : Dev nD) (R : Fin 8192) (f : Fin 64) :
    Val.mat (a := 8192) (b := 64) (Vt3 m ρ c main_v4) R f = Cert.Spec.zr (matA m c) (matX m c) (matWe m c) R f := by
  show Wt3 m ρ c (Proc.devRef .tc main_v4) (ix2 R f) = _
  rw [Wt3_v4]
  refine (extractStridedSlice_apply ![0, 32] _ _ (ix2 R f) (ix2 R (⟨32 + f.val, by omega⟩ : Fin 128)) (fun a => ?_)).trans ?_
  · match a with
    | ⟨0, _⟩ => show R.val = 0 + R.val; omega
    | ⟨1, _⟩ => show 32 + f.val = 32 + f.val; rfl
  · rw [Wt2_v2, final0_3]
    exact slab_mid m ρ c R f

/-- Region 1's third operand: the propagation matrix as launched. -/
theorem A_entry (c : Dev nD) (R J : Fin 8192) :
    Val.mat (a := 8192) (b := 8192) (Vt3 m ρ c main_arg0) R J = matA m c R J :=
  congrFun (Wt3_arg0 m ρ c) (ix2 R J)

end Cert.KernelIdeal.Fr

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Pay0S.lean ====
/-
  The first region's epilogue on its first 32 output columns, read at an index, at the extended reals: the row softmax
  of the accumulator's first 32 columns clamped at zero.

  The epilogue stores the concatenation, along the columns, of three blocks (32 + 64 + 32 columns); a column `c < 32`
  falls in the first. That block is, of `x (r, c) = max (acc (r, c)) 0`: the row's maximum `m r` — the fold of `max` from
  minus infinity over the row's 32 entries, then once more against minus infinity —, kept as a one-column matrix and
  repeated along the columns; `exp (x (r, c) - m r)`; the row's sum of those, kept and repeated the same way; and the
  quotient of the two.
-/
import proofs.«124585_j89764816486779_2_alg».proof.Proof.Gen.KernelIdeal.Skeleton
import proofs.«124585_j89764816486779_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«124585_j89764816486779_2_alg».proof.Proof.LibColumns

noncomputable section

namespace Cert.KernelIdeal.Pay

open Cert.KernelIdeal Cert.KernelIdeal.Gen Idealize.ShloMosaic ValueIdx

namespace Soft

/-! ## The epilogue's layout operations and reductions, each read at an index -/

theorem exp_at {s : Shape} {φ : FTy} (x : FVec Ideal s φ) (i : s.Idx) : exp x i = Ideal.exp (x i) := rfl

/-- The first 32 columns of a 128-column array. -/
theorem slice_lo_at (v : FVec Ideal S2048x128 .f32) (r : Fin 2048) (c : Fin 32) :
    extractStridedSlice S2048x32 ![0, 0] v slices_S2048x128_o0_0_S2048x32 (ix2 r c) = v (ix2 r ⟨c.val, by omega⟩) :=
  extractStridedSlice_apply _ v _ (ix2 r c) (ix2 r ⟨c.val, by omega⟩) fun a => by
    match a with
    | ⟨0, _⟩ => show r.val = 0 + r.val; omega
    | ⟨1, _⟩ => show c.val = 0 + c.val; omega

/-- The source index over row `r` with column `k` inserted is `(r, k)`. -/
theorem lift_row (h : S2048x32.Reduces [1] S2048) (r : Fin 2048) (k : Fin 32) : h.lift (ix1 r) k = ix2 r k :=
  funext fun a => Fin.ext (by match a with | ⟨0, _⟩ => rfl | ⟨1, _⟩ => rfl)

/-- A row's maximum: the fold of `max` from minus infinity over the row's 32 entries. -/
theorem rowmax_at (x : FVec Ideal S2048x32 .f32) (h : S2048x32.Reduces [1] S2048) (hφ : FKind.Formats .f32)
    (hacc : (0xFF800000#32 : BitVec 32) = 0xFF800000#32) (r : Fin 2048) :
    multiReduction (F := Ideal) .maximumf [1] S2048 x 0xFF800000#32 h hφ hacc (ix1 r)
      = (Finset.univ : Finset (Fin 32)).fold max Cert.Spec.negInfF (fun c => x (ix2 r c)) := by
  refine (Ideal.multiReduction_maximumf_single x _ h hφ hacc (ix1 r)).trans ?_
  refine congrArg (fun f => (Finset.univ : Finset (Fin 32)).fold max Cert.Spec.negInfF f) ?_
  funext k
  exact congrArg x (lift_row h r k)

/-- A row's sum over its 32 entries. -/
theorem rowsum_at (x : FVec Ideal S2048x32 .f32) (h : S2048x32.Reduces [1] S2048) (hφ : FKind.Formats .f32)
    (hacc : (0x00000000#32 : BitVec 32) = 0x00000000#32) (r : Fin 2048) :
    multiReduction (F := Ideal) .add [1] S2048 x 0x00000000#32 h hφ hacc (ix1 r) = ∑ c : Fin 32, x (ix2 r c) := by
  refine (Ideal.multiReduction_add_single x _ h hφ hacc (ix1 r)).trans ?_
  refine Finset.sum_congr rfl fun k _ => ?_
  exact congrArg x (lift_row h r k)

/-- A per-row value, kept as a one-column matrix and repeated along the 32 columns, read at `(r, c)`. -/
theorem keepdims_at (y : FVec Ideal S2048 .f32) (r : Fin 2048) (c : Fin 32) :
    broadcastTo S2048x32 (shapeCast S2048x1 y shapeCasts_S2048_S2048x1) broadcasts_S2048x1_S2048x32 (ix2 r c) = y (ix1 r) :=
  (broadcastTo_a1_ab_apply _ broadcasts_S2048x1_S2048x32 r c).trans
    (shapeCast_a_a1_apply y shapeCasts_S2048_S2048x1 r (0 : Fin 1))

/-- The concatenation `[x1 | x2 | x3]` along the columns (32 + 64 + 32), read in its first piece. -/
theorem concat_lo_at (x1 : FVec Ideal S2048x32 .f32) (x2 : FVec Ideal S2048x64 .f32) (x3 : FVec Ideal S2048x32 .f32)
    (r : Fin 2048) (c : Fin 32) :
    concatenate S2048x128 1 [⟨S2048x32, x1⟩, ⟨S2048x64, x2⟩, ⟨S2048x32, x3⟩]
        concatenates_S2048x32_S2048x64_S2048x32_S2048x128_d1 (ix2 r ⟨c.val, by omega⟩) = x1 (ix2 r c) :=
  concatenate_apply_piece (t := S2048x128) (1 : Fin S2048x128.rank)
    [⟨S2048x32, x1⟩, ⟨S2048x64, x2⟩, ⟨S2048x32, x3⟩] concatenates_S2048x32_S2048x64_S2048x32_S2048x128_d1
    (ix2 r ⟨c.val, by omega⟩) 0 (by simp) S2048x32 x1 rfl (rfl : S2048x32.rank = S2048x128.rank) 0 rfl (ix2 r c)
    (fun b => by match b with | ⟨0, _⟩ => exact fun _ => rfl | ⟨1, _⟩ => exact fun hne => absurd rfl hne)
    (Nat.zero_add _)

/-- The row softmax of a 32-column block `x`, as the region writes it: subtract the row's maximum (folded from minus
    infinity, then once more against minus infinity), exponentiate, divide by the row's sum. -/
theorem softmax_at (x : FVec Ideal S2048x32 .f32) (h : S2048x32.Reduces [1] S2048) (hφ : FKind.Formats .f32)
    (hm : (0xFF800000#32 : BitVec 32) = 0xFF800000#32) (ha : (0x00000000#32 : BitVec 32) = 0x00000000#32)
    (r : Fin 2048) (c : Fin 32) :
    divf
      (exp (subf x (broadcastTo S2048x32 (shapeCast S2048x1
        (maximumf (broadcast S2048 (Scalar.ofBits (F := Ideal) .f32 0xFF800000#32))
          (multiReduction (F := Ideal) .maximumf [1] S2048 x 0xFF800000#32 h hφ hm))
        shapeCasts_S2048_S2048x1) broadcasts_S2048x1_S2048x32)))
      (broadcastTo S2048x32 (shapeCast S2048x1
        (multiReduction (F := Ideal) .add [1] S2048
          (exp (subf x (broadcastTo S2048x32 (shapeCast S2048x1
            (maximumf (broadcast S2048 (Scalar.ofBits (F := Ideal) .f32 0xFF800000#32))
              (multiReduction (F := Ideal) .maximumf [1] S2048 x 0xFF800000#32 h hφ hm))
            shapeCasts_S2048_S2048x1) broadcasts_S2048x1_S2048x32)))
          0x00000000#32 h hφ ha)
        shapeCasts_S2048_S2048x1) broadcasts_S2048x1_S2048x32)
      (ix2 r c)
    = Ideal.div
        (Ideal.exp (x (ix2 r c)
          - max Cert.Spec.negInfF ((Finset.univ : Finset (Fin 32)).fold max Cert.Spec.negInfF (fun c' => x (ix2 r c')))))
        (∑ c' : Fin 32, Ideal.exp (x (ix2 r c')
          - max Cert.Spec.negInfF ((Finset.univ : Finset (Fin 32)).fold max Cert.Spec.negInfF (fun c' => x (ix2 r c'))))) := by
  simp only [divf_apply, exp_at, subf_apply, keepdims_at, maximumf_apply, broadcast_apply]
  rw [rowsum_at _ h hφ ha r]
  simp only [exp_at, subf_apply, keepdims_at, maximumf_apply, broadcast_apply]
  rw [rowmax_at x h hφ hm r]
  rfl

end Soft

open Soft

/-! ## The epilogue's first 32 columns -/

/-- Row `r`'s first 32 columns, clamped at zero. -/
def row (v21 : Vec Ideal S2048x128 .f32) (r : Fin 2048) : Fin 32 → EReal :=
  fun c' => max (v21 (ix2 r ⟨c'.val, by omega⟩) : EReal) Cert.Spec.zeroF

/-- That row's maximum, folded from minus infinity, then once more against minus infinity. -/
def mx (v21 : Vec Ideal S2048x128 .f32) (r : Fin 2048) : EReal :=
  max Cert.Spec.negInfF ((Finset.univ : Finset (Fin 32)).fold max Cert.Spec.negInfF (row v21 r))

theorem out_soft_at (v21 : Vec Ideal S2048x128 .f32) (r : Fin 2048) (c : Fin 32) :
    k0_pay3 v21 (ix2 r ⟨c.val, by omega⟩)
      = Ideal.div (Ideal.exp (row v21 r c - mx v21 r)) (∑ c' : Fin 32, Ideal.exp (row v21 r c' - mx v21 r)) := by
  unfold k0_pay3
  refine (concat_lo_at _ _ _ r c).trans ?_
  refine (softmax_at _ reduces_S2048x32_S2048 _ _ _ r c).trans ?_
  simp only [maximumf_apply, broadcast_apply, slice_lo_at]
  rfl

end Cert.KernelIdeal.Pay

end
-- ==== Proof.KI.Bridge2b.lean ====
/-
  The idealized kernel's results in the spec's terms. Region 0's left result columns are the row softmax of the first
  head clamped at zero, so region 1 is entered with exactly the spec's `sm` and `zr`; its coarse features are then the
  spec's `coarseX`, and its per-graph blocks the spec's `blocksRight` — the triple product with the row node's sum
  outermost.
-/
import proofs.«124585_j89764816486779_2_alg».proof.Proof.KI.Bridge2a
import proofs.«124585_j89764816486779_2_alg».proof.Proof.KI.Pay0S

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

/-- A row of the accumulator's left columns, clamped: the spec's clamped first head. -/
theorem row_eq (c : Dev nD) (R : Fin 8192) :
    Pay.row (tileAcc (Vt1 m ρ) c (R.val / 2048)) (⟨R.val % 2048, Nat.mod_lt _ (by decide)⟩ : Fin 2048)
      = fun c' => Cert.Spec.rs (matA m c) (matX m c) (matWp m c) R c' := by
  funext c'
  unfold Pay.row Cert.Spec.rs
  rw [tileAcc_at, Hc_left]

theorem slab_left (c : Dev nD) (R : Fin 8192) (cc : Fin 32) :
    slab (Vt1 m ρ) c (ix2 R (⟨cc.val, by omega⟩ : Fin 128)) = Cert.Spec.sm (matA m c) (matX m c) (matWp m c) R cc := by
  refine (slab_row (Vt1 m ρ) c R _).trans ?_
  refine (Pay.out_soft_at _ _ cc).trans ?_
  unfold Pay.mx
  rw [row_eq m ρ c R]
  rfl

/-- Region 1's first operand: the row softmax of the first head. -/
theorem S_entry (c : Dev nD) (R : Fin 8192) (cc : Fin 32) :
    Val.mat (a := 8192) (b := 32) (Vt3 m ρ c main_v3) R cc = Cert.Spec.sm (matA m c) (matX m c) (matWp m c) R cc := by
  show Wt3 m ρ c (Proc.devRef .tc main_v3) (ix2 R cc) = _
  rw [Wt3_v3]
  refine (extractStridedSlice_apply ![0, 0] _ _ (ix2 R cc) (ix2 R (⟨cc.val, by omega⟩ : Fin 128)) (fun a => ?_)).trans ?_
  · match a with
    | ⟨0, _⟩ => show R.val = 0 + R.val; omega
    | ⟨1, _⟩ => show cc.val = 0 + cc.val; omega
  · rw [Wt2_v2, final0_3]
    exact slab_left m ρ c R cc

/-- The coarse features region 1 leaves. -/
theorem cx_entry (c : Dev nD) (g cc : Fin 32) (f : Fin 64) :
    ((dat1 (F := Ideal) (Vt3 m ρ) c).arrAt 3 cfg1.N : S1024x64.Idx → EReal) (ix2 (⟨g.val * 32 + cc.val, by omega⟩ : Fin 1024) f)
      = Cert.Spec.coarseX (matA m c) (matX m c) (matWp m c) (matWe m c) g cc f := by
  refine (Val.r1_cx (Vt3 m ρ) c g cc f).trans ?_
  simp only [S_entry m ρ c, Z_entry m ρ c]
  rfl

/-- The per-graph blocks region 1 leaves. -/
theorem blk_entry (c : Dev nD) (g cc d : Fin 32) :
    ((dat1 (F := Ideal) (Vt3 m ρ) c).arrAt 4 cfg1.N : S32x32x32.Idx → EReal) (ix3 g cc d)
      = Cert.Spec.blocksRight (matA m c) (matX m c) (matWp m c) g cc d := by
  refine (Val.r1_blk (Vt3 m ρ) c g cc d).trans ?_
  simp only [S_entry m ρ c, A_entry m ρ c]
  rfl

end Cert.KernelIdeal.Fr

end
-- ==== Proof.LibRowReads.lean ====
/-
  Two reads at an index, with floats as extended reals where a float operation is involved, stated for any extents
  with every index written by coordinates:

  * the host's one-operand `stablehlo.reduce` with a maximum body along the rows of a rank-2 array, `[A, B] → [A]`,
    read at `p`: the fold of `max` over `k` of the entry at `(p, k)`, from the initial value;
  * the concatenation along axis 1 of two one-column arrays, `[A, 1] ++ [A, 1] → [A, 2]` (what stacking two vectors as
    the columns of a matrix lowers to), read at `(r, 0)` and at `(r, 1)`: the first array, respectively the second,
    at `(r, 0)`. The entries may be of any type: floats, or the words of an index array.
-/
import Idealize.ShloMosaic.PureOps.Ideal
import Idealize.ShloMosaic.PureOps.Reduce
import Idealize.ShloMosaic.Lib.ValueIdx
import Idealize.ShloMosaic.Lib.Pipeline.Value
import proofs.«124585_j89764816486779_2_alg».proof.Proof.LibRowDots

noncomputable section

namespace Idealize.ShloMosaic.RowReads

open Idealize.ShloMosaic Idealize.ShloMosaic.ValueIdx

/-- The host's maximum-reduce along the rows of a rank-2 array, read at `p`: the fold of `max` over row `p`, from the
    initial value. -/
theorem hostReduceMax_rows_apply {A B : Nat} {φ : FTy} {u : Shape} (x : FVec Ideal (⟨2, ![A, B]⟩ : Shape) φ)
    (init : u.Idx → Ideal φ) (h' : (⟨2, ![A, B]⟩ : Shape).ReducesTo [1] (⟨1, ![A]⟩ : Shape))
    (h : (⟨2, ![A, B]⟩ : Shape).Reduces [1] (⟨1, ![A]⟩ : Shape)) (hu : 0 < u.numel) (p : Fin A) :
    Host.reduce FloatOps.maximumf x init h' hu (ix1 p)
      = (Finset.univ : Finset (Fin B)).fold max (init (Shape.Idx.first hu)) (fun k => x (ix2 p k)) := by
  rw [Host.reduce_eq_fold_single FloatOps.maximumf x init h' h hu]
  exact congrArg (fun f => Finset.fold max (init (Shape.Idx.first hu)) f (Finset.univ : Finset (Fin B)))
    (funext fun k => congrArg x (RowDots.lift_row h p k))

variable {α : Type}

/-- Two one-column arrays side by side, read in the first column. -/
theorem concat_cols_left {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (0 : Fin 2))
      = x₁ (ix2 r (0 : Fin 1)) :=
  concatenate_pair_apply_left (1 : Fin 2) x₁ x₂ h (ix2 r (0 : Fin 2)) rfl (ix2 r (0 : Fin 1))
    (fun b => match b with | ⟨0, _⟩ => rfl | ⟨1, _⟩ => rfl)

/-- Two one-column arrays side by side, read in the second column. -/
theorem concat_cols_right {A : Nat} (x₁ x₂ : (⟨2, ![A, 1]⟩ : Shape).Idx → α)
    (h : Shape.Concatenates [(⟨2, ![A, 1]⟩ : Shape), ⟨2, ![A, 1]⟩] ⟨2, ![A, 2]⟩ 1) (r : Fin A) :
    concatenate (⟨2, ![A, 2]⟩ : Shape) 1 [⟨⟨2, ![A, 1]⟩, x₁⟩, ⟨⟨2, ![A, 1]⟩, x₂⟩] h (ix2 r (1 : Fin 2))
      = x₂ (ix2 r (0 : Fin 1)) :=
  concatenate_pair_apply_right (1 : Fin 2) x₁ x₂ h (ix2 r (1 : Fin 2)) rfl rfl (ix2 r (0 : Fin 1))
    (fun b hb => match b with | ⟨0, _⟩ => rfl | ⟨1, _⟩ => absurd rfl hb)
    (by show 0 + 1 = 1; rfl)

end Idealize.ShloMosaic.RowReads

end
-- ==== Proof.RefSpecA.lean ====
/-
  The reference program's softmax assignment and clamped second head, read at an index.

  Each stage of the reference program, read at coordinates, is the corresponding entry of the shared specification:
  the two products `X · W`, the two heads `A · (X · W)` as double sums, both clamped at zero, the row maximum folded
  from minus infinity, the exponential of the difference, the row sum of the exponentials and the quotient.
-/
import proofs.«124585_j89764816486779_2_alg».proof.Proof.Gen.ReferenceIdeal.Read
import proofs.«124585_j89764816486779_2_alg».proof.Proof.Spec
import proofs.«124585_j89764816486779_2_alg».proof.Proof.LibRowReads

noncomputable section

namespace Cert.RefValue

open Cert.ReferenceIdeal Cert.ReferenceIdeal.Gen Cert.ReferenceIdeal.Read Idealize.ShloMosaic Idealize.ShloMosaic.ValueIdx
open Idealize.ShloMosaic.RowDots Idealize.ShloMosaic.RowReads

/-- A rank-2 array as a function of its row and its column. -/
abbrev mat {a b : ℕ} (x : (⟨⟨2, ![a, b]⟩, .f32⟩ : BufTy).Contents (Elt Ideal)) : Fin a → Fin b → EReal :=
  fun r j => x (ix2 r j)

variable (x0 : (⟨S8192x8192, .f32⟩ : BufTy).Contents (Elt Ideal)) (x1 : (⟨S8192x64, .f32⟩ : BufTy).Contents (Elt Ideal))
  (x2 : (⟨S64x32, .f32⟩ : BufTy).Contents (Elt Ideal)) (x3 : (⟨S64x64, .f32⟩ : BufTy).Contents (Elt Ideal))

/-- `X · Wp` at `(j, c)`. -/
theorem v0_at (j : Fin 8192) (c : Fin 32) :
    val_main_v0 (F := Ideal) x1 x2 (ix2 j c) = Cert.Spec.xwp (mat x1) (mat x2) j c := by
  rw [val_main_v0_apply]
  refine Finset.sum_congr rfl fun k _ => ?_
  rw [idx2_ext (lidx_main_v0 (ix2 j c) k) j k rfl rfl, idx2_ext (ridx_main_v0 (ix2 j c) k) k c rfl rfl]

/-- `X · We` at `(j, c)`. -/
theorem v3_at (j : Fin 8192) (c : Fin 64) :
    val_main_v3 (F := Ideal) x1 x3 (ix2 j c) = Cert.Spec.xwe (mat x1) (mat x3) j c := by
  rw [val_main_v3_apply]
  refine Finset.sum_congr rfl fun k _ => ?_
  rw [idx2_ext (lidx_main_v3 (ix2 j c) k) j k rfl rfl, idx2_ext (ridx_main_v3 (ix2 j c) k) k c rfl rfl]

/-- The first head `A · (X · Wp)` at `(r, c)`. -/
theorem v1_at (r : Fin 8192) (c : Fin 32) :
    val_main_v1 (F := Ideal) x0 x1 x2 (ix2 r c) = Cert.Spec.hs (mat x0) (mat x1) (mat x2) r c := by
  rw [val_main_v1_apply]
  refine Finset.sum_congr rfl fun k _ => ?_
  rw [idx2_ext (lidx_main_v1 (ix2 r c) k) r k rfl rfl, idx2_ext (ridx_main_v1 (ix2 r c) k) k c rfl rfl, v0_at]

/-- The second head `A · (X · We)` at `(r, c)`. -/
theorem v4_at (r : Fin 8192) (c : Fin 64) :
    val_main_v4 (F := Ideal) x0 x1 x3 (ix2 r c) = Cert.Spec.hz (mat x0) (mat x1) (mat x3) r c := by
  rw [val_main_v4_apply]
  refine Finset.sum_congr rfl fun k _ => ?_
  rw [idx2_ext (lidx_main_v4 (ix2 r c) k) r k rfl rfl, idx2_ext (ridx_main_v4 (ix2 r c) k) k c rfl rfl, v3_at]

/-- The first head clamped at zero. -/
theorem v2_at (r : Fin 8192) (c : Fin 32) :
    val_main_v2 (F := Ideal) x0 x1 x2 (ix2 r c) = Cert.Spec.rs (mat x0) (mat x1) (mat x2) r c := by
  rw [val_main_v2_apply, v1_at, val_main_call0_v0_apply, val_main_call0_cst_apply]
  rfl

/-- The second head clamped at zero. -/
theorem v5_at (r : Fin 8192) (c : Fin 64) :
    val_main_v5 (F := Ideal) x0 x1 x3 (ix2 r c) = Cert.Spec.zr (mat x0) (mat x1) (mat x3) r c := by
  rw [val_main_v5_apply, v4_at, val_main_call1_v0_apply, val_main_call1_cst_apply]
  rfl

/-- The row maximum, folded from minus infinity. -/
theorem v6_at (r : Fin 8192) :
    val_main_v6 (F := Ideal) x0 x1 x2 (ix1 r)
      = (Finset.univ : Finset (Fin 32)).fold max Cert.Spec.negInfF (fun c => Cert.Spec.rs (mat x0) (mat x1) (mat x2) r c) := by
  unfold val_main_v6
  rw [hostReduceMax_rows_apply (val_main_v2 (F := Ideal) x0 x1 x2) (val_main_cst (F := Ideal))
    reducesTo_S8192x32_S8192_d1 (by decide) h_S_ r]
  rw [val_main_cst_apply]
  exact congrArg (fun f => Finset.fold max Cert.Spec.negInfF f (Finset.univ : Finset (Fin 32)))
    (funext fun c => v2_at x0 x1 x2 r c)

/-- The row maximum once more against minus infinity. -/
theorem v8_at (r : Fin 8192) :
    val_main_v8 (F := Ideal) x0 x1 x2 (ix1 r) = Cert.Spec.rmax (mat x0) (mat x1) (mat x2) r := by
  rw [val_main_v8_apply, v6_at, val_main_v7_apply, val_main_cst_0_apply]
  rfl

/-- The row maximum broadcast along the row. -/
theorem v10_at (r : Fin 8192) (c : Fin 32) :
    val_main_v10 (F := Ideal) x0 x1 x2 (ix2 r c) = Cert.Spec.rmax (mat x0) (mat x1) (mat x2) r := by
  rw [val_main_v10_apply, val_main_v9_apply,
    idx1_ext (idx_main_v9 (idx_main_v10 (ix2 r c))) r rfl, v8_at]

/-- The exponential of the entry minus its row's maximum. -/
theorem v12_at (r : Fin 8192) (c : Fin 32) :
    val_main_v12 (F := Ideal) x0 x1 x2 (ix2 r c) = Cert.Spec.ex (mat x0) (mat x1) (mat x2) r c := by
  rw [val_main_v12_apply, val_main_v11_apply, v2_at, v10_at]
  rfl

/-- The row sum of the exponentials. -/
theorem v13_at (r : Fin 8192) :
    val_main_v13 (F := Ideal) x0 x1 x2 (ix1 r) = Cert.Spec.den (mat x0) (mat x1) (mat x2) r := by
  rw [val_main_v13_apply, val_main_cst_1_apply]
  show Ideal.ofBits .f32 0x00000000#32 + _ = _
  rw [Ideal.ofBits_zero_f32, zero_add]
  refine Finset.sum_congr rfl fun k _ => ?_
  rw [idx2_ext (idx_main_v13 (ix1 r) k) r k rfl rfl, v12_at]

/-- The row sum broadcast along the row. -/
theorem v15_at (r : Fin 8192) (c : Fin 32) :
    val_main_v15 (F := Ideal) x0 x1 x2 (ix2 r c) = Cert.Spec.den (mat x0) (mat x1) (mat x2) r := by
  rw [val_main_v15_apply, val_main_v14_apply,
    idx1_ext (idx_main_v14 (idx_main_v15 (ix2 r c))) r rfl, v13_at]

/-- The softmax assignment at `(r, c)`. -/
theorem v16_at (r : Fin 8192) (c : Fin 32) :
    val_main_v16 (F := Ideal) x0 x1 x2 (ix2 r c) = Cert.Spec.sm (mat x0) (mat x1) (mat x2) r c := by
  rw [val_main_v16_apply, v12_at, v15_at]
  rfl

end Cert.RefValue

end
-- ==== Proof.RefSpecB.lean ====
/-
  The reference program's coarse features and coarse adjacency, read at an index.

  The 8192 nodes are 32 graphs of 256 nodes; node `n` of graph `g` is row `256 g + n`. Reshaping an array with 8192 rows
  to `[32, 256, …]` reads row `256 g + n` at `(g, n, …)`. The gather reads, from the propagation matrix reshaped to
  `[32, 256, 32, 256]`, the entry `(g, n, g, m)`: its start indices are the pair `(g, g)`, because the select that would
  add 32 to a negative index never fires on `0 ≤ g < 32`. So the gathered array at `(g, n, m)` is the propagation
  matrix at `(256 g + n, 256 g + m)`, the graph's own diagonal block. The three batched products are then sums over
  the 256 nodes of one graph, which are the specification's `coarseX` and `blocksLeft`.
-/
import proofs.«124585_j89764816486779_2_alg».proof.Proof.RefSpecA

noncomputable section

namespace Cert.RefValue

open Cert.ReferenceIdeal Cert.ReferenceIdeal.Gen Cert.ReferenceIdeal.Read Idealize.ShloMosaic Idealize.ShloMosaic.ValueIdx
open Idealize.ShloMosaic.RowDots Idealize.ShloMosaic.RowReads

/-- A rank-4 index whose coordinates have the values of `a`, `b`, `c` and `d` is `ix4 a b c d`. -/
theorem idx4_ext {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  funext fun e => Fin.ext (by
    match e with | ⟨0, _⟩ => exact h0 | ⟨1, _⟩ => exact h1 | ⟨2, _⟩ => exact h2 | ⟨3, _⟩ => exact h3)

/-! ## The start indices -/

/-- A graph number is not negative as a signed 32-bit word. -/
theorem slt_zero (g : Fin 32) : IntOp.cmpi .slt (BitVec.ofNat 32 g.val) 0#32 = 0#1 := by
  revert g; decide

/-- A graph number read back as a signed word and clamped to `[0, 31]` is itself. -/
theorem start_word (g : Fin 32) : min (BitVec.ofNat 32 g.val).toInt.toNat 31 = g.val := by
  revert g; decide

/-- The first index column at `g` is `g`: the select takes the iota. -/
theorem v25_at (g : Fin 32) : val_main_v25 (F := Ideal) (ix1 g) = BitVec.ofNat 32 g.val := by
  rw [val_main_v25_apply, val_main_v22_apply, val_main_v21_apply, val_main_c_apply, val_main_v19_apply]
  show Scalar.select (IntOp.cmpi .slt (BitVec.ofNat 32 g.val) 0#32) _ _ = _
  rw [slt_zero, select_zero]

/-- The second index column at `g` is `g`. -/
theorem v30_at (g : Fin 32) : val_main_v30 (F := Ideal) (ix1 g) = BitVec.ofNat 32 g.val := by
  rw [val_main_v30_apply, val_main_v27_apply, val_main_v26_apply, val_main_c_3_apply, val_main_v19_apply]
  show Scalar.select (IntOp.cmpi .slt (BitVec.ofNat 32 g.val) 0#32) _ _ = _
  rw [slt_zero, select_zero]

/-- The start indices at `(g, 0)`. -/
theorem v33_at0 (g : Fin 32) : val_main_v33 (F := Ideal) (ix2 g (0 : Fin 2)) = BitVec.ofNat 32 g.val := by
  unfold val_main_v33
  rw [concat_cols_left (val_main_v31 (F := Ideal)) (val_main_v32 (F := Ideal)) concatenates_S32x1_S32x1_S32x2_d1 g,
    val_main_v31_apply, idx1_ext (idx_main_v31 (ix2 g (0 : Fin 1))) g rfl, v25_at]

/-- The start indices at `(g, 1)`. -/
theorem v33_at1 (g : Fin 32) : val_main_v33 (F := Ideal) (ix2 g (1 : Fin 2)) = BitVec.ofNat 32 g.val := by
  unfold val_main_v33
  rw [concat_cols_right (val_main_v31 (F := Ideal)) (val_main_v32 (F := Ideal)) concatenates_S32x1_S32x1_S32x2_d1 g,
    val_main_v32_apply, idx1_ext (idx_main_v32 (ix2 g (0 : Fin 1))) g rfl, v30_at]

/-! ## The gather -/

/-- The gather of `[1, 256, 1, 256]` slices of a `[32, 256, 32, 256]` array at a `[32, 2]` array of start indices, axes
    0 and 2 collapsed, read at `(g, n, m)`: the operand at `(s₀, n, s₂, m)`, where `s₀` and `s₂` are the two start
    indices of row `g`, read signed and clamped into `[0, 31]`. -/
theorem gather_block_apply {α : Type} (x : S32x256x32x256.Idx → α) (idx : IVec S32x2 32) (g : Fin 32) (n m : Fin 256) :
    Host.gather gather_S32x256x32x256_S32x2_S32x256x256_12_02_n_n_02_1_12561256 x idx (ix3 g n m)
      = x (ix4 (⟨min (idx (ix2 g (0 : Fin 2))).toInt.toNat 31, by omega⟩ : Fin 32) n
          (⟨min (idx (ix2 g (1 : Fin 2))).toInt.toNat 31, by omega⟩ : Fin 32) m) := by
  unfold Host.gather
  congr 1
  funext a
  refine Fin.ext ?_
  match a with
  | ⟨0, _⟩ =>
    show gather_S32x256x32x256_S32x2_S32x256x256_12_02_n_n_02_1_12561256.start (ix3 g n m) idx 0
      + gather_S32x256x32x256_S32x2_S32x256x256_12_02_n_n_02_1_12561256.batchCoord (ix3 g n m) 0
      + gather_S32x256x32x256_S32x2_S32x256x256_12_02_n_n_02_1_12561256.offCoord (ix3 g n m) 0 = _
    rw [GatherDims.batchCoord_eq_zero gather_S32x256x32x256_S32x2_S32x256x256_12_02_n_n_02_1_12561256 (ix3 g n m) 0 (by decide),
      GatherDims.offCoord_eq_zero gather_S32x256x32x256_S32x2_S32x256x256_12_02_n_n_02_1_12561256 (ix3 g n m) 0 (by decide)]
    simp only [Nat.add_zero]
    unfold GatherDims.start
    rw [dif_pos (show (0 : Fin 4) ∈ gather_S32x256x32x256_S32x2_S32x256x256_12_02_n_n_02_1_12561256.startIndexMap by decide)]
    refine congrArg₂ min (congrArg (fun z => (idx z).toInt.toNat) ?_) rfl
    exact idx2_ext _ _ _ rfl rfl
  | ⟨1, _⟩ =>
    show gather_S32x256x32x256_S32x2_S32x256x256_12_02_n_n_02_1_12561256.start (ix3 g n m) idx 1
      + gather_S32x256x32x256_S32x2_S32x256x256_12_02_n_n_02_1_12561256.batchCoord (ix3 g n m) 1
      + gather_S32x256x32x256_S32x2_S32x256x256_12_02_n_n_02_1_12561256.offCoord (ix3 g n m) 1 = _
    rw [GatherDims.batchCoord_eq_zero gather_S32x256x32x256_S32x2_S32x256x256_12_02_n_n_02_1_12561256 (ix3 g n m) 1 (by decide)]
    unfold GatherDims.start GatherDims.offCoord
    rw [dif_neg (show ¬ (1 : Fin 4) ∈ gather_S32x256x32x256_S32x2_S32x256x256_12_02_n_n_02_1_12561256.startIndexMap by decide),
      dif_pos (show (1 : Fin 4) ∈ gather_S32x256x32x256_S32x2_S32x256x256_12_02_n_n_02_1_12561256.sKept by decide)]
    simp only [Nat.add_zero, Nat.zero_add]
    rfl
  | ⟨2, _⟩ =>
    show gather_S32x256x32x256_S32x2_S32x256x256_12_02_n_n_02_1_12561256.start (ix3 g n m) idx 2
      + gather_S32x256x32x256_S32x2_S32x256x256_12_02_n_n_02_1_12561256.batchCoord (ix3 g n m) 2
      + gather_S32x256x32x256_S32x2_S32x256x256_12_02_n_n_02_1_12561256.offCoord (ix3 g n m) 2 = _
    rw [GatherDims.batchCoord_eq_zero gather_S32x256x32x256_S32x2_S32x256x256_12_02_n_n_02_1_12561256 (ix3 g n m) 2 (by decide),
      GatherDims.offCoord_eq_zero gather_S32x256x32x256_S32x2_S32x256x256_12_02_n_n_02_1_12561256 (ix3 g n m) 2 (by decide)]
    simp only [Nat.add_zero]
    unfold GatherDims.start
    rw [dif_pos (show (2 : Fin 4) ∈ gather_S32x256x32x256_S32x2_S32x256x256_12_02_n_n_02_1_12561256.startIndexMap by decide)]
    refine congrArg₂ min (congrArg (fun z => (idx z).toInt.toNat) ?_) rfl
    exact idx2_ext _ _ _ rfl rfl
  | ⟨3, _⟩ =>
    show gather_S32x256x32x256_S32x2_S32x256x256_12_02_n_n_02_1_12561256.start (ix3 g n m) idx 3
      + gather_S32x256x32x256_S32x2_S32x256x256_12_02_n_n_02_1_12561256.batchCoord (ix3 g n m) 3
      + gather_S32x256x32x256_S32x2_S32x256x256_12_02_n_n_02_1_12561256.offCoord (ix3 g n m) 3 = _
    rw [GatherDims.batchCoord_eq_zero gather_S32x256x32x256_S32x2_S32x256x256_12_02_n_n_02_1_12561256 (ix3 g n m) 3 (by decide)]
    unfold GatherDims.start GatherDims.offCoord
    rw [dif_neg (show ¬ (3 : Fin 4) ∈ gather_S32x256x32x256_S32x2_S32x256x256_12_02_n_n_02_1_12561256.startIndexMap by decide),
      dif_pos (show (3 : Fin 4) ∈ gather_S32x256x32x256_S32x2_S32x256x256_12_02_n_n_02_1_12561256.sKept by decide)]
    simp only [Nat.add_zero, Nat.zero_add]
    rfl

variable (x0 : (⟨S8192x8192, .f32⟩ : BufTy).Contents (Elt Ideal)) (x1 : (⟨S8192x64, .f32⟩ : BufTy).Contents (Elt Ideal))
  (x2 : (⟨S64x32, .f32⟩ : BufTy).Contents (Elt Ideal)) (x3 : (⟨S64x64, .f32⟩ : BufTy).Contents (Elt Ideal))

/-! ## The reshapes: row `256 g + n` -/

/-- The softmax assignment reshaped to `[32, 256, 32]`, at `(g, n, c)`. -/
theorem v17_at (g : Fin 32) (n : Fin 256) (c : Fin 32) :
    val_main_v17 (F := Ideal) x0 x1 x2 (ix3 g n c) = Cert.Spec.sm (mat x0) (mat x1) (mat x2) (Cert.Spec.node g n) c := by
  rw [val_main_v17_apply, idx2_ext (idx_main_v17 (ix3 g n c)) (Cert.Spec.node g n) c
    (by have := c.isLt; show ((g.val * 256 + n.val) * 32 + c.val) / 32 = g.val * 256 + n.val; omega)
    (by have := c.isLt; show ((g.val * 256 + n.val) * 32 + c.val) % 32 = c.val; omega), v16_at]

/-- The clamped second head reshaped to `[32, 256, 64]`, at `(g, n, f)`. -/
theorem v18_at (g : Fin 32) (n : Fin 256) (f : Fin 64) :
    val_main_v18 (F := Ideal) x0 x1 x3 (ix3 g n f) = Cert.Spec.zr (mat x0) (mat x1) (mat x3) (Cert.Spec.node g n) f := by
  rw [val_main_v18_apply, idx2_ext (idx_main_v18 (ix3 g n f)) (Cert.Spec.node g n) f
    (by have := f.isLt; show ((g.val * 256 + n.val) * 64 + f.val) / 64 = g.val * 256 + n.val; omega)
    (by have := f.isLt; show ((g.val * 256 + n.val) * 64 + f.val) % 64 = f.val; omega), v5_at]

/-- The propagation matrix reshaped to `[32, 256, 32, 256]`, at `(g, n, h, m)`. -/
theorem v20_at (g : Fin 32) (n : Fin 256) (h : Fin 32) (m : Fin 256) :
    val_main_v20 (F := Ideal) x0 (ix4 g n h m) = mat x0 (Cert.Spec.node g n) (Cert.Spec.node h m) := by
  rw [val_main_v20_apply, idx2_ext (idx_main_v20 (ix4 g n h m)) (Cert.Spec.node g n) (Cert.Spec.node h m)
    (by have := h.isLt; have := m.isLt
        show (((g.val * 256 + n.val) * 32 + h.val) * 256 + m.val) / 8192 = g.val * 256 + n.val; omega)
    (by have := h.isLt; have := m.isLt
        show (((g.val * 256 + n.val) * 32 + h.val) * 256 + m.val) % 8192 = h.val * 256 + m.val; omega)]

/-- The gathered array at `(g, n, m)`: the graph's own diagonal block of the propagation matrix. -/
theorem v34_at (g : Fin 32) (n m : Fin 256) :
    val_main_v34 (F := Ideal) x0 (ix3 g n m) = mat x0 (Cert.Spec.node g n) (Cert.Spec.node g m) := by
  unfold val_main_v34
  rw [gather_block_apply (val_main_v20 (F := Ideal) x0) (val_main_v33 (F := Ideal)) g n m]
  rw [← v20_at x0 g n g m]
  refine congrArg (val_main_v20 (F := Ideal) x0) (idx4_ext _ g n g m ?_ rfl ?_ rfl)
  · show min (val_main_v33 (F := Ideal) (ix2 g (0 : Fin 2))).toInt.toNat 31 = g.val
    rw [v33_at0, start_word]
  · show min (val_main_v33 (F := Ideal) (ix2 g (1 : Fin 2))).toInt.toNat 31 = g.val
    rw [v33_at1, start_word]

/-! ## The batched products -/

/-- `Sᵀ Z` per graph, at `(g, c, f)`. -/
theorem v35_at (g c : Fin 32) (f : Fin 64) :
    val_main_v35 (F := Ideal) x0 x1 x2 x3 (ix3 g c f) = Cert.Spec.coarseX (mat x0) (mat x1) (mat x2) (mat x3) g c f := by
  rw [val_main_v35_apply]
  refine Finset.sum_congr rfl fun k _ => ?_
  rw [idx3_ext (lidx_main_v35 (ix3 g c f) k) g k c rfl rfl rfl, idx3_ext (ridx_main_v35 (ix3 g c f) k) g k f rfl rfl rfl,
    v17_at, v18_at]

/-- `A_gᵀ S` per graph, at `(g, k, c)`: the sum over the row node `n`. -/
theorem v37_at (g : Fin 32) (k : Fin 256) (c : Fin 32) :
    val_main_v37 (F := Ideal) x0 x1 x2 (ix3 g k c)
      = ∑ n : Fin 256, mat x0 (Cert.Spec.node g n) (Cert.Spec.node g k) * Cert.Spec.sm (mat x0) (mat x1) (mat x2) (Cert.Spec.node g n) c := by
  rw [val_main_v37_apply]
  refine Finset.sum_congr rfl fun n _ => ?_
  rw [idx3_ext (lidx_main_v37 (ix3 g k c) n) g n k rfl rfl rfl, idx3_ext (ridx_main_v37 (ix3 g k c) n) g n c rfl rfl rfl,
    v34_at, v17_at]

/-- The coarse adjacency `(A_gᵀ S)ᵀ S` per graph, at `(g, c, d)`. -/
theorem ref_blocks (g c d : Fin 32) :
    val_main_v38 (F := Ideal) x0 x1 x2 (ix3 g c d) = Cert.Spec.blocksLeft (mat x0) (mat x1) (mat x2) g c d := by
  rw [val_main_v38_apply]
  refine Finset.sum_congr rfl fun k _ => ?_
  rw [idx3_ext (lidx_main_v38 (ix3 g c d) k) g k c rfl rfl rfl, idx3_ext (ridx_main_v38 (ix3 g c d) k) g k d rfl rfl rfl,
    v37_at, v17_at]

/-- The coarse features, at row `32 g + c` and column `f`. -/
theorem ref_coarseX (g c : Fin 32) (f : Fin 64) :
    val_main_v36 (F := Ideal) x0 x1 x2 x3 (ix2 (⟨g.val * 32 + c.val, by omega⟩ : Fin 1024) f)
      = Cert.Spec.coarseX (mat x0) (mat x1) (mat x2) (mat x3) g c f := by
  rw [val_main_v36_apply, idx3_ext (idx_main_v36 (ix2 (⟨g.val * 32 + c.val, by omega⟩ : Fin 1024) f)) g c f
    (by have := c.isLt; have := f.isLt; show ((g.val * 32 + c.val) * 64 + f.val) / 2048 = g.val; omega)
    (by have := c.isLt; have := f.isLt; show ((g.val * 32 + c.val) * 64 + f.val) / 64 % 32 = c.val; omega)
    (by have := c.isLt; have := f.isLt; show ((g.val * 32 + c.val) * 64 + f.val) % 64 = f.val; omega), v35_at]

end Cert.RefValue

end
-- ==== Proof.RefTail.lean ====
/-
  The part of the reference program after its coarse adjacency blocks, as a function of the blocks.

  The first result is the `[32, 32, 32]` array of per-graph blocks scattered into a `[32, 32, 32, 32]` array of zeros at
  the index pairs `(g, g)` (built from an iota by a select on its sign) and reshaped to `[1024, 1024]`: the block
  diagonal. `tail` is that function of the blocks, for any float instance; the reference's first result is `tail` of
  its blocks by unfolding. The third result does not depend on the inputs: entry `i` is the graph number `i / 32`.
-/
import proofs.«124585_j89764816486779_2_alg».proof.Proof.Gen.ReferenceIdeal.Read

noncomputable section

namespace Cert.RefValue

open Cert.ReferenceIdeal Cert.ReferenceIdeal.Gen Cert.ReferenceIdeal.Read Idealize.ShloMosaic Idealize.ShloMosaic.ValueIdx

/-- The blocks scattered into the block diagonal of a zero array and reshaped to `[1024, 1024]`. -/
def tail {F : FTy → Type} [FloatOps F] (blocks : (⟨S32x32x32, .f32⟩ : BufTy).Contents (Elt F)) :
    (⟨S1024x1024, .f32⟩ : BufTy).Contents (Elt F) :=
  shapeCast _ (Host.scatter scatter_S32x32x32x32_S32x2_S32x32x32_12_02_02_1 (fun _ b => b) (broadcastInDim S32x32x32x32 ![] bcast_S_S32x32x32x32 (constant S_ .f32 0x00000000#32)) (concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩, ⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩] concatenates_S32x1_S32x1_S32x2_d1) blocks) shapeCasts_S32x32x32x32_S1024x1024

/-- The reference's first result is `tail` of its coarse adjacency blocks. -/
theorem ref_A_tail (x0 : (⟨S8192x8192, .f32⟩ : BufTy).Contents (Elt Ideal)) (x1 : (⟨S8192x64, .f32⟩ : BufTy).Contents (Elt Ideal))
    (x2 : (⟨S64x32, .f32⟩ : BufTy).Contents (Elt Ideal)) :
    val_main_v54 (F := Ideal) x0 x1 x2 = tail (val_main_v38 (F := Ideal) x0 x1 x2) := rfl

/-- The same at any float instance. -/
theorem ref_A_tail_gen {F : FTy → Type} [FloatOps F] (x0 : (⟨S8192x8192, .f32⟩ : BufTy).Contents (Elt F))
    (x1 : (⟨S8192x64, .f32⟩ : BufTy).Contents (Elt F)) (x2 : (⟨S64x32, .f32⟩ : BufTy).Contents (Elt F)) :
    val_main_v54 (F := F) x0 x1 x2 = tail (val_main_v38 (F := F) x0 x1 x2) := rfl

/-- The reference's third result as a closed term: an iota along axis 0 of `[32, 32]`, reshaped to `[1024]`. -/
theorem ref_ind :
    val_main_v57 (F := Ideal)
      = shapeCast _ (broadcastInDim S32x32 ![0] bcast_S32_S32x32_0 (iotaInDim S32 32 0)) shapeCasts_S32x32_S1024 := rfl

/-- The reference's third result at `i`: the graph number `i / 32`, as a 32-bit word. -/
theorem ref_ind_at (i : S1024.Idx) : val_main_v57 (F := Ideal) i = BitVec.ofNat 32 ((i 0).val / 32) := by
  rw [val_main_v57_apply, val_main_v56_apply, val_main_v55_apply]

end Cert.RefValue

end
-- ==== Proof.SpecLaw.lean ====
/-
  The two associations of the coarse adjacency `Sᵀ A_g S` agree when every entry is a real number.

  Over the reals, for a finite index type,
    ∑ n, s n * (∑ k, a n k * t k) = ∑ k, (∑ n, a n k * s n) * t k
  by distributing both products over the inner sums, exchanging the two finite sums, and commutativity of the product.
  The coercion of the reals into the extended reals commutes with products and with finite sums, so the same identity
  holds for extended-real families all of whose entries are reals. The specification's `blocksRight` and `blocksLeft`
  are the two sides at the index type `Fin 256`, with `a n k = A (node g n) (node g k)`, `s n = sm (node g n) c`,
  `t k = sm (node g k) d`.
-/
import proofs.«124585_j89764816486779_2_alg».proof.Proof.Spec

noncomputable section

namespace Cert.Spec

open Idealize.ShloMosaic

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The triple product over the reals, associated both ways. -/
theorem real_triple {ι : Type*} [Fintype ι] (a : ι → ι → ℝ) (s t : ι → ℝ) :
    ∑ n, s n * (∑ k, a n k * t k) = ∑ k, (∑ n, a n k * s n) * t k := by
  simp_rw [Finset.mul_sum, Finset.sum_mul]
  rw [Finset.sum_comm]
  refine Finset.sum_congr rfl fun k _ => Finset.sum_congr rfl fun n _ => ?_
  ring

/-- The same over extended-real families with real entries. -/
theorem ereal_triple {ι : Type*} [Fintype ι] (A : ι → ι → EReal) (S T : ι → EReal)
    (hA : ∀ n k, ∃ a : ℝ, A n k = (a : EReal)) (hS : ∀ n, ∃ s : ℝ, S n = (s : EReal))
    (hT : ∀ n, ∃ s : ℝ, T n = (s : EReal)) :
    ∑ n, S n * (∑ k, A n k * T k) = ∑ k, (∑ n, A n k * S n) * T k := by
  choose a ha using hA
  choose s hs using hS
  choose t ht using hT
  simp only [ha, hs, ht, ← EReal.coe_mul, ← coe_finset_sum]
  exact congrArg _ (real_triple a s t)

theorem blocksRight_eq_blocksLeft (A : Fin 8192 → Fin 8192 → EReal) (X : Fin 8192 → Fin 64 → EReal)
    (Wp : Fin 64 → Fin 32 → EReal)
    (hA : ∀ r j, ∃ a : ℝ, A r j = (a : EReal)) (hS : ∀ r c, ∃ s : ℝ, sm A X Wp r c = (s : EReal))
    (g c d : Fin 32) :
    blocksRight A X Wp g c d = blocksLeft A X Wp g c d := by
  unfold blocksRight blocksLeft
  exact ereal_triple (fun n k => A (node g n) (node g k)) (fun n => sm A X Wp (node g n) c)
    (fun k => sm A X Wp (node g k) d) (fun n k => hA _ _) (fun n => hS _ _) (fun k => hS _ _)

end Cert.Spec

end
-- ==== Proof.SpecReal.lean ====
/-
  Every entry of the row softmax `sm` is a real number when every entry of `A`, `X` and `Wp` is.

  Finite sums and products of reals are reals, and so is the maximum of a real with the float zero (which is `0`); hence
  `xwp`, `hs` and `rs` are real. The float minus infinity is `⊥`, so the row maximum `rmax` is the fold of `max` from
  `⊥` over the 32 real entries of the row: it is above `⊥` because one entry is, and below `⊤` because all are, hence
  real. The numerator `ex` is then the real exponential of a real difference, a positive real; the denominator `den` is
  a sum of 32 positive reals, a positive real, in particular nonzero; and the quotient of a real by a nonzero real is a
  real.
-/
import proofs.«124585_j89764816486779_2_alg».proof.Proof.Spec

noncomputable section

namespace Cert.Spec

open Idealize.ShloMosaic

/-- The float zero is `0`, the float minus infinity is `⊥`. -/
theorem zeroF_eq : zeroF = 0 := by
  show Ideal.ofBits .f32 0x00000000#32 = 0
  simp [Ideal.ofBits, Ideal.ieee]

theorem negInfF_eq : negInfF = ⊥ := by
  show Ideal.ofBits .f32 0xFF800000#32 = ⊥
  simp [Ideal.ofBits, Ideal.ieee]

/-- An extended real that is neither infinity is a real. -/
theorem real_of_ne {x : EReal} (h1 : x ≠ ⊥) (h2 : x ≠ ⊤) : ∃ a : ℝ, x = (a : EReal) :=
  ⟨x.toReal, (EReal.coe_toReal h2 h1).symm⟩

/-- The coercion `ℝ → EReal` commutes with finite sums. -/
theorem ereal_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} (s : Finset ι) (f : ι → EReal) (h : ∀ i, ∃ a : ℝ, f i = (a : EReal)) :
    ∃ a : ℝ, ∑ i ∈ s, f i = (a : EReal) := by
  choose g hg using h
  exact ⟨∑ i ∈ s, g i, by simp only [hg, ereal_coe_sum]⟩

/-- A product of two reals is a real. -/
theorem real_mul {x y : EReal} (hx : ∃ a : ℝ, x = (a : EReal)) (hy : ∃ a : ℝ, y = (a : EReal)) :
    ∃ a : ℝ, x * y = (a : EReal) := by
  obtain ⟨a, rfl⟩ := hx
  obtain ⟨b, rfl⟩ := hy
  exact ⟨a * b, (EReal.coe_mul a b).symm⟩

/-- The maximum of a real and the float zero is a real. -/
theorem real_max_zero {x : EReal} (hx : ∃ a : ℝ, x = (a : EReal)) : ∃ a : ℝ, max x zeroF = (a : EReal) := by
  obtain ⟨a, rfl⟩ := hx
  rw [zeroF_eq]
  rcases le_total (a : EReal) 0 with h | h
  · exact ⟨0, by rw [max_eq_right h]; rfl⟩
  · exact ⟨a, by rw [max_eq_left h]⟩

section

variable (A : Fin 8192 → Fin 8192 → EReal) (X : Fin 8192 → Fin 64 → EReal) (Wp : Fin 64 → Fin 32 → EReal)
  (hA : ∀ r j, ∃ a : ℝ, A r j = (a : EReal)) (hX : ∀ r f, ∃ a : ℝ, X r f = (a : EReal))
  (hW : ∀ f c, ∃ a : ℝ, Wp f c = (a : EReal))

include hX hW in
theorem xwp_real (j : Fin 8192) (c : Fin 32) : ∃ a : ℝ, xwp X Wp j c = (a : EReal) :=
  real_sum _ _ fun f => real_mul (hX j f) (hW f c)

include hA hX hW in
theorem hs_real (r : Fin 8192) (c : Fin 32) : ∃ a : ℝ, hs A X Wp r c = (a : EReal) :=
  real_sum _ _ fun j => real_mul (hA r j) (xwp_real X Wp hX hW j c)

include hA hX hW in
theorem rs_real (r : Fin 8192) (c : Fin 32) : ∃ a : ℝ, rs A X Wp r c = (a : EReal) :=
  real_max_zero (hs_real A X Wp hA hX hW r c)

include hA hX hW in
/-- The row maximum is a real: above `⊥` because the row's first entry is, below `⊤` because every entry is. -/
theorem rmax_real (r : Fin 8192) : ∃ m : ℝ, rmax A X Wp r = (m : EReal) := by
  unfold rmax
  rw [negInfF_eq, max_eq_right bot_le]
  apply real_of_ne
  · apply ne_of_gt
    rw [Finset.lt_fold_max]
    right
    obtain ⟨a, ha⟩ := rs_real A X Wp hA hX hW r 0
    exact ⟨0, Finset.mem_univ _, by rw [ha]; exact EReal.bot_lt_coe a⟩
  · apply ne_of_lt
    rw [Finset.fold_max_lt]
    refine ⟨bot_lt_top, fun c _ => ?_⟩
    obtain ⟨a, ha⟩ := rs_real A X Wp hA hX hW r c
    rw [ha]
    exact EReal.coe_lt_top a

include hA hX hW in
/-- The softmax's numerator is a positive real. -/
theorem ex_pos (r : Fin 8192) (c : Fin 32) : ∃ e : ℝ, 0 < e ∧ ex A X Wp r c = (e : EReal) := by
  obtain ⟨a, ha⟩ := rs_real A X Wp hA hX hW r c
  obtain ⟨m, hm⟩ := rmax_real A X Wp hA hX hW r
  refine ⟨Real.exp (a - m), Real.exp_pos _, ?_⟩
  unfold ex
  rw [ha, hm, ← EReal.coe_sub]
  rfl

include hA hX hW in
/-- The softmax's denominator is a positive real. -/
theorem den_pos (r : Fin 8192) : ∃ d : ℝ, 0 < d ∧ den A X Wp r = (d : EReal) := by
  choose e he0 he using fun c => ex_pos A X Wp hA hX hW r c
  refine ⟨∑ c, e c, Finset.sum_pos (fun c _ => he0 c) Finset.univ_nonempty, ?_⟩
  unfold den
  simp only [he, ereal_coe_sum]

include hA hX hW in
/-- Every entry of the row softmax is a real. -/
theorem sm_real : ∀ r c, ∃ s : ℝ, sm A X Wp r c = (s : EReal) := by
  intro r c
  obtain ⟨e, _, he⟩ := ex_pos A X Wp hA hX hW r c
  obtain ⟨d, hd0, hd⟩ := den_pos A X Wp hA hX hW r
  refine ⟨e * (1 / d), ?_⟩
  unfold sm
  rw [he, hd, Ideal.div_coe (ne_of_gt hd0), EReal.coe_mul]

end

end Cert.Spec

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.PreReal.lean ====
/-
  From the precondition to "every entry of the four float arguments is a real".

  The precondition says, of each of the four float arguments, that every entry has absolute value below `+∞` (a
  reduction by `and`, over all axes, of the comparison), the four one-bit results joined by `and` and required to be `1`. A conjunction of one-bit words is `1` only when each is; a reduction by `and`
  over all axes is `1` only when every element is; and an extended real whose absolute value `max x (-x)` is below
  `+∞` is neither infinity, hence a real. The last two steps are the general lemma `FiniteEntries.real_of_all`, for
  an array of any shape.
-/
import proofs.«124585_j89764816486779_2_alg».proof.Defs
import proofs.«124585_j89764816486779_2_alg».proof.Proof.LibFiniteEntries

noncomputable section

namespace Cert.PreReal

open Idealize.ShloMosaic Idealize.SL.Sem Idealize.ShloMosaic.FiniteEntries

/-- Under the precondition, every entry of each of the four float arguments is a real, on every device. -/
theorem args_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg2) i = (a : EReal))
    ∧ (∀ i, ∃ a : ℝ, m ((c.tc : Thread Cert.KernelIdeal.nD Cert.KernelIdeal.τ).loc Cert.KernelIdeal.main_arg3) i = (a : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_all _ _ _ _ _ h0' i, fun i => real_of_all _ _ _ _ _ h1 i,
    fun i => real_of_all _ _ _ _ _ h2 i, fun i => real_of_all _ _ _ _ _ h3 i⟩

end Cert.PreReal

end
-- ==== Proof.Assemble.lean ====
/-
  The five claims. The two kernels' frames are their runs read at the arguments, which nothing writes. The reference's
  frame is its run with the results dropped. The idealization rewrote nothing. And at the ideal instance the two
  programs' results agree: both first results are ONE function (the scatter onto the block diagonal, reshaped) of the
  per-graph blocks, and the blocks agree because the kernel's `Sᵀ (A_g S)` and the reference's `(A_gᵀ S)ᵀ S` are the
  same triple product when every entry is a real number — which the precondition gives for the propagation matrix, and
  the softmax's own shape (a positive real over a positive real) gives for `S`; both second results are the spec's
  coarse features entry by entry; both third results are the same constant.
-/
import proofs.«124585_j89764816486779_2_alg».proof.Defs
import proofs.«124585_j89764816486779_2_alg».proof.Proof.KB.Kept
import proofs.«124585_j89764816486779_2_alg».proof.Proof.KI.Bridge2b
import proofs.«124585_j89764816486779_2_alg».proof.Proof.RefSpecB
import proofs.«124585_j89764816486779_2_alg».proof.Proof.RefTail
import proofs.«124585_j89764816486779_2_alg».proof.Proof.SpecLaw
import proofs.«124585_j89764816486779_2_alg».proof.Proof.SpecReal
import proofs.«124585_j89764816486779_2_alg».proof.Proof.PreReal
import proofs.«124585_j89764816486779_2_alg».proof.Proof.Gen.Pre_finite_inputs
import proofs.«124585_j89764816486779_2_alg».proof.Proof.Gen.ReferenceIdeal.Run
import proofs.«124585_j89764816486779_2_alg».proof.Proof.Gen.ReferenceIdeal.Read

set_option maxRecDepth 16384

noncomputable section

namespace Cert.Proof.Claims

open Idealize.ShloMosaic Idealize.ShloMosaic.TcCoe Idealize.SL.Sem ValueIdx
open Cert.KernelIdeal.Fr

variable (m : (ℓ : Loc Cert.KernelIdeal.nD Cert.KernelIdeal.τ Cert.KernelIdeal.sig) → Buf (Elt Ideal) ℓ) (ρ : Dev Cert.KernelIdeal.nD → PrngReg)

/-! ## The kernel's results against the reference's stages -/

/-- The coarse features: entry by entry the spec's, on both sides. -/
theorem cx_fun (c : Dev Cert.KernelIdeal.nD) :
    ((Cert.KernelIdeal.Fr.dat1 (F := Ideal) (Vt3 m ρ) c).arrAt 3 Cert.KernelIdeal.cfg1.N : Cert.KernelIdeal.S1024x64.Idx → EReal)
      = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨q, f, rfl⟩ : ∃ (q : Fin 1024) (f : Fin 64), i = ix2 q f := ⟨i 0, i 1, eq_ix2 i⟩
  have hq : q = (⟨(⟨q.val / 32, by omega⟩ : Fin 32).val * 32 + (⟨q.val % 32, Nat.mod_lt _ (by decide)⟩ : Fin 32).val, by have := q.isLt; show q.val / 32 * 32 + q.val % 32 < 1024; omega⟩ : Fin 1024) :=
    Fin.ext (by show q.val = q.val / 32 * 32 + q.val % 32; omega)
  rw [hq, cx_entry m ρ c, Cert.RefValue.ref_coarseX]

/-- The per-graph blocks: the kernel's association of the triple product against the reference's. -/
theorem blk_fun (hpre : Cert.Pre_KernelIdeal m) (c : Dev Cert.KernelIdeal.nD) :
    ((Cert.KernelIdeal.Fr.dat1 (F := Ideal) (Vt3 m ρ) c).arrAt 4 Cert.KernelIdeal.cfg1.N : Cert.KernelIdeal.S32x32x32.Idx → EReal)
      = Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨h0, h1, h2, -⟩ := Cert.PreReal.args_real m hpre c
  have hA : ∀ r j, ∃ a : ℝ, matA m c r j = (a : EReal) := fun r j => h0 (ix2 r j)
  have hX : ∀ r f, ∃ a : ℝ, matX m c r f = (a : EReal) := fun r f => h1 (ix2 r f)
  have hW : ∀ f cc, ∃ a : ℝ, matWp m c f cc = (a : EReal) := fun f cc => h2 (ix2 f cc)
  funext i
  obtain ⟨g, cc, d, rfl⟩ : ∃ (g cc d : Fin 32), i = ix3 g cc d := ⟨i 0, i 1, i 2, eq_ix3 i⟩
  rw [blk_entry m ρ c, Cert.RefValue.ref_blocks,
    Cert.Spec.blocksRight_eq_blocksLeft (matA m c) (matX m c) (matWp m c) hA (Cert.Spec.sm_real (matA m c) (matX m c) (matWp m c) hA hX hW) g cc d]

/-- The first result: one function of the blocks on both sides. -/
theorem res_A (hpre : Cert.Pre_KernelIdeal m) (c : Dev Cert.KernelIdeal.nD) :
    Wt5 m ρ c (Proc.devRef .tc Cert.KernelIdeal.main_v22)
      = Cert.RefValue.tail (F := Ideal) (Cert.ReferenceIdeal.Read.val_main_v38 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))) := by
  rw [Wt5_v22, Wt4_v5_1]
  show Cert.RefValue.tail (F := Ideal) _ = _
  exact congrArg (Cert.RefValue.tail (F := Ideal)) (blk_fun m ρ hpre c)

theorem res_X (c : Dev Cert.KernelIdeal.nD) :
    Wt5 m ρ c (Proc.devRef .tc Cert.KernelIdeal.main_v5_0)
      = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  (Wt5_v5_0 m ρ c).trans (cx_fun m ρ c)

theorem res_I (c : Dev Cert.KernelIdeal.nD) :
    Wt5 m ρ c (Proc.devRef .tc Cert.KernelIdeal.main_v25) = Cert.ReferenceIdeal.Read.val_main_v57 (F := Ideal) :=
  (Wt5_v25 m ρ c).trans rfl

/-! ## The claims -/

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2.2.2) (Cert.ReferenceIdeal.Value.run (F := Ideal) m ρ)
theorem preserves : Cert.preserves_Kernel_KernelIdeal := trivial

theorem algebraic : Cert.algebraic_KernelIdeal_ReferenceIdeal := by
  intro m ρ m' ρ' hpre hagree
  refine ⟨fun c => Wt5 m ρ c (Proc.devRef .tc Cert.KernelIdeal.main_v22), fun c => Wt5 m ρ c (Proc.devRef .tc Cert.KernelIdeal.main_v5_0),
    fun c => Wt5 m ρ c (Proc.devRef .tc Cert.KernelIdeal.main_v25), ?_, ?_⟩
  · exact (θ_run Cert.KernelIdeal.defs _ _).mono (fun r h c =>
      ⟨h c Cert.KernelIdeal.main_v22 (by decide), h c Cert.KernelIdeal.main_v5_0 (by decide), h c Cert.KernelIdeal.main_v25 (by decide),
        (h c Cert.KernelIdeal.main_arg0 (by decide)).trans (kept_arg0 m ρ c), (h c Cert.KernelIdeal.main_arg1 (by decide)).trans (kept_arg1 m ρ c),
        (h c Cert.KernelIdeal.main_arg2 (by decide)).trans (kept_arg2 m ρ c), (h c Cert.KernelIdeal.main_arg3 (by decide)).trans (kept_arg3 m ρ c),
        (h c Cert.KernelIdeal.main_arg4 (by decide)).trans (kept_arg4 m ρ c)⟩) (Cert.KernelIdeal.Fr.run (F := Ideal) m ρ)
  · refine (θ_run Cert.ReferenceIdeal.defs _ _).mono (fun r h c => ?_) (Cert.ReferenceIdeal.Value.run (F := Ideal) m' ρ')
    obtain ⟨h54, h36, h57, hargs⟩ := h c
    obtain ⟨a0, a1, a2, a3, a4⟩ := hagree c
    refine ⟨h54.trans ?_, h36.trans ?_, h57.trans ?_, hargs⟩
    · rw [Cert.ReferenceIdeal.Read.val_main_v54_eq, Cert.RefValue.ref_A_tail, a0, a1, a2]
      exact (res_A m ρ hpre c).symm
    · refine (Cert.ReferenceIdeal.Read.val_main_v36_eq _ _ _ _).trans ?_
      rw [a0, a1, a2, a3]
      exact (res_X m ρ c).symm
    · exact (res_I m ρ c).symm

end Cert.Proof.Claims

end
-- ==== Proof.lean ====
/-
  A batch of 32 graphs of 256 nodes each is coarsened: two graph-convolution heads `A · (X · W)` clamped at zero, a row
  softmax `S` of the first, and per graph the coarse features `Sᵀ Z` and the coarse adjacency `Sᵀ A_g S`, scattered onto
  a block diagonal. The kernel computes the two heads in one tiled, accumulating matrix product against the
  concatenated weights and the per-graph products four graphs at a time; the reference computes them with whole-array
  operations. At the ideal instance (floats extended reals, operations exact) the two agree for finite inputs; the one
  place finiteness is used is the re-association of the triple product `Sᵀ A_g S`.

  The claims are proved in Proof/Assemble.lean, over: the specification (Proof/Spec.lean) with its association law
  and the realness of the softmax's entries (SpecLaw, SpecReal), the precondition read as "every entry is a real"
  (PreReal), the reference read at an index (RefSpecA, RefSpecB, RefTail), and for each of the two kernel programs the
  two regions' bodies, proof data and records and the whole run (Proof/KI/…, Proof/KB/…), with the idealized kernel's
  values read off its run (Val0A–D, Val1A–B, Pay0, Pay0S, Pay0Z, Pay1, Glue, Bridge1, Bridge2a, Bridge2b).
-/
import proofs.«124585_j89764816486779_2_alg».proof.Defs
import proofs.«124585_j89764816486779_2_alg».proof.Proof.Gen.Kernel
import proofs.«124585_j89764816486779_2_alg».proof.Proof.Gen.KernelIdeal
import proofs.«124585_j89764816486779_2_alg».proof.Proof.Gen.ReferenceIdeal
import proofs.«124585_j89764816486779_2_alg».proof.Proof.Gen.Pre_finite_inputs
import proofs.«124585_j89764816486779_2_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
